-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S512x1024 : Shape := ⟨2, ![512, 1024]⟩
abbrev S512 : Shape := ⟨1, ![512]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16x2048x1024 .f32) (main_arg1 : IVec S16x2048 1) (main_arg2 : FVec F S512x1024 .f32) (main_arg3 : FVec F S512 .f32) (main_arg4 : FVec F S512 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16x2048x1024 : Shape := ⟨3, ![16, 2048, 1024]⟩
abbrev S16x2048 : Shape := ⟨2, ![16, 2048]⟩
abbrev S512x1024 : Shape := ⟨2, ![512, 1024]⟩
abbrev S512 : Shape := ⟨1, ![512]⟩
abbrev S1x512 : Shape := ⟨2, ![1, 512]⟩
abbrev S16x2048x512 : Shape := ⟨3, ![16, 2048, 512]⟩
abbrev S16x1x1 : Shape := ⟨3, ![16, 1, 1]⟩
abbrev S1x1024x1024 : Shape := ⟨3, ![1, 1024, 1024]⟩
abbrev S1x1024x512 : Shape := ⟨3, ![1, 1024, 512]⟩
abbrev S1x1x1 : Shape := ⟨3, ![1, 1, 1]⟩
abbrev S1x1 : Shape := ⟨2, ![1, 1]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩
abbrev S16x1 : Shape := ⟨2, ![16, 1]⟩
abbrev S16x2047 : Shape := ⟨2, ![16, 2047]⟩
abbrev S2048 : Shape := ⟨1, ![2048]⟩
abbrev S1x2048 : Shape := ⟨2, ![1, 2048]⟩
abbrev S16x2048x1 : Shape := ⟨3, ![16, 2048, 1]⟩
abbrev S1x512x512 : Shape := ⟨3, ![1, 512, 512]⟩
abbrev S1x512x1 : Shape := ⟨3, ![1, 512, 1]⟩
abbrev S512x1 : Shape := ⟨2, ![512, 1]⟩
abbrev S512x512 : Shape := ⟨2, ![512, 512]⟩

abbrev nBuf : Space → Nat
  | .hbm => 52
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S512x1024, .f32⟩
  | .hbm, ⟨3, _⟩ => ⟨S512, .f32⟩
  | .hbm, ⟨4, _⟩ => ⟨S512, .f32⟩
  | .hbm, ⟨5, _⟩ => ⟨S512x1024, .bf16⟩
  | .hbm, ⟨6, _⟩ => ⟨S1x512, .f32⟩
  | .hbm, ⟨7, _⟩ => ⟨S16x2048x512, .f32⟩
  | .hbm, ⟨8, _⟩ => ⟨S16x1x1, .f32⟩
  | .hbm, ⟨9, _⟩ => ⟨S16x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S_, .i1⟩
  | .hbm, ⟨37, _⟩ => ⟨S16x1, .i1⟩
  | .hbm, ⟨38, _⟩ => ⟨S16x2047, .i1⟩
  | .hbm, ⟨39, _⟩ => ⟨S16x2048, .i1⟩
  | .hbm, ⟨40, _⟩ => ⟨S2048, .i32⟩
  | .hbm, ⟨41, _⟩ => ⟨S1x2048, .i32⟩
  | .hbm, ⟨42, _⟩ => ⟨S_, .i32⟩
  | .hbm, ⟨43, _⟩ => ⟨S_, .i32⟩
  | .hbm, ⟨44, _⟩ => ⟨S16x2048, .i32⟩
  | .hbm, ⟨45, _⟩ => ⟨S16x2048, .i32⟩
  | .hbm, ⟨46, _⟩ => ⟨S16x2048, .i32⟩
  | .hbm, ⟨47, _⟩ => ⟨S_, .i32⟩
  | .hbm, ⟨48, _⟩ => ⟨S_, .i32⟩
  | .hbm, ⟨49, _⟩ => ⟨S16x2048, .i32⟩
  | .hbm, ⟨50, _⟩ => ⟨S16x2048x1, .i32⟩
  | .hbm, ⟨51, _⟩ => ⟨S16x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S512x1024, .bf16⟩
  | .local _ .vmem, ⟨3, _⟩ => ⟨S1x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | .local _ .vmem, ⟨11, _⟩ => ⟨S1x1, .f32⟩
  | .local _ .vmem, ⟨12, _⟩ => ⟨S1x512x512, .f32⟩
  | .local _ .vmem, ⟨13, _⟩ => ⟨S1x512x512, .f32⟩
  | .local _ .vmem, ⟨14, _⟩ => ⟨S1x512x1, .i32⟩
  | .local _ .vmem, ⟨15, _⟩ => ⟨S1x512x1, .i32⟩
  | .local _ .vmem, ⟨16, _⟩ => ⟨S1x512, .f32⟩
  | .local _ .vmem, ⟨17, _⟩ => ⟨S1x512x512, .f32⟩
  | .local _ .vmem, ⟨18, _⟩ => ⟨S1x512x512, .f32⟩
  | .local _ .vmem, ⟨19, _⟩ => ⟨S1x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v26 : Ref sig .tc := ⟨.hbm, 46, rfl⟩
abbrev main_call1_c : Ref sig .tc := ⟨.hbm, 47, rfl⟩
abbrev main_call1_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v35 : BitVec 1 := Scalar.cmpi .eq arg1 c1_i32
  let v36 : BitVec 32 := Scalar.extui v35
  let c0_i32_22 : BitVec 32 := 0#32
  let v37 : BitVec 1 := Scalar.cmpi .ne v36 c0_i32_22
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  h_S_ : 0 < S_.numel
  bcast_S_S512 : S_.BroadcastsInDim S512 (![] : Fin 0 → Fin S512.rank)
  bcast_S_S16x1 : S_.BroadcastsInDim S16x1 (![] : Fin 0 → Fin S16x1.rank)
  slices_S16x2048_S16x2047_0_0 : S16x2048.Slices ![0, 0] S16x2047
  concatenates_S16x1_S16x2047_S16x2048_d1 : Shape.Concatenates [S16x1, S16x2047] S16x2048 1
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S_S16x2048 : S_.BroadcastsInDim S16x2048 (![] : Fin 0 → Fin S16x2048.rank)
  bcast_S_S_ : S_.BroadcastsInDim S_ (![] : Fin 0 → Fin S_.rank)
  reduceWindows_S16x2048_S16x2048_w1s1p0_0_w2048s1p2047_0 : S16x2048.ReduceWindows (![1, 2048] : Fin 2 → Nat) ![1, 1] ![0, 2047] ![0, 0] S16x2048
  shapeCasts_S16x2048_S16x2048x1 : S16x2048.ShapeCasts S16x2048x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S512x512_d1_w32 : S512x512.Iotas .tc 32 [1]
  shapeCasts_S512x1_S512x1 : S512x1.ShapeCasts S512x1
  broadcasts_S512x1_S512x512 : S512x1.Broadcasts S512x512
  natLt_1_32 : 1 < 32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S1x512_S512x512 : S1x512.Broadcasts S512x512
  shapeCasts_S512x512_S1x512x512 : S512x512.ShapeCasts S1x512x512
  slices_S512x512_o511_0_S1x512 : S512x512.Slices ![511, 0] S1x512
  dot_S1024x1024_S512x1024_S1024x512_1_1_0_0_n_n_wf : DotDims.WF S1024x1024 S512x1024 S1024x512 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S16x2048x512.size a
  hwx0_3 : ∀ i : grid0.Coords, EltTy.bits .f32 = 32 ∨ (Rect.block (s := S16x2048x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S16x1x1.size a
  hwx0_5 : ∀ i : grid0.Coords, EltTy.bits .f32 = 32 ∨ (Rect.block (s := S16x1x1) S1x1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S16x2048x512.size a
  hwx1_0 : ∀ i : grid1.Coords, EltTy.bits .f32 = 32 ∨ (Rect.block (s := S16x2048x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S16x2048x1.size a
  hwx1_1 : ∀ i : grid1.Coords, EltTy.bits .i32 = 32 ∨ (Rect.block (s := S16x2048x1) S1x512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S16x2048x512.size a
  hwx1_3 : ∀ i : grid1.Coords, EltTy.bits .f32 = 32 ∨ (Rect.block (s := S16x2048x512) S1x512x512.size (cc1_transform_3 i) (hinb1_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2_0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S512x1024 : Shape := ⟨2, ![512, 1024]⟩
abbrev S512 : Shape := ⟨1, ![512]⟩
abbrev S16x2048x512 : Shape := ⟨3, ![16, 2048, 512]⟩
abbrev S1x1x512 : Shape := ⟨3, ![1, 1, 512]⟩
abbrev S_ : Shape := ⟨0, ![]⟩
abbrev S2048 : Shape := ⟨1, ![2048]⟩
abbrev S16x1 : Shape := ⟨2, ![16, 1]⟩
abbrev S16x2047 : Shape := ⟨2, ![16, 2047]⟩
abbrev S1x2048 : Shape := ⟨2, ![1, 2048]⟩
abbrev S16x2048x1 : Shape := ⟨3, ![16, 2048, 1]⟩
abbrev S1 : Shape := ⟨1, ![1]⟩
abbrev S1x1x1 : Shape := ⟨3, ![1, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S512x1024, .f32⟩
  | .hbm, ⟨3, _⟩ => ⟨S512, .f32⟩
  | .hbm, ⟨4, _⟩ => ⟨S512, .f32⟩
  | .hbm, ⟨5, _⟩ => ⟨S16x2048x512, .f32⟩
  | .hbm, ⟨6, _⟩ => ⟨S1x1x512, .f32⟩
  | .hbm, ⟨7, _⟩ => ⟨S16x2048x512, .f32⟩
  | .hbm, ⟨8, _⟩ => ⟨S16x2048x512, .f32⟩
  | .hbm, ⟨9, _⟩ => ⟨S16x2048x512, .i1⟩
  | .hbm, ⟨10, _⟩ => ⟨S16x2048x512, .i1⟩
  | .hbm, ⟨11, _⟩ => ⟨S16x2048x512, .i32⟩
  | .hbm, ⟨12, _⟩ => ⟨S16x2048x512, .f32⟩
  | .hbm, ⟨13, _⟩ => ⟨S_, .f32⟩
  | .hbm, ⟨14, _⟩ => ⟨S_, .f32⟩
  | .hbm, ⟨15, _⟩ => ⟨S16x2048x512, .i1⟩
  | .hbm, ⟨16, _⟩ => ⟨S_, .f32⟩
  | .hbm, ⟨17, _⟩ => ⟨S16x2048x512, .f32⟩
  | .hbm, ⟨18, _⟩ => ⟨S16x2048x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x512, .i1⟩
  | .hbm, ⟨27, _⟩ => ⟨S16x2048x512, .i1⟩
  | .hbm, ⟨28, _⟩ => ⟨S16x2048x512, .i32⟩
  | .hbm, ⟨29, _⟩ => ⟨S16x2048x512, .f32⟩
  | .hbm, ⟨30, _⟩ => ⟨S_, .f32⟩
  | .hbm, ⟨31, _⟩ => ⟨S_, .f32⟩
  | .hbm, ⟨32, _⟩ => ⟨S16x2048x512, .i1⟩
  | .hbm, ⟨33, _⟩ => ⟨S_, .f32⟩
  | .hbm, ⟨34, _⟩ => ⟨S16x2048x512, .f32⟩
  | .hbm, ⟨35, _⟩ => ⟨S16x2048x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x2048x512, .i1⟩
  | .hbm, ⟨43, _⟩ => ⟨S16x2048x512, .i1⟩
  | .hbm, ⟨44, _⟩ => ⟨S16x2048x512, .i32⟩
  | .hbm, ⟨45, _⟩ => ⟨S16x2048x512, .f32⟩
  | .hbm, ⟨46, _⟩ => ⟨S_, .f32⟩
  | .hbm, ⟨47, _⟩ => ⟨S_, .f32⟩
  | .hbm, ⟨48, _⟩ => ⟨S16x2048x512, .i1⟩
  | .hbm, ⟨49, _⟩ => ⟨S_, .f32⟩
  | .hbm, ⟨50, _⟩ => ⟨S16x2048x512, .f32⟩
  | .hbm, ⟨51, _⟩ => ⟨S16x2048x512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S_, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S1x1x512, .f32⟩
  | .hbm, ⟨66, _⟩ => ⟨S16x2048x512, .f32⟩
  | .hbm, ⟨67, _⟩ => ⟨S16x2048x512, .f32⟩
  | .hbm, ⟨68, _⟩ => ⟨S2048, .i32⟩
  | .hbm, ⟨69, _⟩ => ⟨S_, .i1⟩
  | .hbm, ⟨70, _⟩ => ⟨S16x1, .i1⟩
  | .hbm, ⟨71, _⟩ => ⟨S16x2047, .i1⟩
  | .hbm, ⟨72, _⟩ => ⟨S16x2048, .i1⟩
  | .hbm, ⟨73, _⟩ => ⟨S1x2048, .i32⟩
  | .hbm, ⟨74, _⟩ => ⟨S_, .i32⟩
  | .hbm, ⟨75, _⟩ => ⟨S_, .i32⟩
  | .hbm, ⟨76, _⟩ => ⟨S16x2048, .i32⟩
  | .hbm, ⟨77, _⟩ => ⟨S16x2048, .i32⟩
  | .hbm, ⟨78, _⟩ => ⟨S16x2048, .i32⟩
  | .hbm, ⟨79, _⟩ => ⟨S_, .i32⟩
  | .hbm, ⟨80, _⟩ => ⟨S_, .i32⟩
  | .hbm, ⟨81, _⟩ => ⟨S16x2048, .i32⟩
  | .hbm, ⟨82, _⟩ => ⟨S16x2048x1, .i32⟩
  | .hbm, ⟨83, _⟩ => ⟨S_, .i32⟩
  | .hbm, ⟨84, _⟩ => ⟨S16x2048x1, .i32⟩
  | .hbm, ⟨85, _⟩ => ⟨S16x2048x1, .i1⟩
  | .hbm, ⟨86, _⟩ => ⟨S_, .i32⟩
  | .hbm, ⟨87, _⟩ => ⟨S16x2048x1, .i32⟩
  | .hbm, ⟨88, _⟩ => ⟨S16x2048x1, .i32⟩
  | .hbm, ⟨89, _⟩ => ⟨S16x2048x1, .i32⟩
  | .hbm, ⟨90, _⟩ => ⟨S1, .i32⟩
  | .hbm, ⟨91, _⟩ => ⟨S_, .i32⟩
  | .hbm, ⟨92, _⟩ => ⟨S16x2048x1, .i32⟩
  | .hbm, ⟨93, _⟩ => ⟨S16x2048x1, .i1⟩
  | .hbm, ⟨94, _⟩ => ⟨S1x1x1, .i32⟩
  | .hbm, ⟨95, _⟩ => ⟨S16x2048x1, .i32⟩
  | .hbm, ⟨96, _⟩ => ⟨S16x2048x1, .i1⟩
  | .hbm, ⟨97, _⟩ => ⟨S16x2048x1, .i1⟩
  | .hbm, ⟨98, _⟩ => ⟨S_, .i1⟩
  | .hbm, ⟨99, _⟩ => ⟨S16x2048, .i1⟩
  | .hbm, ⟨100, _⟩ => ⟨S16x2048x512, .f32⟩
  | .hbm, ⟨101, _⟩ => ⟨S16x2048x512, .i1⟩
  | .hbm, ⟨102, _⟩ => ⟨S_, .f32⟩
  | .hbm, ⟨103, _⟩ => ⟨S16x2048x512, .f32⟩
  | .hbm, ⟨104, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_cst : Ref sig .tc := ⟨.hbm, 13, rfl⟩
abbrev main_call0_v4 : Ref sig .tc := ⟨.hbm, 14, rfl⟩
abbrev main_call0_call0_v0 : Ref sig .tc := ⟨.hbm, 15, rfl⟩
abbrev main_call0_call0_cst : Ref sig .tc := ⟨.hbm, 16, rfl⟩
abbrev main_call0_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_cst : Ref sig .tc := ⟨.hbm, 30, rfl⟩
abbrev main_call1_v4 : Ref sig .tc := ⟨.hbm, 31, rfl⟩
abbrev main_call1_call0_v0 : Ref sig .tc := ⟨.hbm, 32, rfl⟩
abbrev main_call1_call0_cst : Ref sig .tc := ⟨.hbm, 33, rfl⟩
abbrev main_call1_call0_call0_v0 : Ref sig .tc := ⟨.hbm, 34, rfl⟩
abbrev main_call1_call0_v1 : Ref sig .tc := ⟨.hbm, 35, rfl⟩
abbrev main_call1_call0_cst_0 : Ref sig .tc := ⟨.hbm, 36, rfl⟩
abbrev main_call1_v5 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_cst : Ref sig .tc := ⟨.hbm, 46, rfl⟩
abbrev main_call2_v4 : Ref sig .tc := ⟨.hbm, 47, rfl⟩
abbrev main_call2_call0_v0 : Ref sig .tc := ⟨.hbm, 48, rfl⟩
abbrev main_call2_call0_cst : Ref sig .tc := ⟨.hbm, 49, rfl⟩
abbrev main_call2_call0_call0_v0 : Ref sig .tc := ⟨.hbm, 50, rfl⟩
abbrev main_call2_call0_v1 : Ref sig .tc := ⟨.hbm, 51, rfl⟩
abbrev main_call2_call0_cst_0 : Ref sig .tc := ⟨.hbm, 52, rfl⟩
abbrev main_call2_v5 : Ref sig .tc := ⟨.hbm, 53, rfl⟩
abbrev main_v12 : Ref sig .tc := ⟨.hbm, 54, rfl⟩
abbrev main_cst_0 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_1 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_c_2 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v29 : Ref sig .tc := ⟨.hbm, 78, rfl⟩
abbrev main_call4_c : Ref sig .tc := ⟨.hbm, 79, rfl⟩
abbrev main_call4_v0 : Ref sig .tc := ⟨.hbm, 80, rfl⟩
abbrev main_v30 : Ref sig .tc := ⟨.hbm, 81, rfl⟩
abbrev main_v31 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_c_1 : Ref sig .tc := ⟨.hbm, 90, rfl⟩
abbrev main_call5_c_2 : Ref sig .tc := ⟨.hbm, 91, rfl⟩
abbrev main_call5_v5 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_c_3 : Ref sig .tc := ⟨.hbm, 98, rfl⟩
abbrev main_call5_v11 : Ref sig .tc := ⟨.hbm, 99, rfl⟩
abbrev main_call5_v12 : Ref sig .tc := ⟨.hbm, 100, rfl⟩
abbrev main_call5_v13 : Ref sig .tc := ⟨.hbm, 101, rfl⟩
abbrev main_call5_cst : Ref sig .tc := ⟨.hbm, 102, rfl⟩
abbrev main_call5_v14 : Ref sig .tc := ⟨.hbm, 103, rfl⟩
abbrev main_v32 : Ref sig .tc := ⟨.hbm, 104, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  natLt_1_32 : 1 < 32
  reducesTo_S16x2048x512_S_d0_1_2 : S16x2048x512.ReducesTo [0, 1, 2] S_
  h_S_ : 0 < S_.numel
  bcast_S_S16x2048x512 : S_.BroadcastsInDim S16x2048x512 (![] : Fin 0 → Fin S16x2048x512.rank)
  bcast_S_S512 : S_.BroadcastsInDim S512 (![] : Fin 0 → Fin S512.rank)
  bcast_S_S16x1 : S_.BroadcastsInDim S16x1 (![] : Fin 0 → Fin S16x1.rank)
  slices_S16x2048_S16x2047_0_0 : S16x2048.Slices ![0, 0] S16x2047
  concatenates_S16x1_S16x2047_S16x2048_d1 : Shape.Concatenates [S16x1, S16x2047] S16x2048 1
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S_S16x2048 : S_.BroadcastsInDim S16x2048 (![] : Fin 0 → Fin S16x2048.rank)
  bcast_S_S_ : S_.BroadcastsInDim S_ (![] : Fin 0 → Fin S_.rank)
  reduceWindows_S16x2048_S16x2048_w1s1p0_0_w2048s1p2047_0 : S16x2048.ReduceWindows (![1, 2048] : Fin 2 → Nat) ![1, 1] ![0, 2047] ![0, 0] S16x2048
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  reducesTo_S16x2048x1_S16x2048_d2 : S16x2048x1.ReducesTo [2] S16x2048
  bcast_S16x2048_S16x2048x512_0_1 : S16x2048.BroadcastsInDim S16x2048x512 (![0, 1] : Fin 2 → Fin S16x2048x512.rank)
  dot_S16x2048x1024_S512x1024_S16x2048x512_2_1_01_0_n_n_wf : DotDims.WF S16x2048x1024 S512x1024 S16x2048x512 [2] [1] [0, 1] [0] [] []
  gather_S16x2048x512_S16x2048x1_S16x2048x512_2_1_0_0_1_2_11512_wf : GatherDims.WF S16x2048x512 S16x2048x1 S16x2048x512 [2] [1] [0] [1] [0] 2 ![1, 1, 512]

variable [Facts₀]

def dot_S16x2048x1024_S512x1024_S16x2048x512_2_1_01_0_n_n : DotDims S16x2048x1024 S512x1024 S16x2048x512 where
  lhsContracting := [2]
  rhsContracting := [1]
  lhsNonContracting := [0, 1]
  rhsNonContracting := [0]
  lhsBatch := []
  rhsBatch := []
  wf := dot_S16x2048x1024_S512x1024_S16x2048x512_2_1_01_0_n_n_wf
def gather_S16x2048x512_S16x2048x1_S16x2048x512_2_1_0_0_1_2_11512 : GatherDims S16x2048x512 S16x2048x1 S16x2048x512 where
  offsetDims := [2]
  collapsedSliceDims := [1]
  operandBatchingDims := [0]
  startIndicesBatchingDims := [0]
  startIndexMap := [1]
  indexVectorDim := 2
  sliceSizes := ![1, 1, 512]
  wf := gather_S16x2048x512_S16x2048x1_S16x2048x512_2_1_0_0_1_2_11512_wf

class Facts : Prop extends Facts₀ where

variable [Facts]
-- ==== Proof.K.Segs.lean ====
/-
  The run of the whole program as a sequence of segments: host operations, the first kernel region (the matrix
  product with its two running sums), four stretches of host operations (the noise vector; the segment-start
  index by a running maximum), the second kernel region (the forward fill).  Between two segments every
  buffer that outlives a region is held whole at named contents: the launch contents, then each host stretch
  applied, then, after a region, that region's arrays at what its write-backs leave and every other buffer as it
  was.  Each region's own half — what its body leaves at every grid point, the invariant that carries its
  accumulators from point to point, the body's triple — is a parameter here (`Half0`, `Half1`), stated at the
  contents the region is entered from.  The conclusion reads every such buffer of the final memory at the last
  boundary's contents.
-/
import proofs.«144746_j73340861547085_2_alg».proof.Proof.Gen.Kernel.Launch
import proofs.«144746_j73340861547085_2_alg».proof.Proof.Gen.Kernel.Skeleton
import proofs.«144746_j73340861547085_2_alg».proof.Proof.Gen.Kernel.Points
import proofs.«144746_j73340861547085_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every TensorCore buffer of every core, as a region finds them. -/
abbrev Entry (F : FTy → Type) [FloatOps F] : Type :=
  (c : Dev nD) → (b : Ref sig .tc) → Buf (Elt F) ((c : Thread nD τ).loc b)

/-- The first region's half, at any entry contents. -/
structure Half0 (F : FTy → Type) [FloatOps F] where
  dat : Entry F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- The second region's half, at any entry contents. -/
structure Half1 (F : FTy → Type) [FloatOps F] where
  dat : Entry F → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (m : (ℓ : Loc nD τ sig) → Buf (Elt F) ℓ) (ρ : Dev nD → PrngReg)
variable (h0 : Half0 F) (h1 : Half1 F)

/-! ## The buffers' contents at every boundary -/

/-- At launch. -/
abbrev W0 : Dev nD → Valuation τ sig (Elt F) := fun c b => m (c, b)
/-- After the host operations before the first region (its entry). -/
abbrev W1 : Dev nD → Valuation τ sig (Elt F) := fun c => StableHlo.after hostOps0 (W0 m c)
abbrev E1 : Entry F := fun c b => W1 m c b
/-- At the first region's exit: its arrays at what the write-backs leave, every other buffer as entered. -/
def W2 (c : Dev nD) : Valuation τ sig (Elt F) :=
  Pipeline.withArrays spec0 c (W1 m c) fun w => (h0.dat (E1 m) c).arrAt w cfg0.N
theorem W2_arr (c : Dev nD) (w : Fin cfg0.W) :
    W2 m h0 c (Proc.devRef .tc (Pipeline.arrRef spec0 w)) = (h0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m h0 c (Proc.devRef .tc b) = W1 m c (Proc.devRef .tc b) := by
  unfold W2; exact Pipeline.withArrays_of_ne spec0 c _ _ b hb
abbrev E2 : Entry F := fun c b => W2 m h0 c b
theorem hF0 (c : Dev nD) (w : Fin cfg0.W) : (h0.dat (E1 m) c).arrAt w cfg0.N = E2 m h0 c (Pipeline.arrRef spec0 w) :=
  (W2_arr m h0 c w).symm
theorem hrest0 (c : Dev nD) : ∀ b, b ∉ Finset.univ.image (Pipeline.arrRef spec0) → E2 m h0 c b = E1 m c b :=
  fun b hb => W2_of_ne m h0 c b fun w e => hb (Finset.mem_image.mpr ⟨w, Finset.mem_univ _, e⟩)
/-- After each of the four host stretches between the regions. -/
abbrev W3 : Dev nD → Valuation τ sig (Elt F) := fun c => StableHlo.after hostOps1 (W2 m h0 c)
abbrev W4 : Dev nD → Valuation τ sig (Elt F) := fun c => StableHlo.after hostOps1_1 (W3 m h0 c)
abbrev W5 : Dev nD → Valuation τ sig (Elt F) := fun c => StableHlo.after hostOps1_2 (W4 m h0 c)
abbrev W6 : Dev nD → Valuation τ sig (Elt F) := fun c => StableHlo.after hostOps1_3 (W5 m h0 c)
abbrev E6 : Entry F := fun c b => W6 m h0 c b
/-- At the second region's exit. -/
def W7 (c : Dev nD) : Valuation τ sig (Elt F) :=
  Pipeline.withArrays spec1 c (W6 m h0 c) fun w => (h1.dat (E6 m h0) c).arrAt w cfg1.N
theorem W7_arr (c : Dev nD) (w : Fin cfg1.W) :
    W7 m h0 h1 c (Proc.devRef .tc (Pipeline.arrRef spec1 w)) = (h1.dat (E6 m h0) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m h0 h1 c (Proc.devRef .tc b) = W6 m h0 c (Proc.devRef .tc b) := by
  unfold W7; exact Pipeline.withArrays_of_ne spec1 c _ _ b hb
abbrev E7 : Entry F := fun c b => W7 m h0 h1 c b
theorem hF1 (c : Dev nD) (w : Fin cfg1.W) : (h1.dat (E6 m h0) c).arrAt w cfg1.N = E7 m h0 h1 c (Pipeline.arrRef spec1 w) :=
  (W7_arr m h0 h1 c w).symm
theorem hrest1 (c : Dev nD) : ∀ b, b ∉ Finset.univ.image (Pipeline.arrRef spec1) → E7 m h0 h1 c b = E6 m h0 c b :=
  fun b hb => W7_of_ne m h0 h1 c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => h0.dat (E1 m) c
  | ⟨1, _⟩ => fun c => h1.dat (E6 m h0) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment over the buffers that outlive regions, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tn (c : Dev nD) : sProp 𝕄 := iprop(StableHlo.held (c : Thread nD τ) (Pipeline.ucRefs τ sig) (W7 m h0 h1 c) ∗ ∃ r, prngReg c r)

/-! ## The regions as segments -/

set_option backward.isDefEq.respectTransparency.types false in
/-- The first region: entered from every outliving buffer at `W1`, left at `W2`. -/
def reg0 : Pipeline.RegionSeg (pcfgs (F := F)) adm (pdats m h0 h1) () defs₀ 𝒱n Lz lvz 0 where
  win := launch0.win.to₀
  block_pos := launch0.block_pos
  stage_whole := launch0.stage_whole
  K := PEmpty
  osem k := k.elim
  ho := Pipeline.OwnSemFacts.none _
  hbody c := (h0.body (E1 m) c).loose
  hwaits := Pipeline.hwaits_of_owed_zero _ _ _ _ Lz lvz 0 fun c t => h0.owed_eq (E1 m) c t
  pre c := iprop(StableHlo.held (c : Thread nD τ) (Pipeline.ucRefs τ sig) (W1 m c) ∗ Rr c)
  post c := iprop(StableHlo.held (c : Thread nD τ) (Pipeline.ucRefs τ sig) (W2 m h0 c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m h0 h1) launch0.win launch0.arr_whole c
      ((pdats m h0 h1 0 c).share_full fun w => h0.q_eq (E1 m) c w) (E1 m c) fun w => h0.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 0 c).owed 0 = 0 from h0.owed_eq (E1 m) c 0]
      icases HO with ⟨%W, HO⟩; iexists W; isplitr
      · ipureintro; exact fun _ _ => Or.inl (by rw [show (pdats m h0 h1 0 c).recorded 0 = Set.univ from h0.rec_eq (E1 m) c 0]; exact Set.mem_univ _)
      iexact HO
    isplitl [Hp]; · iexact Hp
    iexact Hrest
  hin c := by
    refine .trans ?_ (h0.hin (E1 m) c)
    unfold Pipeline.ΦA
    iintro ⟨Hp, -, Hr⟩
    isplitl [Hr]; · iexact Hr
    iexact Hp
  hout c := by
    rw [Pipeline.ownSems0_none]
    refine (h0.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1) ((pdats m h0 h1 0 c).share_full fun w => h0.q_eq (E1 m) c w)
      (E1 m c) (E2 m h0 c) ((pdats m h0 h1 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 0 c).owed (Fin.last _) = 0 from h0.owed_eq (E1 m) c _]
    icases HO with ⟨%W, -, HO⟩; iexists W; iexact HO

set_option backward.isDefEq.respectTransparency.types false in
/-- The second region: entered from every outliving buffer at `W6`, left at `W7`. -/
def reg1 : Pipeline.RegionSeg (pcfgs (F := F)) adm (pdats m h0 h1) () defs₀ 𝒱n Lz lvz 1 where
  win := launch1.win.to₀
  block_pos := launch1.block_pos
  stage_whole := launch1.stage_whole
  K := PEmpty
  osem k := k.elim
  ho := Pipeline.OwnSemFacts.none _
  hbody c := (h1.body (E6 m h0) c).loose
  hwaits := Pipeline.hwaits_of_owed_zero _ _ _ _ Lz lvz 1 fun c t => h1.owed_eq (E6 m h0) c t
  pre c := iprop(StableHlo.held (c : Thread nD τ) (Pipeline.ucRefs τ sig) (W6 m h0 c) ∗ Rr c)
  post c := iprop(Tn m h0 h1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m h0 c)
  hentry c := by
    rw [Pipeline.ownSems0_none]
    have hsplit := Pipeline.arrays_of_unscopedBufs (p := 1) (pcfgs (F := F)) adm (pdats m h0 h1) launch1.win launch1.arr_whole c
      ((pdats m h0 h1 1 c).share_full fun w => h1.q_eq (E6 m h0) c w) (E6 m h0 c) fun w => h1.A_eq (E6 m h0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 1 c).owed 0 = 0 from h1.owed_eq (E6 m h0) c 0]
      icases HO with ⟨%W, HO⟩; iexists W; isplitr
      · ipureintro; exact fun _ _ => Or.inl (by rw [show (pdats m h0 h1 1 c).recorded 0 = Set.univ from h1.rec_eq (E6 m h0) c 0]; exact Set.mem_univ _)
      iexact HO
    isplitl [Hp]; · iexact Hp
    iexact Hrest
  hin c := by
    refine .trans ?_ (h1.hin (E6 m h0) c)
    unfold Pipeline.ΦA
    iintro ⟨Hp, -, Hr⟩
    isplitl [Hr]; · iexact Hr
    iexact Hp
  hout c := by
    rw [Pipeline.ownSems0_none]
    refine (h1.hout (E6 m h0) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1) ((pdats m h0 h1 1 c).share_full fun w => h1.q_eq (E6 m h0) c w)
      (E6 m h0 c) (E7 m h0 h1 c) ((pdats m h0 h1 1 c).arrAt · cfg1.N) (hF1 m h0 h1 c) (hrest1 m h0 h1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m h0 h1 1 c).owed (Fin.last _) = 0 from h1.owed_eq (E6 m h0) c _]
    icases HO with ⟨%W, -, HO⟩; iexists W; iexact HO

/-! ## The program as segments, and the launch -/

abbrev segsAll : List (Pipeline.Seg (pcfgs (F := F)) adm (pdats m h0 h1) () defs₀ 𝒱n Lz lvz) :=
  [ .host (hseg hostOps0 hostOps0_sub hostOps0_fresh (W0 m)),
    .region (reg0 m h0 h1),
    .host (hseg hostOps1 hostOps1_sub hostOps1_fresh (W2 m h0)),
    .host (hseg hostOps1_1 hostOps1_1_sub hostOps1_1_fresh (W3 m h0)),
    .host (hseg hostOps1_2 hostOps1_2_sub hostOps1_2_fresh (W4 m h0)),
    .host (hseg hostOps1_3 hostOps1_3_sub hostOps1_3_fresh (W5 m h0)),
    .region (reg1 m h0 h1) ]

set_option backward.isDefEq.respectTransparency.types false in
/-- From any memory with zero counters every weakly fair execution of the program terminates, nothing faulting,
    and every buffer that outlives the regions ends at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m h0 h1 c b) :=
  Pipeline.θ_run_regions_kit (pcfgs (F := F)) adm (pdats m h0 h1) () cellOf_inj emb₁ defs₀ 𝒱n Lz lvz m ρ main (segsAll m h0 h1)
    (fun c Q => by
      rewrite [main_chain c, Pipeline.Seg.run_eq_chain,
        show (segsAll m h0 h1).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m h0 h1)
    (hch := ⟨fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m h0 h1 c b)
    (hfin := fun c s' => by
      iintro ⟨⟨Hh, -⟩, HSI⟩
      unfold StableHlo.held
      imodintro
      iapply (pointsTo_read_all (Pipeline.ucRefs τ sig) (fun b => (((c : Thread nD τ)).1, b)) (W7 m h0 h1 c) s')
      isplitl [Hh] <;> iassumption)
    (hQ := fun s h c => h c)

end Cert.Kernel.Hand

end
-- ==== Proof.K.Args.lean ====
/-
  Every argument array reaches the last boundary as launched: no host stretch writes an argument, the second
  region stages none, and the first region stages only the first argument, as an input window, whose array the
  pipeline leaves as it found it.
-/
import proofs.«144746_j73340861547085_2_alg».proof.Proof.K.Segs

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]
variable (m : (ℓ : Loc nD τ sig) → Buf (Elt F) ℓ) (h0 : Half0 F) (h1 : Half1 F)

/-- A buffer no host stretch between the regions writes is, at the second region's entry, as the first region left it. -/
theorem W6_of (c : Dev nD) (r : Ref sig .tc) (ha : r ∉ hostOps1_W) (hb : r ∉ hostOps1_1_W) (hc : r ∉ hostOps1_2_W)
    (hd : r ∉ hostOps1_3_W) : W6 m h0 c (Proc.devRef .tc r) = W2 m h0 c (Proc.devRef .tc r) :=
  (StableHlo.after_of_writes_sub hostOps1_3 _ hostOps1_3_writes hd).trans <|
  (StableHlo.after_of_writes_sub hostOps1_2 _ hostOps1_2_writes hc).trans <|
  (StableHlo.after_of_writes_sub hostOps1_1 _ hostOps1_1_writes hb).trans <|
  (StableHlo.after_of_writes_sub hostOps1 _ hostOps1_writes ha)

/-- A buffer the first host stretch does not write is at launch contents when the first region is entered. -/
theorem W1_of (c : Dev nD) (r : Ref sig .tc) (h : r ∉ hostOps0_W) : W1 m c (Proc.devRef .tc r) = m ((c : Thread nD τ).loc r) :=
  StableHlo.after_of_writes_sub hostOps0 _ hostOps0_writes h

theorem W7_main_arg0 (c : Dev nD) : W7 m h0 h1 c (Proc.devRef .tc main_arg0) = m ((c : Thread nD τ).loc main_arg0) :=
  calc W7 m h0 h1 c (Proc.devRef .tc main_arg0)
    _ = W6 m h0 c (Proc.devRef .tc main_arg0) := W7_of_ne m h0 h1 c main_arg0 (by decide)
    _ = W2 m h0 c (Proc.devRef .tc main_arg0) := W6_of m h0 c main_arg0 (by decide) (by decide) (by decide) (by decide)
    _ = W1 m c (Proc.devRef .tc main_arg0) := (W2_arr m h0 c 0).trans (((h0.dat (E1 m) c).arrAt_in 0 rfl _).trans (h0.A_eq (E1 m) c 0))
    _ = m ((c : Thread nD τ).loc main_arg0) := W1_of m c main_arg0 (by decide)

theorem W7_main_arg1 (c : Dev nD) : W7 m h0 h1 c (Proc.devRef .tc main_arg1) = m ((c : Thread nD τ).loc main_arg1) :=
  calc W7 m h0 h1 c (Proc.devRef .tc main_arg1)
    _ = W6 m h0 c (Proc.devRef .tc main_arg1) := W7_of_ne m h0 h1 c main_arg1 (by decide)
    _ = W2 m h0 c (Proc.devRef .tc main_arg1) := W6_of m h0 c main_arg1 (by decide) (by decide) (by decide) (by decide)
    _ = W1 m c (Proc.devRef .tc main_arg1) := W2_of_ne m h0 c main_arg1 (by decide)
    _ = m ((c : Thread nD τ).loc main_arg1) := W1_of m c main_arg1 (by decide)

theorem W7_main_arg2 (c : Dev nD) : W7 m h0 h1 c (Proc.devRef .tc main_arg2) = m ((c : Thread nD τ).loc main_arg2) :=
  calc W7 m h0 h1 c (Proc.devRef .tc main_arg2)
    _ = W6 m h0 c (Proc.devRef .tc main_arg2) := W7_of_ne m h0 h1 c main_arg2 (by decide)
    _ = W2 m h0 c (Proc.devRef .tc main_arg2) := W6_of m h0 c main_arg2 (by decide) (by decide) (by decide) (by decide)
    _ = W1 m c (Proc.devRef .tc main_arg2) := W2_of_ne m h0 c main_arg2 (by decide)
    _ = m ((c : Thread nD τ).loc main_arg2) := W1_of m c main_arg2 (by decide)

theorem W7_main_arg3 (c : Dev nD) : W7 m h0 h1 c (Proc.devRef .tc main_arg3) = m ((c : Thread nD τ).loc main_arg3) :=
  calc W7 m h0 h1 c (Proc.devRef .tc main_arg3)
    _ = W6 m h0 c (Proc.devRef .tc main_arg3) := W7_of_ne m h0 h1 c main_arg3 (by decide)
    _ = W2 m h0 c (Proc.devRef .tc main_arg3) := W6_of m h0 c main_arg3 (by decide) (by decide) (by decide) (by decide)
    _ = W1 m c (Proc.devRef .tc main_arg3) := W2_of_ne m h0 c main_arg3 (by decide)
    _ = m ((c : Thread nD τ).loc main_arg3) := W1_of m c main_arg3 (by decide)

theorem W7_main_arg4 (c : Dev nD) : W7 m h0 h1 c (Proc.devRef .tc main_arg4) = m ((c : Thread nD τ).loc main_arg4) :=
  calc W7 m h0 h1 c (Proc.devRef .tc main_arg4)
    _ = W6 m h0 c (Proc.devRef .tc main_arg4) := W7_of_ne m h0 h1 c main_arg4 (by decide)
    _ = W2 m h0 c (Proc.devRef .tc main_arg4) := W6_of m h0 c main_arg4 (by decide) (by decide) (by decide) (by decide)
    _ = W1 m c (Proc.devRef .tc main_arg4) := W2_of_ne m h0 c main_arg4 (by decide)
    _ = m ((c : Thread nD τ).loc main_arg4) := W1_of m c main_arg4 (by decide)

/-- The frame: from any memory with zero counters the program runs to the end and every argument array ends as
    launched. -/
theorem frame_all (g0 : Half0 F) (g1 : Half1 F) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m g0 g1 c),
     (h c _ (mem_uc main_arg1 (by decide))).trans (W7_main_arg1 m g0 g1 c),
     (h c _ (mem_uc main_arg2 (by decide))).trans (W7_main_arg2 m g0 g1 c),
     (h c _ (mem_uc main_arg3 (by decide))).trans (W7_main_arg3 m g0 g1 c),
     (h c _ (mem_uc main_arg4 (by decide))).trans (W7_main_arg4 m g0 g1 c)⟩) (run_all m ρ g0 g1)

end Cert.Kernel.Hand

end
-- ==== Proof.K.R0Kit.lean ====
/- Region 0's half of the frame, what its two cases share: the branch conditions decided over the grid, where the
   conditional outputs are idle, the staging and scratch memrefs, the invariant with the accumulators named, and the
   input windows' blocks, all at the contents `V` the region is entered with. -/
import proofs.«144746_j73340861547085_2_alg».proof.Proof.Gen.Kernel.Launch
import proofs.«144746_j73340861547085_2_alg».proof.Proof.Gen.Kernel.Skeleton
import proofs.«144746_j73340861547085_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the matrix product with its two running sums), at the contents `V` the region is entered with

What the two cases of the body share: the branch conditions in closed form, where the two conditional outputs are
idle, the staging and scratch memrefs, the region invariant with the two accumulators named, and the input
windows' blocks. -/

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the x-block, fetched at every point) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, fetched at the first point only) holds its block at every point: where it is not
    fetched the block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias, fetched at the first point only) holds its block at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first conditional (`k0_h1`: the inner coordinate is 0, where the two accumulators are
    zeroed), from the grid coordinates. -/
abbrev cond0_0 (i : grid0.Coords) : Prop := (Scalar.cmpi .ne (Scalar.extui (Scalar.cmpi .eq (BitVec.ofNat 32 (i 1).val) 0#32)) 0#32) = 1#1
/-- It holds at the even points — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's second conditional (`k0_h2`: the inner coordinate is the last, where the two sums
    are written out), from the grid coordinates. -/
abbrev cond0_1 (i : grid0.Coords) : Prop := k0_cond2 i = 1#1
/-- It holds at the odd points — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- Windows 0 to 3 are never idle (the inputs, and the product's block, stored at every point). -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- At the even points (case A) the sum's window is idle — the case stores nothing into it — and is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- So is the sum of squares' window. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points (case B) both are live: the case stores into them. -/
theorem liveAt0_4_B : ∀ t : Fin cfg0.N, ¬cond0_0 (grid0.coords t) → cond0_1 (grid0.coords t) → cfg0.idle 4 (grid0.coords t) = false := by decide +kernel
theorem liveAt0_5_B : ∀ t : Fin cfg0.N, ¬cond0_0 (grid0.coords t) → cond0_1 (grid0.coords t) → cfg0.idle 5 (grid0.coords t) = false := by decide +kernel

/-! ## The staging and scratch memrefs -/

/-- One staging buffer of each output window, through which its contents are stated (the choice does not matter:
    `View.read_writes_of_cover`). -/
abbrev VO0_3 : View sig .tc .vmem S1x1024x512 .f32 := (Memref.whole cc0_stg3_0 : Memref sig .tc .vmem S1x1024x512 .f32).view
abbrev VO0_4 : View sig .tc .vmem S1x1x1 .f32 := (Memref.whole cc0_stg4_0 : Memref sig .tc .vmem S1x1x1 .f32).view
abbrev VO0_5 : View sig .tc .vmem S1x1x1 .f32 := (Memref.whole cc0_stg5_0 : Memref sig .tc .vmem S1x1x1 .f32).view
/-- Each window's current staging memref at point `t`, spelled as the pipeline passes it, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
/-- The two scratch accumulators (the running sum and the running sum of squares): whole scoped buffers of the
    kernel's own, passed beside the windows. -/
abbrev scM0_0 : Memref sig .tc .vmem S1x1 .f32 := Memref.whole cc0_scratch0
abbrev scM0_1 : Memref sig .tc .vmem S1x1 .f32 := Memref.whole cc0_scratch1
/-- The same as views: what they hold between points is stated through these. -/
abbrev VS0_0 : View sig .tc .vmem S1x1 .f32 := scM0_0.view
abbrev VS0_1 : View sig .tc .vmem S1x1 .f32 := scM0_1.view

/-! ## The region invariant, the accumulators named -/

/-- The core's scoped buffers that are neither a staging buffer of this region nor one of its two accumulators
    (the other region's staging buffers and scratch), each whole at some contents: carried through every point
    unopened. -/
abbrev restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's invariant with the two accumulators as memrefs owned at some contents, the other scoped buffers
    beside them: what the body is handed and gives back at every point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR0 (F := F) c) ∗ (∃ r, prngReg c r)) := by
  unfold Pipeline.ΦA; rw [scopedRest0_eq]; simp only [scM0_0, scM0_1, owns_whole]; try rfl

end Cert.Kernel.Hand

end
-- ==== Proof.K.R0RunA.lean ====
/- Region 0's body run in case A (the even points): the body's triple on any whole memrefs, with the pieces (the stores,
   last first) each buffer ends with. -/
import proofs.«144746_j73340861547085_2_alg».proof.Proof.K.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each buffer, as pieces (last first), IN CASE A (the inner coordinate is 0: the
    accumulators are zeroed first, the two sums are not written out — the even points), WITH the proof that on whole
    memrefs — the three inputs' at their contents, the product's block at anything, the two sums' windows at
    contents `xi·` handed back untouched (the case stores nothing into them), the two accumulators at anything (they
    are zeroed before they are read) — the body runs to the continuation holding the inputs' as they were, the
    product's block and the two accumulators with their pieces written. The pieces list the body's stores into each buffer, the last first. -/
noncomputable def kernelRun0_A (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) :
    Σ' (L3 : List (View.Piece (Elt F) S1x1024x512 .f32)) (L4 : List (View.Piece (Elt F) S1x1x1 .f32)) (L5 : List (View.Piece (Elt F) S1x1x1 .f32)) (LS0 : List (View.Piece (Elt F) S1x1 .f32)),
      { LS1 : List (View.Piece (Elt F) S1x1 .f32) //
      ∀ (xi4 : Vec F S1x1x1 .f32) (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mm_reduce_kernel i arg2 harg2 arg3 harg3 arg4 harg4 arg5 harg5 arg6 harg6 arg7 harg7 arg8 harg8 arg9 harg9) K } := by
  refine ⟨?_, [], [], ?_, ?_, fun xi4 xi5 E K => ?run⟩
  case run =>
    simp only [cc0__mm_reduce_kernel_eq_skeleton]; unfold cc0__mm_reduce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.R0RunB.lean ====
/- Region 0's body run in case B (the odd points): the body's triple on any whole memrefs, with the pieces (the stores,
   last first) each buffer ends with. -/
import proofs.«144746_j73340861547085_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each buffer, as pieces (last first), IN CASE B (the inner coordinate is the last:
    the accumulators are not zeroed, the two sums are written out — the odd points), WITH the proof that on whole
    memrefs — the three inputs' at their contents, the product's block and the two sums' windows at anything, the two
    accumulators at the contents `xs·` the point before left — the body runs to the continuation holding the inputs'
    as they were and every other buffer with its pieces written. The pieces list the body's stores into each buffer, the last first. -/
noncomputable def kernelRun0_B (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    Σ' (L3 : List (View.Piece (Elt F) S1x1024x512 .f32)) (L4 : List (View.Piece (Elt F) S1x1x1 .f32)) (L5 : List (View.Piece (Elt F) S1x1x1 .f32)) (LS0 : List (View.Piece (Elt F) S1x1 .f32)),
      { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mm_reduce_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__mm_reduce_kernel_eq_skeleton]; unfold cc0__mm_reduce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.R0.lean ====
/- Region 0's half of the frame: what each case of the body leaves in the outputs and in the two accumulators it
   carries between points, the contents point by point, the proof data at the contents `V` the region is entered
   with, the body obligation, and the invariant's two ends. -/
import proofs.«144746_j73340861547085_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves in the outputs and in the two accumulators -/

/-- In case A (the even points) the pieces stored into the product's block tile it (one whole-block store), so they cover it. -/
theorem cover0_A_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) (y : S1x1024x512.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S1x1024x512.size (by sl_kernel_rfl) y

/-- What case A (the even points) leaves in the product's staging buffer: its pieces read back over junk. -/
def out0_A_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1024x512 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- Case A stores nothing into the sum's window (it is idle at the even points and not written back there): no
    pieces — a placeholder (junk read back) that nothing consults. -/
def out0_A_4 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2).2.1)

/-- Case A stores nothing into the sum of squares's window (it is idle at the even points and not written back there): no
    pieces — a placeholder (junk read back) that nothing consults. -/
def out0_A_5 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1x1 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2).2.2.1)

/-- In case A (the even points) the pieces stored into the running sum (an accumulator carried between points) cover it. -/
theorem scover0_A_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) (y : S1x1.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1x1.size (by sl_kernel_rfl) y

/-- What case A (the even points) leaves in the running sum: its pieces read back over junk. -/
def sout0_A_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.2.2.1)

/-- In case A (the even points) the pieces stored into the running sum of squares (an accumulator carried between points) cover it. -/
theorem scover0_A_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) (y : S1x1.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1x1.size (by sl_kernel_rfl) y

/-- What case A (the even points) leaves in the running sum of squares: its pieces read back over junk. -/
def sout0_A_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.2.2.1)

/-- In case B (the odd points) the pieces stored into the product's block tile it (one whole-block store), so they cover it. -/
theorem cover0_B_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1024x512.Idx) :
    ∃ pc ∈ (kernelRun0_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).1 S1x1024x512.size (by sl_kernel_rfl) y

/-- What case B (the odd points) leaves in the product's staging buffer: its pieces read back over junk. -/
def out0_B_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1024x512 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)

/-- In case B (the odd points) the pieces stored into the sum's window tile it (one whole-block store), so they cover it. -/
theorem cover0_B_4 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1x1.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S1x1x1.size (by sl_kernel_rfl) y

/-- What case B (the odd points) leaves in the sum's staging buffer: its pieces read back over junk. -/
def out0_B_4 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 xs0 xs1).2.1)

/-- In case B (the odd points) the pieces stored into the sum of squares's window tile it (one whole-block store), so they cover it. -/
theorem cover0_B_5 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1x1.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S1x1x1.size (by sl_kernel_rfl) y

/-- What case B (the odd points) leaves in the sum of squares's staging buffer: its pieces read back over junk. -/
def out0_B_5 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1x1 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 xs0 xs1).2.2.1)

/-- In case B (the odd points) the pieces stored into the running sum (an accumulator carried between points) cover it. -/
theorem scover0_B_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.1 S1x1.size (by sl_kernel_rfl) y

/-- What case B (the odd points) leaves in the running sum: its pieces read back over junk. -/
def sout0_B_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.2.2.1)

/-- In case B (the odd points) the pieces stored into the running sum of squares (an accumulator carried between points) cover it. -/
theorem scover0_B_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.2.1 S1x1.size (by sl_kernel_rfl) y

/-- What case B (the odd points) leaves in the running sum of squares: its pieces read back over junk. -/
def sout0_B_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.2.2.1)

/-! ## What the buffers hold after each point -/

/-- THE ACCUMULATION. What the three outputs' staging buffers and the two accumulators hold after the body at position
    `n` (a tuple: the outputs in window order, then the running sum and the running sum of squares): the case the
    closed forms select at `n`, run at the point's memrefs and input blocks — at an odd point over what the point before
    left in the accumulators; at an even point they are zeroed first, so nothing of the point before is read. An
    assignment of the conditions no point meets is no case. -/
def outsAt0 (c : Dev nD) : (n : ℕ) → n < cfg0.N → Vec F S1x1024x512 .f32 × Vec F S1x1x1 .f32 × Vec F S1x1x1 .f32 × Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        False.elim (by omega)

/-- `outsAt0` at an even point: case A's contents. -/
theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at an odd point: case B's contents, over what the point before left in the accumulators. -/
theorem outsAt0_B (c : Dev nD) (t : Fin cfg0.N) (h0 : ¬t.val % 2 = 0) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything, the generator register at some state); afterwards the same with the two accumulators
    at what the point before left in them (`outsAt0`'s last two components). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ restR0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the outputs' at `outsAt0`'s components; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; so
    that case's triple applies. The invariant hands the body the two accumulators — at anything at the first point, at
    what the point before left afterwards (which an even point, zeroing them first, does not read) — with the other
    scoped buffers and the generator register, and takes the accumulators back at this point's contents (their pieces
    cover them); at an even point the two sums' windows are idle and handed back untouched; the core owes nothing
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold out0_A_3 sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]; · iexists _; iexact H4
        iexists _; iexact H5
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexists _; iexact HS0
        isplitl [HS1]; · iexists _; iexact HS1
        iintro ⟨H0, H1, H2, ⟨%e3, H3⟩, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]; · iexists _; iexact H4
        iexists _; iexact H5
  · by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_B t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_B t (fun h => h0 ((hcond0_0 t).mp h)) ((hcond0_1 t).mpr h1)], after0_5]
      rw [outsAt0_B V c t h0 h1]
      unfold out0_B_3 out0_B_4 out0_B_5 sout0_B_0 sout0_B_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Hand

end
-- ==== Proof.K.H0.lean ====
/-
  The first region's half, as the record the program's run takes: the proof data at any entry contents, with
  full shares, nothing owed, and the body's obligation at every grid point.
-/
import proofs.«144746_j73340861547085_2_alg».proof.Proof.K.Segs
import proofs.«144746_j73340861547085_2_alg».proof.Proof.K.R0

noncomputable section

namespace Cert.Kernel.Hand

open Cert.Kernel Cert.Kernel.Gen
open Idealize.ShloMosaic Idealize.ShloMosaic.TcCoe

variable {F : FTy → Type} [FloatOps F]

def half0 : Half0 F where
  dat := fun V c => dat0 V c
  A_eq := fun V c w => A_eq0 V c w
  q_eq := fun _ _ _ => rfl
  owed_eq := fun _ _ _ => rfl
  rec_eq := fun _ _ _ => rfl
  body := fun V c => body_obligation0 V c
  hin := fun V c => hin0 V c
  hout := fun V c => hout0 V c

end Cert.Kernel.Hand

end
-- ==== Proof.K.R1Kit.lean ====
/- The second pipelined region (the forward-fill kernel on a 16 × 4 grid): the branch condition of
   its body in closed form, the facts that no window of it is ever idle, the names of the staging and scratch
   memrefs the body is called with, the region invariant with the carried scratch row singled out, and the
   statement that every input window's staging buffer holds the window's block at every point. Everything is
   stated at a parameter `V`: the buffer contents when the region is entered. -/
import proofs.«144746_j73340861547085_2_alg».proof.Proof.Gen.Kernel.Launch
import proofs.«144746_j73340861547085_2_alg».proof.Proof.Gen.Kernel.Skeleton
import proofs.«144746_j73340861547085_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 512 × 512 block of the matrix product's result): its current staging buffer holds its
    block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the 512 × 1 block of source positions): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row added to every row of the result), fetched at the first point only: where it is not
    fetched its block index has not moved, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch condition -/

/-- The condition of the body's one conditional (the inner grid coordinate is zero: the start of a row of blocks),
    from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-! ## No window is ever idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The memrefs the body is called with -/

/-- One staging buffer of the output window, through which its contents are stated. -/
abbrev VO1_3 : View sig .tc .vmem S1x512x512 .f32 := (Memref.whole cc1_stg3_0 : Memref sig .tc .vmem S1x512x512 .f32).view
/-- Each window's current staging memref at point `t`, and its wholeness. -/
abbrev ms1_0 (t : Fin cfg1.N) : Memref sig .tc .vmem S1x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .f32 := win1_3.stage (cfg1.slots t 3)
abbrev hs1_3 (t : Fin cfg1.N) : (ms1_3 t).IsWhole := hstage1_3 ((cfg1.slots t 3).cast nbuf1_3)
/-- The scratch row the body carries from one point to the next: a whole scoped buffer of the kernel's own. -/
abbrev scM1_0 : Memref sig .tc .vmem S1x512 .f32 := Memref.whole cc1_scratch0
/-- The same as a view: what it holds is stated through it. -/
abbrev VS1_0 : View sig .tc .vmem S1x512 .f32 := scM1_0.view

/-! ## The invariant with the carried scratch row singled out -/

/-- Every scoped buffer of the core other than this region's staging buffers and its scratch row, each at some
    contents: carried through the region unopened. -/
abbrev others1 (c : Dev nD) : sProp 𝕄 :=
  Pipeline.scopedRestBut (Ix := Unit) (Name := ℕ) (U := UR sig nD τ) (Lvl := ℕ) (Val := Elt F) spec1 c [cc1_scratch0]

/-- The region's invariant is: the scratch row owned at some contents, the other scoped buffers, and the
    generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL_singleton]; try rfl

end Cert.Kernel.Hand

end
-- ==== Proof.K.R1RunA.lean ====
/- The second pipelined region, the whole-body run of the kernel in case A: the conditional is taken (the inner grid coordinate is zero), so the scratch row is first stored whole with zeros and then read. -/
import proofs.«144746_j73340861547085_2_alg».proof.Proof.K.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the scratch row, as pieces (last
    first) in case A, with the proof that on whole memrefs — the three inputs' at their contents, the output's at
    anything, the scratch row at anything — the body runs to the continuation holding the
    inputs' as they were and the output's and the scratch row's with their pieces written. The pieces list the
    body's stores into each of the two, the last first. -/
noncomputable def kernelRun1_A (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) :
    Σ' (L3 : List (View.Piece (Elt F) S1x512x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ffill_kernel i arg2 harg2 arg3 harg3 arg4 harg4 arg5 harg5 arg6 harg6) K } := by
  refine ⟨?_, ?_, fun E K => ?run⟩
  case run =>
    simp only [cc1__ffill_kernel_eq_skeleton]; unfold cc1__ffill_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1RunB.lean ====
/- The second pipelined region, the whole-body run of the kernel in case B: the conditional is not taken, so the scratch row is read at what the point before left in it. -/
import proofs.«144746_j73340861547085_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the scratch row, as pieces (last
    first) in case B, with the proof that on whole memrefs — the three inputs' at their contents, the output's at
    anything, the scratch row at what the point before left (`xs0`) — the body runs to the continuation holding the
    inputs' as they were and the output's and the scratch row's with their pieces written. The pieces list the
    body's stores into each of the two, the last first. -/
noncomputable def kernelRun1_B (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) :
    Σ' (L3 : List (View.Piece (Elt F) S1x512x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ffill_kernel i arg2 harg2 arg3 harg3 arg4 harg4 arg5 harg5 arg6 harg6) K } := by
  refine ⟨?_, ?_, fun E K => ?run⟩
  case run =>
    simp only [cc1__ffill_kernel_eq_skeleton]; unfold cc1__ffill_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1.lean ====
/- The second pipelined region: what the output window's staging buffer and the carried scratch row
   hold after each point (by recursion on the point: at the start of a row of blocks the scratch row is reset,
   elsewhere it is read at what the point before left), the region invariant that records the scratch row's
   contents between points, the proof data, and the body obligation at every point; all at a parameter `V`, the
   buffer contents when the region is entered. -/
import proofs.«144746_j73340861547085_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the output window tile its block, so they cover it. -/
theorem cover1_A_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) (y : S1x512x512.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1x512x512.size (by sl_kernel_rfl) y

/-- What case A leaves in the output window's staging buffer: its pieces read back over junk. -/
def out1_A_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) : Vec F S1x512x512 .f32 :=
  VO1_3.read (Elt F) (VO1_3.writes (Elt F) VO1_3.junk (kernelRun1_A c i arg2 harg2 arg3 harg3 arg4 harg4 arg5 harg5 arg6 harg6 hc0 x0 x1 x2).1)

/-- Case A's pieces for the scratch row cover it. -/
theorem scover1_A_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) (y : S1x512.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S1x512.size (by sl_kernel_rfl) y

/-- What case A leaves in the scratch row: its pieces read back over junk. -/
def sout1_A_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) : Vec F S1x512 .f32 :=
  VS1_0.read (Elt F) (VS1_0.writes (Elt F) VS1_0.junk (kernelRun1_A c i arg2 harg2 arg3 harg3 arg4 harg4 arg5 harg5 arg6 harg6 hc0 x0 x1 x2).2.1)

/-- Case B's pieces for the output window tile its block, so they cover it. -/
theorem cover1_B_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) (y : S1x512x512.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S1x512x512.size (by sl_kernel_rfl) y

/-- What case B leaves in the output window's staging buffer: its pieces read back over junk. -/
def out1_B_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) : Vec F S1x512x512 .f32 :=
  VO1_3.read (Elt F) (VO1_3.writes (Elt F) VO1_3.junk (kernelRun1_B c i arg2 harg2 arg3 harg3 arg4 harg4 arg5 harg5 arg6 harg6 hc0 x0 x1 x2 xs0).1)

/-- Case B's pieces for the scratch row cover it. -/
theorem scover1_B_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) (y : S1x512.Idx) :
    ∃ pc ∈ (kernelRun1_B c i arg2 harg2 arg3 harg3 arg4 harg4 arg5 harg5 arg6 harg6 hc0 x0 x1 x2 xs0).2.1, y ∈ pc.1.set :=
  View.cover_of_tiledL (kernelRun1_B c i arg2 harg2 arg3 harg3 arg4 harg4 arg5 harg5 arg6 harg6 hc0 x0 x1 x2 xs0).2.1 S1x512.size (by sl_kernel_rfl) y

/-- What case B leaves in the scratch row: its pieces read back over junk. -/
def sout1_B_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) : Vec F S1x512 .f32 :=
  VS1_0.read (Elt F) (VS1_0.writes (Elt F) VS1_0.junk (kernelRun1_B c i arg2 harg2 arg3 harg3 arg4 harg4 arg5 harg5 arg6 harg6 hc0 x0 x1 x2 xs0).2.1)

section Region1
-- the buffer contents when the region is entered
variable (V : (c : Dev nD) → (b : Ref sig .tc) → Buf (Elt F) ((c : Thread nD τ).loc b))

/-! ## What the output and the scratch row hold after each point -/

/-- What the output window's staging buffer and the carried scratch row hold after the body at position `n` (a
    pair: the output, then the scratch row): at the start of a row of blocks (`n ≡ 0 mod 4`) case A at the
    point's memrefs and input blocks; elsewhere case B, the scratch row read at what position `n - 1` left. -/
def outsAt1 (c : Dev nD) : (n : ℕ) → n < cfg1.N → Vec F S1x512x512 .f32 × Vec F S1x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left in the scratch row. -/
theorem outsAt1_B (c : Dev nD) (t : Fin cfg1.N) (h0 : ¬t.val % 4 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- The region invariant before position `n`: before the first point the launch's (the scratch row at anything);
    afterwards the scratch row at what the point before left in it, the other scoped buffers unopened, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch row at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

/-- Before a point that is not the first: the scratch row at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The proof data of this region's pipeline on core `c`: the arrays as the region finds them (`V`); after the
    body at point `t` each input's buffer at its block and the output's at `outsAt1`'s first component; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed form says which case the point is
    in; the invariant hands the body the scratch row (at anything at the first point, at what the point before
    left afterwards) and takes it back at this point's contents; the other scoped buffers, the generator register
    and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · rw [outsAt1_A V c t h0]
    unfold out1_A_3 sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · rw [outsAt1_B V c t h0]
    unfold out1_B_3 sout1_B_0; (try dsimp only)
    have hz : t.val ≠ 0 := fun hz => h0 (by rw [hz])
    rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_B_0 c _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch row's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.K.H1.lean ====
/-
  The second region's half, as the record the program's run takes: the proof data at any entry contents, with
  full shares, nothing owed, and the body's obligation at every grid point.
-/
import proofs.«144746_j73340861547085_2_alg».proof.Proof.K.Segs
import proofs.«144746_j73340861547085_2_alg».proof.Proof.K.R1

noncomputable section

namespace Cert.Kernel.Hand

open Cert.Kernel Cert.Kernel.Gen
open Idealize.ShloMosaic Idealize.ShloMosaic.TcCoe

variable {F : FTy → Type} [FloatOps F]

def half1 : Half1 F where
  dat := fun V c => dat1 V c
  A_eq := fun V c w => A_eq1 V c w
  q_eq := fun _ _ _ => rfl
  owed_eq := fun _ _ _ => rfl
  rec_eq := fun _ _ _ => rfl
  body := fun V c => body_obligation1 V c
  hin := fun V c => hin1 V c
  hout := fun V c => hout1 V c

end Cert.Kernel.Hand

end
-- ==== Proof.K.Frame.lean ====
/-
  The program's frame: from any memory with zero counters every weakly fair execution runs to the end, nothing
  faulting, and every argument array ends as launched — the run of the segments at the two regions' halves.
-/
import proofs.«144746_j73340861547085_2_alg».proof.Proof.K.Args
import proofs.«144746_j73340861547085_2_alg».proof.Proof.K.H0
import proofs.«144746_j73340861547085_2_alg».proof.Proof.K.H1

noncomputable section

namespace Cert.Kernel.Hand

open Cert.Kernel Cert.Kernel.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_all m half0 half1 ρ

end Cert.Kernel.Hand

end
-- ==== Proof.KI.Segs.lean ====
/-
  The run of the whole program as a sequence of segments: host operations, the first kernel region (the matrix
  product with its two running sums), four stretches of host operations (the noise vector; the segment-start
  index by a running maximum), the second kernel region (the forward fill).  Between two segments every
  buffer that outlives a region is held whole at named contents: the launch contents, then each host stretch
  applied, then, after a region, that region's arrays at what its write-backs leave and every other buffer as it
  was.  Each region's own half — what its body leaves at every grid point, the invariant that carries its
  accumulators from point to point, the body's triple — is a parameter here (`Half0`, `Half1`), stated at the
  contents the region is entered from.  The conclusion reads every such buffer of the final memory at the last
  boundary's contents.
-/
import proofs.«144746_j73340861547085_2_alg».proof.Proof.Gen.KernelIdeal.Launch
import proofs.«144746_j73340861547085_2_alg».proof.Proof.Gen.KernelIdeal.Skeleton
import proofs.«144746_j73340861547085_2_alg».proof.Proof.Gen.KernelIdeal.Points
import proofs.«144746_j73340861547085_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every TensorCore buffer of every core, as a region finds them. -/
abbrev Entry (F : FTy → Type) [FloatOps F] : Type :=
  (c : Dev nD) → (b : Ref sig .tc) → Buf (Elt F) ((c : Thread nD τ).loc b)

/-- The first region's half, at any entry contents. -/
structure Half0 (F : FTy → Type) [FloatOps F] where
  dat : Entry F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- The second region's half, at any entry contents. -/
structure Half1 (F : FTy → Type) [FloatOps F] where
  dat : Entry F → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (m : (ℓ : Loc nD τ sig) → Buf (Elt F) ℓ) (ρ : Dev nD → PrngReg)
variable (h0 : Half0 F) (h1 : Half1 F)

/-! ## The buffers' contents at every boundary -/

/-- At launch. -/
abbrev W0 : Dev nD → Valuation τ sig (Elt F) := fun c b => m (c, b)
/-- After the host operations before the first region (its entry). -/
abbrev W1 : Dev nD → Valuation τ sig (Elt F) := fun c => StableHlo.after hostOps0 (W0 m c)
abbrev E1 : Entry F := fun c b => W1 m c b
/-- At the first region's exit: its arrays at what the write-backs leave, every other buffer as entered. -/
def W2 (c : Dev nD) : Valuation τ sig (Elt F) :=
  Pipeline.withArrays spec0 c (W1 m c) fun w => (h0.dat (E1 m) c).arrAt w cfg0.N
theorem W2_arr (c : Dev nD) (w : Fin cfg0.W) :
    W2 m h0 c (Proc.devRef .tc (Pipeline.arrRef spec0 w)) = (h0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m h0 c (Proc.devRef .tc b) = W1 m c (Proc.devRef .tc b) := by
  unfold W2; exact Pipeline.withArrays_of_ne spec0 c _ _ b hb
abbrev E2 : Entry F := fun c b => W2 m h0 c b
theorem hF0 (c : Dev nD) (w : Fin cfg0.W) : (h0.dat (E1 m) c).arrAt w cfg0.N = E2 m h0 c (Pipeline.arrRef spec0 w) :=
  (W2_arr m h0 c w).symm
theorem hrest0 (c : Dev nD) : ∀ b, b ∉ Finset.univ.image (Pipeline.arrRef spec0) → E2 m h0 c b = E1 m c b :=
  fun b hb => W2_of_ne m h0 c b fun w e => hb (Finset.mem_image.mpr ⟨w, Finset.mem_univ _, e⟩)
/-- After each of the four host stretches between the regions. -/
abbrev W3 : Dev nD → Valuation τ sig (Elt F) := fun c => StableHlo.after hostOps1 (W2 m h0 c)
abbrev W4 : Dev nD → Valuation τ sig (Elt F) := fun c => StableHlo.after hostOps1_1 (W3 m h0 c)
abbrev W5 : Dev nD → Valuation τ sig (Elt F) := fun c => StableHlo.after hostOps1_2 (W4 m h0 c)
abbrev W6 : Dev nD → Valuation τ sig (Elt F) := fun c => StableHlo.after hostOps1_3 (W5 m h0 c)
abbrev E6 : Entry F := fun c b => W6 m h0 c b
/-- At the second region's exit. -/
def W7 (c : Dev nD) : Valuation τ sig (Elt F) :=
  Pipeline.withArrays spec1 c (W6 m h0 c) fun w => (h1.dat (E6 m h0) c).arrAt w cfg1.N
theorem W7_arr (c : Dev nD) (w : Fin cfg1.W) :
    W7 m h0 h1 c (Proc.devRef .tc (Pipeline.arrRef spec1 w)) = (h1.dat (E6 m h0) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m h0 h1 c (Proc.devRef .tc b) = W6 m h0 c (Proc.devRef .tc b) := by
  unfold W7; exact Pipeline.withArrays_of_ne spec1 c _ _ b hb
abbrev E7 : Entry F := fun c b => W7 m h0 h1 c b
theorem hF1 (c : Dev nD) (w : Fin cfg1.W) : (h1.dat (E6 m h0) c).arrAt w cfg1.N = E7 m h0 h1 c (Pipeline.arrRef spec1 w) :=
  (W7_arr m h0 h1 c w).symm
theorem hrest1 (c : Dev nD) : ∀ b, b ∉ Finset.univ.image (Pipeline.arrRef spec1) → E7 m h0 h1 c b = E6 m h0 c b :=
  fun b hb => W7_of_ne m h0 h1 c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => h0.dat (E1 m) c
  | ⟨1, _⟩ => fun c => h1.dat (E6 m h0) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment over the buffers that outlive regions, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tn (c : Dev nD) : sProp 𝕄 := iprop(StableHlo.held (c : Thread nD τ) (Pipeline.ucRefs τ sig) (W7 m h0 h1 c) ∗ ∃ r, prngReg c r)

/-! ## The regions as segments -/

set_option backward.isDefEq.respectTransparency.types false in
/-- The first region: entered from every outliving buffer at `W1`, left at `W2`. -/
def reg0 : Pipeline.RegionSeg (pcfgs (F := F)) adm (pdats m h0 h1) () defs₀ 𝒱n Lz lvz 0 where
  win := launch0.win.to₀
  block_pos := launch0.block_pos
  stage_whole := launch0.stage_whole
  K := PEmpty
  osem k := k.elim
  ho := Pipeline.OwnSemFacts.none _
  hbody c := (h0.body (E1 m) c).loose
  hwaits := Pipeline.hwaits_of_owed_zero _ _ _ _ Lz lvz 0 fun c t => h0.owed_eq (E1 m) c t
  pre c := iprop(StableHlo.held (c : Thread nD τ) (Pipeline.ucRefs τ sig) (W1 m c) ∗ Rr c)
  post c := iprop(StableHlo.held (c : Thread nD τ) (Pipeline.ucRefs τ sig) (W2 m h0 c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m h0 h1) launch0.win launch0.arr_whole c
      ((pdats m h0 h1 0 c).share_full fun w => h0.q_eq (E1 m) c w) (E1 m c) fun w => h0.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 0 c).owed 0 = 0 from h0.owed_eq (E1 m) c 0]
      icases HO with ⟨%W, HO⟩; iexists W; isplitr
      · ipureintro; exact fun _ _ => Or.inl (by rw [show (pdats m h0 h1 0 c).recorded 0 = Set.univ from h0.rec_eq (E1 m) c 0]; exact Set.mem_univ _)
      iexact HO
    isplitl [Hp]; · iexact Hp
    iexact Hrest
  hin c := by
    refine .trans ?_ (h0.hin (E1 m) c)
    unfold Pipeline.ΦA
    iintro ⟨Hp, -, Hr⟩
    isplitl [Hr]; · iexact Hr
    iexact Hp
  hout c := by
    rw [Pipeline.ownSems0_none]
    refine (h0.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1) ((pdats m h0 h1 0 c).share_full fun w => h0.q_eq (E1 m) c w)
      (E1 m c) (E2 m h0 c) ((pdats m h0 h1 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 0 c).owed (Fin.last _) = 0 from h0.owed_eq (E1 m) c _]
    icases HO with ⟨%W, -, HO⟩; iexists W; iexact HO

set_option backward.isDefEq.respectTransparency.types false in
/-- The second region: entered from every outliving buffer at `W6`, left at `W7`. -/
def reg1 : Pipeline.RegionSeg (pcfgs (F := F)) adm (pdats m h0 h1) () defs₀ 𝒱n Lz lvz 1 where
  win := launch1.win.to₀
  block_pos := launch1.block_pos
  stage_whole := launch1.stage_whole
  K := PEmpty
  osem k := k.elim
  ho := Pipeline.OwnSemFacts.none _
  hbody c := (h1.body (E6 m h0) c).loose
  hwaits := Pipeline.hwaits_of_owed_zero _ _ _ _ Lz lvz 1 fun c t => h1.owed_eq (E6 m h0) c t
  pre c := iprop(StableHlo.held (c : Thread nD τ) (Pipeline.ucRefs τ sig) (W6 m h0 c) ∗ Rr c)
  post c := iprop(Tn m h0 h1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m h0 c)
  hentry c := by
    rw [Pipeline.ownSems0_none]
    have hsplit := Pipeline.arrays_of_unscopedBufs (p := 1) (pcfgs (F := F)) adm (pdats m h0 h1) launch1.win launch1.arr_whole c
      ((pdats m h0 h1 1 c).share_full fun w => h1.q_eq (E6 m h0) c w) (E6 m h0 c) fun w => h1.A_eq (E6 m h0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 1 c).owed 0 = 0 from h1.owed_eq (E6 m h0) c 0]
      icases HO with ⟨%W, HO⟩; iexists W; isplitr
      · ipureintro; exact fun _ _ => Or.inl (by rw [show (pdats m h0 h1 1 c).recorded 0 = Set.univ from h1.rec_eq (E6 m h0) c 0]; exact Set.mem_univ _)
      iexact HO
    isplitl [Hp]; · iexact Hp
    iexact Hrest
  hin c := by
    refine .trans ?_ (h1.hin (E6 m h0) c)
    unfold Pipeline.ΦA
    iintro ⟨Hp, -, Hr⟩
    isplitl [Hr]; · iexact Hr
    iexact Hp
  hout c := by
    rw [Pipeline.ownSems0_none]
    refine (h1.hout (E6 m h0) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1) ((pdats m h0 h1 1 c).share_full fun w => h1.q_eq (E6 m h0) c w)
      (E6 m h0 c) (E7 m h0 h1 c) ((pdats m h0 h1 1 c).arrAt · cfg1.N) (hF1 m h0 h1 c) (hrest1 m h0 h1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m h0 h1 1 c).owed (Fin.last _) = 0 from h1.owed_eq (E6 m h0) c _]
    icases HO with ⟨%W, -, HO⟩; iexists W; iexact HO

/-! ## The program as segments, and the launch -/

abbrev segsAll : List (Pipeline.Seg (pcfgs (F := F)) adm (pdats m h0 h1) () defs₀ 𝒱n Lz lvz) :=
  [ .host (hseg hostOps0 hostOps0_sub hostOps0_fresh (W0 m)),
    .region (reg0 m h0 h1),
    .host (hseg hostOps1 hostOps1_sub hostOps1_fresh (W2 m h0)),
    .host (hseg hostOps1_1 hostOps1_1_sub hostOps1_1_fresh (W3 m h0)),
    .host (hseg hostOps1_2 hostOps1_2_sub hostOps1_2_fresh (W4 m h0)),
    .host (hseg hostOps1_3 hostOps1_3_sub hostOps1_3_fresh (W5 m h0)),
    .region (reg1 m h0 h1) ]

set_option backward.isDefEq.respectTransparency.types false in
/-- From any memory with zero counters every weakly fair execution of the program terminates, nothing faulting,
    and every buffer that outlives the regions ends at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m h0 h1 c b) :=
  Pipeline.θ_run_regions_kit (pcfgs (F := F)) adm (pdats m h0 h1) () cellOf_inj emb₁ defs₀ 𝒱n Lz lvz m ρ main (segsAll m h0 h1)
    (fun c Q => by
      rewrite [main_chain c, Pipeline.Seg.run_eq_chain,
        show (segsAll m h0 h1).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m h0 h1)
    (hch := ⟨fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m h0 h1 c b)
    (hfin := fun c s' => by
      iintro ⟨⟨Hh, -⟩, HSI⟩
      unfold StableHlo.held
      imodintro
      iapply (pointsTo_read_all (Pipeline.ucRefs τ sig) (fun b => (((c : Thread nD τ)).1, b)) (W7 m h0 h1 c) s')
      isplitl [Hh] <;> iassumption)
    (hQ := fun s h c => h c)

end Cert.KernelIdeal.Hand

end
-- ==== Proof.KI.Args.lean ====
/-
  Every argument array reaches the last boundary as launched: no host stretch writes an argument, the second
  region stages none, and the first region stages only the first argument, as an input window, whose array the
  pipeline leaves as it found it.
-/
import proofs.«144746_j73340861547085_2_alg».proof.Proof.KI.Segs

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (h0 : Half0 F) (h1 : Half1 F)

/-- A buffer no host stretch between the regions writes is, at the second region's entry, as the first region left it. -/
theorem W6_of (c : Dev nD) (r : Ref sig .tc) (ha : r ∉ hostOps1_W) (hb : r ∉ hostOps1_1_W) (hc : r ∉ hostOps1_2_W)
    (hd : r ∉ hostOps1_3_W) : W6 m h0 c (Proc.devRef .tc r) = W2 m h0 c (Proc.devRef .tc r) :=
  (StableHlo.after_of_writes_sub hostOps1_3 _ hostOps1_3_writes hd).trans <|
  (StableHlo.after_of_writes_sub hostOps1_2 _ hostOps1_2_writes hc).trans <|
  (StableHlo.after_of_writes_sub hostOps1_1 _ hostOps1_1_writes hb).trans <|
  (StableHlo.after_of_writes_sub hostOps1 _ hostOps1_writes ha)

/-- A buffer the first host stretch does not write is at launch contents when the first region is entered. -/
theorem W1_of (c : Dev nD) (r : Ref sig .tc) (h : r ∉ hostOps0_W) : W1 m c (Proc.devRef .tc r) = m ((c : Thread nD τ).loc r) :=
  StableHlo.after_of_writes_sub hostOps0 _ hostOps0_writes h

theorem W7_main_arg0 (c : Dev nD) : W7 m h0 h1 c (Proc.devRef .tc main_arg0) = m ((c : Thread nD τ).loc main_arg0) :=
  calc W7 m h0 h1 c (Proc.devRef .tc main_arg0)
    _ = W6 m h0 c (Proc.devRef .tc main_arg0) := W7_of_ne m h0 h1 c main_arg0 (by decide)
    _ = W2 m h0 c (Proc.devRef .tc main_arg0) := W6_of m h0 c main_arg0 (by decide) (by decide) (by decide) (by decide)
    _ = W1 m c (Proc.devRef .tc main_arg0) := (W2_arr m h0 c 0).trans (((h0.dat (E1 m) c).arrAt_in 0 rfl _).trans (h0.A_eq (E1 m) c 0))
    _ = m ((c : Thread nD τ).loc main_arg0) := W1_of m c main_arg0 (by decide)

theorem W7_main_arg1 (c : Dev nD) : W7 m h0 h1 c (Proc.devRef .tc main_arg1) = m ((c : Thread nD τ).loc main_arg1) :=
  calc W7 m h0 h1 c (Proc.devRef .tc main_arg1)
    _ = W6 m h0 c (Proc.devRef .tc main_arg1) := W7_of_ne m h0 h1 c main_arg1 (by decide)
    _ = W2 m h0 c (Proc.devRef .tc main_arg1) := W6_of m h0 c main_arg1 (by decide) (by decide) (by decide) (by decide)
    _ = W1 m c (Proc.devRef .tc main_arg1) := W2_of_ne m h0 c main_arg1 (by decide)
    _ = m ((c : Thread nD τ).loc main_arg1) := W1_of m c main_arg1 (by decide)

theorem W7_main_arg2 (c : Dev nD) : W7 m h0 h1 c (Proc.devRef .tc main_arg2) = m ((c : Thread nD τ).loc main_arg2) :=
  calc W7 m h0 h1 c (Proc.devRef .tc main_arg2)
    _ = W6 m h0 c (Proc.devRef .tc main_arg2) := W7_of_ne m h0 h1 c main_arg2 (by decide)
    _ = W2 m h0 c (Proc.devRef .tc main_arg2) := W6_of m h0 c main_arg2 (by decide) (by decide) (by decide) (by decide)
    _ = W1 m c (Proc.devRef .tc main_arg2) := W2_of_ne m h0 c main_arg2 (by decide)
    _ = m ((c : Thread nD τ).loc main_arg2) := W1_of m c main_arg2 (by decide)

theorem W7_main_arg3 (c : Dev nD) : W7 m h0 h1 c (Proc.devRef .tc main_arg3) = m ((c : Thread nD τ).loc main_arg3) :=
  calc W7 m h0 h1 c (Proc.devRef .tc main_arg3)
    _ = W6 m h0 c (Proc.devRef .tc main_arg3) := W7_of_ne m h0 h1 c main_arg3 (by decide)
    _ = W2 m h0 c (Proc.devRef .tc main_arg3) := W6_of m h0 c main_arg3 (by decide) (by decide) (by decide) (by decide)
    _ = W1 m c (Proc.devRef .tc main_arg3) := W2_of_ne m h0 c main_arg3 (by decide)
    _ = m ((c : Thread nD τ).loc main_arg3) := W1_of m c main_arg3 (by decide)

theorem W7_main_arg4 (c : Dev nD) : W7 m h0 h1 c (Proc.devRef .tc main_arg4) = m ((c : Thread nD τ).loc main_arg4) :=
  calc W7 m h0 h1 c (Proc.devRef .tc main_arg4)
    _ = W6 m h0 c (Proc.devRef .tc main_arg4) := W7_of_ne m h0 h1 c main_arg4 (by decide)
    _ = W2 m h0 c (Proc.devRef .tc main_arg4) := W6_of m h0 c main_arg4 (by decide) (by decide) (by decide) (by decide)
    _ = W1 m c (Proc.devRef .tc main_arg4) := W2_of_ne m h0 c main_arg4 (by decide)
    _ = m ((c : Thread nD τ).loc main_arg4) := W1_of m c main_arg4 (by decide)

/-- The frame: from any memory with zero counters the program runs to the end and every argument array ends as
    launched. -/
theorem frame_all (g0 : Half0 F) (g1 : Half1 F) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m g0 g1 c),
     (h c _ (mem_uc main_arg1 (by decide))).trans (W7_main_arg1 m g0 g1 c),
     (h c _ (mem_uc main_arg2 (by decide))).trans (W7_main_arg2 m g0 g1 c),
     (h c _ (mem_uc main_arg3 (by decide))).trans (W7_main_arg3 m g0 g1 c),
     (h c _ (mem_uc main_arg4 (by decide))).trans (W7_main_arg4 m g0 g1 c)⟩) (run_all m ρ g0 g1)

end Cert.KernelIdeal.Hand

end
-- ==== Proof.KI.R0Kit.lean ====
/- Region 0's half of the frame, what its two cases share: the branch conditions decided over the grid, where the
   conditional outputs are idle, the staging and scratch memrefs, the invariant with the accumulators named, and the
   input windows' blocks, all at the contents `V` the region is entered with. -/
import proofs.«144746_j73340861547085_2_alg».proof.Proof.Gen.KernelIdeal.Launch
import proofs.«144746_j73340861547085_2_alg».proof.Proof.Gen.KernelIdeal.Skeleton
import proofs.«144746_j73340861547085_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the matrix product with its two running sums), at the contents `V` the region is entered with

What the two cases of the body share: the branch conditions in closed form, where the two conditional outputs are
idle, the staging and scratch memrefs, the region invariant with the two accumulators named, and the input
windows' blocks. -/

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the x-block, fetched at every point) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, fetched at the first point only) holds its block at every point: where it is not
    fetched the block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias, fetched at the first point only) holds its block at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first conditional (`k0_h1`: the inner coordinate is 0, where the two accumulators are
    zeroed), from the grid coordinates. -/
abbrev cond0_0 (i : grid0.Coords) : Prop := (Scalar.cmpi .ne (Scalar.extui (Scalar.cmpi .eq (BitVec.ofNat 32 (i 1).val) 0#32)) 0#32) = 1#1
/-- It holds at the even points — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's second conditional (`k0_h2`: the inner coordinate is the last, where the two sums
    are written out), from the grid coordinates. -/
abbrev cond0_1 (i : grid0.Coords) : Prop := k0_cond2 i = 1#1
/-- It holds at the odd points — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- Windows 0 to 3 are never idle (the inputs, and the product's block, stored at every point). -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- At the even points (case A) the sum's window is idle — the case stores nothing into it — and is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- So is the sum of squares' window. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points (case B) both are live: the case stores into them. -/
theorem liveAt0_4_B : ∀ t : Fin cfg0.N, ¬cond0_0 (grid0.coords t) → cond0_1 (grid0.coords t) → cfg0.idle 4 (grid0.coords t) = false := by decide +kernel
theorem liveAt0_5_B : ∀ t : Fin cfg0.N, ¬cond0_0 (grid0.coords t) → cond0_1 (grid0.coords t) → cfg0.idle 5 (grid0.coords t) = false := by decide +kernel

/-! ## The staging and scratch memrefs -/

/-- One staging buffer of each output window, through which its contents are stated (the choice does not matter:
    `View.read_writes_of_cover`). -/
abbrev VO0_3 : View sig .tc .vmem S1x1024x512 .f32 := (Memref.whole cc0_stg3_0 : Memref sig .tc .vmem S1x1024x512 .f32).view
abbrev VO0_4 : View sig .tc .vmem S1x1x1 .f32 := (Memref.whole cc0_stg4_0 : Memref sig .tc .vmem S1x1x1 .f32).view
abbrev VO0_5 : View sig .tc .vmem S1x1x1 .f32 := (Memref.whole cc0_stg5_0 : Memref sig .tc .vmem S1x1x1 .f32).view
/-- Each window's current staging memref at point `t`, spelled as the pipeline passes it, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
/-- The two scratch accumulators (the running sum and the running sum of squares): whole scoped buffers of the
    kernel's own, passed beside the windows. -/
abbrev scM0_0 : Memref sig .tc .vmem S1x1 .f32 := Memref.whole cc0_scratch0
abbrev scM0_1 : Memref sig .tc .vmem S1x1 .f32 := Memref.whole cc0_scratch1
/-- The same as views: what they hold between points is stated through these. -/
abbrev VS0_0 : View sig .tc .vmem S1x1 .f32 := scM0_0.view
abbrev VS0_1 : View sig .tc .vmem S1x1 .f32 := scM0_1.view

/-! ## The region invariant, the accumulators named -/

/-- The core's scoped buffers that are neither a staging buffer of this region nor one of its two accumulators
    (the other region's staging buffers and scratch), each whole at some contents: carried through every point
    unopened. -/
abbrev restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's invariant with the two accumulators as memrefs owned at some contents, the other scoped buffers
    beside them: what the body is handed and gives back at every point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR0 (F := F) c) ∗ (∃ r, prngReg c r)) := by
  unfold Pipeline.ΦA; rw [scopedRest0_eq]; simp only [scM0_0, scM0_1, owns_whole]; try rfl

end Cert.KernelIdeal.Hand

end
-- ==== Proof.KI.R0RunA.lean ====
/- Region 0's body run in case A (the even points): the body's triple on any whole memrefs, with the pieces (the stores,
   last first) each buffer ends with. -/
import proofs.«144746_j73340861547085_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each buffer, as pieces (last first), IN CASE A (the inner coordinate is 0: the
    accumulators are zeroed first, the two sums are not written out — the even points), WITH the proof that on whole
    memrefs — the three inputs' at their contents, the product's block at anything, the two sums' windows at
    contents `xi·` handed back untouched (the case stores nothing into them), the two accumulators at anything (they
    are zeroed before they are read) — the body runs to the continuation holding the inputs' as they were, the
    product's block and the two accumulators with their pieces written. The pieces list the body's stores into each buffer, the last first. -/
noncomputable def kernelRun0_A (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) :
    Σ' (L3 : List (View.Piece (Elt F) S1x1024x512 .f32)) (L4 : List (View.Piece (Elt F) S1x1x1 .f32)) (L5 : List (View.Piece (Elt F) S1x1x1 .f32)) (LS0 : List (View.Piece (Elt F) S1x1 .f32)),
      { LS1 : List (View.Piece (Elt F) S1x1 .f32) //
      ∀ (xi4 : Vec F S1x1x1 .f32) (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mm_reduce_kernel i arg2 harg2 arg3 harg3 arg4 harg4 arg5 harg5 arg6 harg6 arg7 harg7 arg8 harg8 arg9 harg9) K } := by
  refine ⟨?_, [], [], ?_, ?_, fun xi4 xi5 E K => ?run⟩
  case run =>
    simp only [cc0__mm_reduce_kernel_eq_skeleton]; unfold cc0__mm_reduce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R0RunB.lean ====
/- Region 0's body run in case B (the odd points): the body's triple on any whole memrefs, with the pieces (the stores,
   last first) each buffer ends with. -/
import proofs.«144746_j73340861547085_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each buffer, as pieces (last first), IN CASE B (the inner coordinate is the last:
    the accumulators are not zeroed, the two sums are written out — the odd points), WITH the proof that on whole
    memrefs — the three inputs' at their contents, the product's block and the two sums' windows at anything, the two
    accumulators at the contents `xs·` the point before left — the body runs to the continuation holding the inputs'
    as they were and every other buffer with its pieces written. The pieces list the body's stores into each buffer, the last first. -/
noncomputable def kernelRun0_B (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    Σ' (L3 : List (View.Piece (Elt F) S1x1024x512 .f32)) (L4 : List (View.Piece (Elt F) S1x1x1 .f32)) (L5 : List (View.Piece (Elt F) S1x1x1 .f32)) (LS0 : List (View.Piece (Elt F) S1x1 .f32)),
      { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mm_reduce_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__mm_reduce_kernel_eq_skeleton]; unfold cc0__mm_reduce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.R0.lean ====
/- Region 0's half of the frame: what each case of the body leaves in the outputs and in the two accumulators it
   carries between points, the contents point by point, the proof data at the contents `V` the region is entered
   with, the body obligation, and the invariant's two ends. -/
import proofs.«144746_j73340861547085_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves in the outputs and in the two accumulators -/

/-- In case A (the even points) the pieces stored into the product's block tile it (one whole-block store), so they cover it. -/
theorem cover0_A_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) (y : S1x1024x512.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S1x1024x512.size (by sl_kernel_rfl) y

/-- What case A (the even points) leaves in the product's staging buffer: its pieces read back over junk. -/
def out0_A_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1024x512 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- Case A stores nothing into the sum's window (it is idle at the even points and not written back there): no
    pieces — a placeholder (junk read back) that nothing consults. -/
def out0_A_4 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2).2.1)

/-- Case A stores nothing into the sum of squares's window (it is idle at the even points and not written back there): no
    pieces — a placeholder (junk read back) that nothing consults. -/
def out0_A_5 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1x1 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2).2.2.1)

/-- In case A (the even points) the pieces stored into the running sum (an accumulator carried between points) cover it. -/
theorem scover0_A_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) (y : S1x1.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1x1.size (by sl_kernel_rfl) y

/-- What case A (the even points) leaves in the running sum: its pieces read back over junk. -/
def sout0_A_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.2.2.1)

/-- In case A (the even points) the pieces stored into the running sum of squares (an accumulator carried between points) cover it. -/
theorem scover0_A_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) (y : S1x1.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1x1.size (by sl_kernel_rfl) y

/-- What case A (the even points) leaves in the running sum of squares: its pieces read back over junk. -/
def sout0_A_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.2.2.1)

/-- In case B (the odd points) the pieces stored into the product's block tile it (one whole-block store), so they cover it. -/
theorem cover0_B_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1024x512.Idx) :
    ∃ pc ∈ (kernelRun0_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).1 S1x1024x512.size (by sl_kernel_rfl) y

/-- What case B (the odd points) leaves in the product's staging buffer: its pieces read back over junk. -/
def out0_B_3 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1024x512 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)

/-- In case B (the odd points) the pieces stored into the sum's window tile it (one whole-block store), so they cover it. -/
theorem cover0_B_4 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1x1.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S1x1x1.size (by sl_kernel_rfl) y

/-- What case B (the odd points) leaves in the sum's staging buffer: its pieces read back over junk. -/
def out0_B_4 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 xs0 xs1).2.1)

/-- In case B (the odd points) the pieces stored into the sum of squares's window tile it (one whole-block store), so they cover it. -/
theorem cover0_B_5 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1x1.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S1x1x1.size (by sl_kernel_rfl) y

/-- What case B (the odd points) leaves in the sum of squares's staging buffer: its pieces read back over junk. -/
def out0_B_5 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1x1 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 xs0 xs1).2.2.1)

/-- In case B (the odd points) the pieces stored into the running sum (an accumulator carried between points) cover it. -/
theorem scover0_B_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.1 S1x1.size (by sl_kernel_rfl) y

/-- What case B (the odd points) leaves in the running sum: its pieces read back over junk. -/
def sout0_B_0 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.2.2.1)

/-- In case B (the odd points) the pieces stored into the running sum of squares (an accumulator carried between points) cover it. -/
theorem scover0_B_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) (y : S1x1.Idx) :
    ∃ pc ∈ (kernelRun0_B c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.2.2.1 S1x1.size (by sl_kernel_rfl) y

/-- What case B (the odd points) leaves in the running sum of squares: its pieces read back over junk. -/
def sout0_B_1 (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.2.2.1)

/-! ## What the buffers hold after each point -/

/-- THE ACCUMULATION. What the three outputs' staging buffers and the two accumulators hold after the body at position
    `n` (a tuple: the outputs in window order, then the running sum and the running sum of squares): the case the
    closed forms select at `n`, run at the point's memrefs and input blocks — at an odd point over what the point before
    left in the accumulators; at an even point they are zeroed first, so nothing of the point before is read. An
    assignment of the conditions no point meets is no case. -/
def outsAt0 (c : Dev nD) : (n : ℕ) → n < cfg0.N → Vec F S1x1024x512 .f32 × Vec F S1x1x1 .f32 × Vec F S1x1x1 .f32 × Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        False.elim (by omega)

/-- `outsAt0` at an even point: case A's contents. -/
theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at an odd point: case B's contents, over what the point before left in the accumulators. -/
theorem outsAt0_B (c : Dev nD) (t : Fin cfg0.N) (h0 : ¬t.val % 2 = 0) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything, the generator register at some state); afterwards the same with the two accumulators
    at what the point before left in them (`outsAt0`'s last two components). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ restR0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the outputs' at `outsAt0`'s components; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; so
    that case's triple applies. The invariant hands the body the two accumulators — at anything at the first point, at
    what the point before left afterwards (which an even point, zeroing them first, does not read) — with the other
    scoped buffers and the generator register, and takes the accumulators back at this point's contents (their pieces
    cover them); at an even point the two sums' windows are idle and handed back untouched; the core owes nothing
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold out0_A_3 sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]; · iexists _; iexact H4
        iexists _; iexact H5
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexists _; iexact HS0
        isplitl [HS1]; · iexists _; iexact HS1
        iintro ⟨H0, H1, H2, ⟨%e3, H3⟩, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _)
        isplitl [H4]; · iexists _; iexact H4
        iexists _; iexact H5
  · by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_B t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_B t (fun h => h0 ((hcond0_0 t).mp h)) ((hcond0_1 t).mpr h1)], after0_5]
      rw [outsAt0_B V c t h0 h1]
      unfold out0_B_3 out0_B_4 out0_B_5 sout0_B_0 sout0_B_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        iintro ⟨H0, H1, H2, ⟨%e3, H3⟩, ⟨%e4, H4⟩, ⟨%e5, H5⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Hand

end
-- ==== Proof.KI.H0.lean ====
/-
  The first region's half, as the record the program's run takes: the proof data at any entry contents, with
  full shares, nothing owed, and the body's obligation at every grid point.
-/
import proofs.«144746_j73340861547085_2_alg».proof.Proof.KI.Segs
import proofs.«144746_j73340861547085_2_alg».proof.Proof.KI.R0

noncomputable section

namespace Cert.KernelIdeal.Hand

open Cert.KernelIdeal Cert.KernelIdeal.Gen
open Idealize.ShloMosaic Idealize.ShloMosaic.TcCoe

variable {F : FTy → Type} [FloatOps F]

def half0 : Half0 F where
  dat := fun V c => dat0 V c
  A_eq := fun V c w => A_eq0 V c w
  q_eq := fun _ _ _ => rfl
  owed_eq := fun _ _ _ => rfl
  rec_eq := fun _ _ _ => rfl
  body := fun V c => body_obligation0 V c
  hin := fun V c => hin0 V c
  hout := fun V c => hout0 V c

end Cert.KernelIdeal.Hand

end
-- ==== Proof.KI.R1Kit.lean ====
/- The second pipelined region (the forward-fill kernel on a 16 × 4 grid): the branch condition of
   its body in closed form, the facts that no window of it is ever idle, the names of the staging and scratch
   memrefs the body is called with, the region invariant with the carried scratch row singled out, and the
   statement that every input window's staging buffer holds the window's block at every point. Everything is
   stated at a parameter `V`: the buffer contents when the region is entered. -/
import proofs.«144746_j73340861547085_2_alg».proof.Proof.Gen.KernelIdeal.Launch
import proofs.«144746_j73340861547085_2_alg».proof.Proof.Gen.KernelIdeal.Skeleton
import proofs.«144746_j73340861547085_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the 512 × 512 block of the matrix product's result): its current staging buffer holds its
    block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the 512 × 1 block of source positions): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row added to every row of the result), fetched at the first point only: where it is not
    fetched its block index has not moved, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch condition -/

/-- The condition of the body's one conditional (the inner grid coordinate is zero: the start of a row of blocks),
    from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-! ## No window is ever idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The memrefs the body is called with -/

/-- One staging buffer of the output window, through which its contents are stated. -/
abbrev VO1_3 : View sig .tc .vmem S1x512x512 .f32 := (Memref.whole cc1_stg3_0 : Memref sig .tc .vmem S1x512x512 .f32).view
/-- Each window's current staging memref at point `t`, and its wholeness. -/
abbrev ms1_0 (t : Fin cfg1.N) : Memref sig .tc .vmem S1x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .f32 := win1_3.stage (cfg1.slots t 3)
abbrev hs1_3 (t : Fin cfg1.N) : (ms1_3 t).IsWhole := hstage1_3 ((cfg1.slots t 3).cast nbuf1_3)
/-- The scratch row the body carries from one point to the next: a whole scoped buffer of the kernel's own. -/
abbrev scM1_0 : Memref sig .tc .vmem S1x512 .f32 := Memref.whole cc1_scratch0
/-- The same as a view: what it holds is stated through it. -/
abbrev VS1_0 : View sig .tc .vmem S1x512 .f32 := scM1_0.view

/-! ## The invariant with the carried scratch row singled out -/

/-- Every scoped buffer of the core other than this region's staging buffers and its scratch row, each at some
    contents: carried through the region unopened. -/
abbrev others1 (c : Dev nD) : sProp 𝕄 :=
  Pipeline.scopedRestBut (Ix := Unit) (Name := ℕ) (U := UR sig nD τ) (Lvl := ℕ) (Val := Elt F) spec1 c [cc1_scratch0]

/-- The region's invariant is: the scratch row owned at some contents, the other scoped buffers, and the
    generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL_singleton]; try rfl

end Cert.KernelIdeal.Hand

end
-- ==== Proof.KI.R1RunA.lean ====
/- The second pipelined region, the whole-body run of the kernel in case A: the conditional is taken (the inner grid coordinate is zero), so the scratch row is first stored whole with zeros and then read. -/
import proofs.«144746_j73340861547085_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the scratch row, as pieces (last
    first) in case A, with the proof that on whole memrefs — the three inputs' at their contents, the output's at
    anything, the scratch row at anything — the body runs to the continuation holding the
    inputs' as they were and the output's and the scratch row's with their pieces written. The pieces list the
    body's stores into each of the two, the last first. -/
noncomputable def kernelRun1_A (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) :
    Σ' (L3 : List (View.Piece (Elt F) S1x512x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ffill_kernel i arg2 harg2 arg3 harg3 arg4 harg4 arg5 harg5 arg6 harg6) K } := by
  refine ⟨?_, ?_, fun E K => ?run⟩
  case run =>
    simp only [cc1__ffill_kernel_eq_skeleton]; unfold cc1__ffill_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1RunB.lean ====
/- The second pipelined region, the whole-body run of the kernel in case B: the conditional is not taken, so the scratch row is read at what the point before left in it. -/
import proofs.«144746_j73340861547085_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the scratch row, as pieces (last
    first) in case B, with the proof that on whole memrefs — the three inputs' at their contents, the output's at
    anything, the scratch row at what the point before left (`xs0`) — the body runs to the continuation holding the
    inputs' as they were and the output's and the scratch row's with their pieces written. The pieces list the
    body's stores into each of the two, the last first. -/
noncomputable def kernelRun1_B (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) :
    Σ' (L3 : List (View.Piece (Elt F) S1x512x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ffill_kernel i arg2 harg2 arg3 harg3 arg4 harg4 arg5 harg5 arg6 harg6) K } := by
  refine ⟨?_, ?_, fun E K => ?run⟩
  case run =>
    simp only [cc1__ffill_kernel_eq_skeleton]; unfold cc1__ffill_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1.lean ====
/- The second pipelined region: what the output window's staging buffer and the carried scratch row
   hold after each point (by recursion on the point: at the start of a row of blocks the scratch row is reset,
   elsewhere it is read at what the point before left), the region invariant that records the scratch row's
   contents between points, the proof data, and the body obligation at every point; all at a parameter `V`, the
   buffer contents when the region is entered. -/
import proofs.«144746_j73340861547085_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's pieces for the output window tile its block, so they cover it. -/
theorem cover1_A_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) (y : S1x512x512.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1x512x512.size (by sl_kernel_rfl) y

/-- What case A leaves in the output window's staging buffer: its pieces read back over junk. -/
def out1_A_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) : Vec F S1x512x512 .f32 :=
  VO1_3.read (Elt F) (VO1_3.writes (Elt F) VO1_3.junk (kernelRun1_A c i arg2 harg2 arg3 harg3 arg4 harg4 arg5 harg5 arg6 harg6 hc0 x0 x1 x2).1)

/-- Case A's pieces for the scratch row cover it. -/
theorem scover1_A_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) (y : S1x512.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S1x512.size (by sl_kernel_rfl) y

/-- What case A leaves in the scratch row: its pieces read back over junk. -/
def sout1_A_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : cond1_0 i)
    (x0 : Vec F S1x512x512 .f32) (x1 : Vec F S1x512x1 .i32) (x2 : Vec F S1x512 .f32) : Vec F S1x512 .f32 :=
  VS1_0.read (Elt F) (VS1_0.writes (Elt F) VS1_0.junk (kernelRun1_A c i arg2 harg2 arg3 harg3 arg4 harg4 arg5 harg5 arg6 harg6 hc0 x0 x1 x2).2.1)

/-- Case B's pieces for the output window tile its block, so they cover it. -/
theorem cover1_B_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) (y : S1x512x512.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S1x512x512.size (by sl_kernel_rfl) y

/-- What case B leaves in the output window's staging buffer: its pieces read back over junk. -/
def out1_B_3 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) : Vec F S1x512x512 .f32 :=
  VO1_3.read (Elt F) (VO1_3.writes (Elt F) VO1_3.junk (kernelRun1_B c i arg2 harg2 arg3 harg3 arg4 harg4 arg5 harg5 arg6 harg6 hc0 x0 x1 x2 xs0).1)

/-- Case B's pieces for the scratch row cover it. -/
theorem scover1_B_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) (y : S1x512.Idx) :
    ∃ pc ∈ (kernelRun1_B c i arg2 harg2 arg3 harg3 arg4 harg4 arg5 harg5 arg6 harg6 hc0 x0 x1 x2 xs0).2.1, y ∈ pc.1.set :=
  View.cover_of_tiledL (kernelRun1_B c i arg2 harg2 arg3 harg3 arg4 harg4 arg5 harg5 arg6 harg6 hc0 x0 x1 x2 xs0).2.1 S1x512.size (by sl_kernel_rfl) y

/-- What case B leaves in the scratch row: its pieces read back over junk. -/
def sout1_B_0 (c : Dev nD) (i : grid1.Coords) (arg2 : Memref sig .tc .vmem S1x512x512 .f32) (harg2 : arg2.IsWhole) (arg3 : Memref sig .tc .vmem S1x512x1 .i32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S1x512 .f32) (harg6 : arg6.IsWhole) (hc0 : ¬cond1_0 i)
    (x0 : Vec F S1x512x512 .f32) (x1 : Vec F S1x512x1 .i32) (x2 : Vec F S1x512 .f32) (xs0 : Vec F S1x512 .f32) : Vec F S1x512 .f32 :=
  VS1_0.read (Elt F) (VS1_0.writes (Elt F) VS1_0.junk (kernelRun1_B c i arg2 harg2 arg3 harg3 arg4 harg4 arg5 harg5 arg6 harg6 hc0 x0 x1 x2 xs0).2.1)

section Region1
-- the buffer contents when the region is entered
variable (V : (c : Dev nD) → (b : Ref sig .tc) → Buf (Elt F) ((c : Thread nD τ).loc b))

/-! ## What the output and the scratch row hold after each point -/

/-- What the output window's staging buffer and the carried scratch row hold after the body at position `n` (a
    pair: the output, then the scratch row): at the start of a row of blocks (`n ≡ 0 mod 4`) case A at the
    point's memrefs and input blocks; elsewhere case B, the scratch row read at what position `n - 1` left. -/
def outsAt1 (c : Dev nD) : (n : ℕ) → n < cfg1.N → Vec F S1x512x512 .f32 × Vec F S1x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left in the scratch row. -/
theorem outsAt1_B (c : Dev nD) (t : Fin cfg1.N) (h0 : ¬t.val % 4 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant between points -/

/-- The region invariant before position `n`: before the first point the launch's (the scratch row at anything);
    afterwards the scratch row at what the point before left in it, the other scoped buffers unopened, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch row at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

/-- Before a point that is not the first: the scratch row at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The proof data of this region's pipeline on core `c`: the arrays as the region finds them (`V`); after the
    body at point `t` each input's buffer at its block and the output's at `outsAt1`'s first component; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed form says which case the point is
    in; the invariant hands the body the scratch row (at anything at the first point, at what the point before
    left afterwards) and takes it back at this point's contents; the other scoped buffers, the generator register
    and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · rw [outsAt1_A V c t h0]
    unfold out1_A_3 sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · rw [outsAt1_B V c t h0]
    unfold out1_B_3 sout1_B_0; (try dsimp only)
    have hz : t.val ≠ 0 := fun hz => h0 (by rw [hz])
    rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_B_0 c _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch row's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.KI.H1.lean ====
/-
  The second region's half, as the record the program's run takes: the proof data at any entry contents, with
  full shares, nothing owed, and the body's obligation at every grid point.
-/
import proofs.«144746_j73340861547085_2_alg».proof.Proof.KI.Segs
import proofs.«144746_j73340861547085_2_alg».proof.Proof.KI.R1

noncomputable section

namespace Cert.KernelIdeal.Hand

open Cert.KernelIdeal Cert.KernelIdeal.Gen
open Idealize.ShloMosaic Idealize.ShloMosaic.TcCoe

variable {F : FTy → Type} [FloatOps F]

def half1 : Half1 F where
  dat := fun V c => dat1 V c
  A_eq := fun V c w => A_eq1 V c w
  q_eq := fun _ _ _ => rfl
  owed_eq := fun _ _ _ => rfl
  rec_eq := fun _ _ _ => rfl
  body := fun V c => body_obligation1 V c
  hin := fun V c => hin1 V c
  hout := fun V c => hout1 V c

end Cert.KernelIdeal.Hand

end
-- ==== Proof.KI.Frame.lean ====
/-
  The program's frame: from any memory with zero counters every weakly fair execution runs to the end, nothing
  faulting, and every argument array ends as launched — the run of the segments at the two regions' halves.
-/
import proofs.«144746_j73340861547085_2_alg».proof.Proof.KI.Args
import proofs.«144746_j73340861547085_2_alg».proof.Proof.KI.H0
import proofs.«144746_j73340861547085_2_alg».proof.Proof.KI.H1

noncomputable section

namespace Cert.KernelIdeal.Hand

open Cert.KernelIdeal Cert.KernelIdeal.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_all m half0 half1 ρ

end Cert.KernelIdeal.Hand

end
-- ==== Proof.KI.RunValue.lean ====
/-
  The idealized kernel's run with its result named: the program runs to the end, the result buffer holds the last
  boundary's contents at that buffer, and every argument array ends as launched.
-/
import proofs.«144746_j73340861547085_2_alg».proof.Proof.KI.Frame

noncomputable section

namespace Cert.KernelIdeal.Hand

open Cert.KernelIdeal Cert.KernelIdeal.Gen
open Idealize.ShloMosaic Idealize.ShloMosaic.TcCoe Idealize.SL.Sem

variable {F : FTy → Type} [FloatOps F]

theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v29) = W7 m half0 half1 c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v29 (by decide)),
     (h c _ (mem_uc main_arg0 (by decide))).trans (W7_main_arg0 m half0 half1 c),
     (h c _ (mem_uc main_arg1 (by decide))).trans (W7_main_arg1 m half0 half1 c),
     (h c _ (mem_uc main_arg2 (by decide))).trans (W7_main_arg2 m half0 half1 c),
     (h c _ (mem_uc main_arg3 (by decide))).trans (W7_main_arg3 m half0 half1 c),
     (h c _ (mem_uc main_arg4 (by decide))).trans (W7_main_arg4 m half0 half1 c)⟩) (run_all m ρ half0 half1)

end Cert.KernelIdeal.Hand

end
-- ==== Proof.Ref.Run.lean ====
/-
  The reference program's run, written out: @main as the straight line of its one hundred host operations (each
  call of a module-local function replaced by the callee's operations over that call's own buffers, nested calls
  likewise), the run of that line, and the value the line leaves in the result buffer as a composed pure term of the
  five arguments' contents, built from named stages so that each stage can be read at an index on its own.

  The stages, in the order the program computes them:
  * `stage_g x W b`: the contraction of `x` with `W` over their last axes, plus the bias `b` broadcast along the
    last axis;
  * `nanmeanF v`: the sum of `v` with every entry unequal to itself replaced by zero, divided by the number of
    entries equal to themselves (counted as a float sum of zeros and ones);
  * `noiseF g nb`: the per-column offset `mean/10 + (sqrt(meansq)/5) * nb - (1/2) * (mean/10)`, where `mean` is
    `nanmeanF g` and `meansq` is `nanmeanF` of the squared absolute deviation of `g` from `mean`;
  * `noisedF g nb`: `g` plus that offset broadcast along the last axis;
  * `flagsF mask`: a column of ones followed by the first 2047 columns of `mask`;
  * `whereF mask`: the column number where the flag is set, zero elsewhere;
  * `idxF mask`: the running maximum of `whereF mask` along each row (a reduce-window whose window reaches back
    to the start of the row, padded on the left with the least signed integer);
  * `takeF g idx`: row `idx` of `g` (negative indices wrapped by 2048 first), with the fill value where the
    wrapped index is outside `[0, 2047]`.
-/
import proofs.«144746_j73340861547085_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The stages -/

/-- The contraction of `x` and `W` over their last axes, plus the bias broadcast along the last axis. -/
def stage_g (x : FVec F S16x2048x1024 .f32) (W : FVec F S512x1024 .f32) (b : FVec F S512 .f32) :
    FVec F S16x2048x512 .f32 :=
  addf (Host.dotGeneral dot_S16x2048x1024_S512x1024_S16x2048x512_2_1_01_0_n_n none x W)
    (broadcastInDim S16x2048x512 ![0, 1, 2] bcast_S1x1x512_S16x2048x512_0_1_2
      (broadcastInDim S1x1x512 ![2] bcast_S512_S1x1x512_2 b))

/-- The number of entries of `v` equal to themselves, as a float: one per such entry, summed from zero. -/
def countF (v : FVec F S16x2048x512 .f32) : FVec F S_ .f32 :=
  Host.reduceAdd (sitofp .f32 (extui 32 (noti (cmpf .une v v)) natLt_1_32)) (constant S_ .f32 0x00000000#32)
    reducesTo_S16x2048x512_S_d0_1_2 h_S_

/-- The sum of `v` with each entry unequal to itself replaced by zero. -/
def nansumF (v : FVec F S16x2048x512 .f32) : FVec F S_ .f32 :=
  Host.reduceAdd
    (select (cmpf .une v v) (broadcastInDim S16x2048x512 ![] bcast_S_S16x2048x512 (constant S_ .f32 0x00000000#32)) v)
    (constant S_ .f32 0x00000000#32) reducesTo_S16x2048x512_S_d0_1_2 h_S_

/-- That sum over that count. -/
def nanmeanF (v : FVec F S16x2048x512 .f32) : FVec F S_ .f32 :=
  Host.divf (nansumF v) (countF v)

/-- The squared absolute deviation of `g` from its mean. -/
def devsqF (g : FVec F S16x2048x512 .f32) : FVec F S16x2048x512 .f32 :=
  mulf (Host.absf (subf g (broadcastInDim S16x2048x512 ![] bcast_S_S16x2048x512 (nanmeanF g))))
    (Host.absf (subf g (broadcastInDim S16x2048x512 ![] bcast_S_S16x2048x512 (nanmeanF g))))

/-- The root of the mean squared deviation, over five. -/
def scaleF (g : FVec F S16x2048x512 .f32) : FVec F S_ .f32 :=
  Host.divf (Host.sqrt (nanmeanF (devsqF g))) (constant S_ .f32 0x40A00000#32)

/-- The mean over ten. -/
def shiftF (g : FVec F S16x2048x512 .f32) : FVec F S_ .f32 :=
  Host.divf (nanmeanF g) (constant S_ .f32 0x41200000#32)

/-- The per-column offset: `shift + scale * nb - (1/2) * shift`. -/
def noiseF (g : FVec F S16x2048x512 .f32) (nb : FVec F S512 .f32) : FVec F S512 .f32 :=
  subf
    (addf (broadcastInDim S512 ![] bcast_S_S512 (shiftF g))
      (mulf (broadcastInDim S512 ![] bcast_S_S512 (scaleF g)) nb))
    (broadcastInDim S512 ![] bcast_S_S512 (mulf (constant S_ .f32 0x3F000000#32) (shiftF g)))

/-- `g` plus the offset broadcast along the last axis. -/
def noisedF (g : FVec F S16x2048x512 .f32) (nb : FVec F S512 .f32) : FVec F S16x2048x512 .f32 :=
  addf g
    (broadcastInDim S16x2048x512 ![0, 1, 2] bcast_S1x1x512_S16x2048x512_0_1_2
      (broadcastInDim S1x1x512 ![2] bcast_S512_S1x1x512_2 (noiseF g nb)))

/-- A column of ones, then the first 2047 columns of `mask`. -/
def flagsF (mask : IVec S16x2048 1) : IVec S16x2048 1 :=
  concatenate S16x2048 1
    [⟨S16x1, broadcastInDim S16x1 ![] bcast_S_S16x1 (constantI S_ 1 1#1)⟩,
     ⟨S16x2047, extractStridedSlice S16x2047 ![0, 0] mask slices_S16x2048_S16x2047_0_0⟩]
    concatenates_S16x1_S16x2047_S16x2048_d1

/-- The column number where the flag is set, zero elsewhere. -/
def whereF (mask : IVec S16x2048 1) : IVec S16x2048 32 :=
  select (flagsF mask)
    (broadcastInDim S16x2048 ![0, 1] bcast_S1x2048_S16x2048_0_1
      (broadcastInDim S1x2048 ![1] bcast_S2048_S1x2048_1 (iotaInDim S2048 32 0)))
    (broadcastInDim S16x2048 ![] bcast_S_S16x2048 (id (constantI S_ 32 0#32)))

/-- The running maximum of `whereF mask` along each row, from the least signed integer. -/
def idxF (mask : IVec S16x2048 1) : IVec S16x2048 32 :=
  Host.reduceWindow IntOp.maxsi ![1, 2048] ![1, 1] ![0, 2047] ![0, 0] (whereF mask)
    (broadcastInDim S_ ![] bcast_S_S_ (constantI S_ 32 2147483648#32))
    reduceWindows_S16x2048_S16x2048_w1s1p0_0_w2048s1p2047_0 h_S_

/-- The index with negative values wrapped by 2048. -/
def wrapF (idx : IVec S16x2048x1 32) : IVec S16x2048x1 32 :=
  select (cmpi .slt idx (broadcastInDim S16x2048x1 ![] bcast_S_S16x2048x1 (constantI S_ 32 0#32)))
    (addi idx (broadcastInDim S16x2048x1 ![] bcast_S_S16x2048x1 (constantI S_ 32 2048#32))) idx

/-- Whether the wrapped index lies in `[0, 2047]`, per row position. -/
def inRangeF (idx : IVec S16x2048x1 32) : IVec S16x2048 1 :=
  Host.reduce IntOp.andi
    (andi
      (cmpi .sge (wrapF idx) (broadcastInDim S16x2048x1 ![] bcast_S_S16x2048x1 (constantI S_ 32 0#32)))
      (cmpi .sle (wrapF idx)
        (broadcastInDim S16x2048x1 ![0, 1, 2] bcast_S1x1x1_S16x2048x1_0_1_2
          (broadcastInDim S1x1x1 ![2] bcast_S1_S1x1x1_2 (constantI S1 32 2047#32)))))
    (constantI S_ 1 1#1) reducesTo_S16x2048x1_S16x2048_d2 h_S_

/-- Row `idx` of `g` at each position (negative indices wrapped first), the fill value where the wrapped index
    is out of range. -/
def takeF (g : FVec F S16x2048x512 .f32) (idx : IVec S16x2048x1 32) : FVec F S16x2048x512 .f32 :=
  select (broadcastInDim S16x2048x512 ![0, 1] bcast_S16x2048_S16x2048x512_0_1 (inRangeF idx))
    (Host.gather gather_S16x2048x512_S16x2048x1_S16x2048x512_2_1_0_0_1_2_11512 g (wrapF idx))
    (broadcastInDim S16x2048x512 ![] bcast_S_S16x2048x512 (constant S_ .f32 0x7FC00000#32))

/-- What @main leaves in its result buffer, as a term of the five arguments' contents. -/
def refOut (x : FVec F S16x2048x1024 .f32) (mask : IVec S16x2048 1) (W : FVec F S512x1024 .f32)
    (b : FVec F S512 .f32) (nb : FVec F S512 .f32) : FVec F S16x2048x512 .f32 :=
  takeF (noisedF (stage_g x W b) nb)
    (broadcastInDim S16x2048x1 ![0, 1] bcast_S16x2048_S16x2048x1_0_1 (idxF mask))

/-! ## The line -/

/-- @main's operations in order, the calls unfolded: four of its own (the contraction, the bias's two broadcasts, the
    sum); the mean's thirteen (six of its own — the self-comparison, its negation, two conversions, the zero, the
    count's sum —, the masked sum's six, two of them the inner select's, and the quotient); four; the mean's thirteen
    again over the squared deviation; three; the mean's thirteen a third time; thirteen for the offset and its sum;
    seven for the flags and the column numbers; the select's four; the running maximum's three; the index's
    broadcast; the row selection's twenty-two. -/
abbrev ops : List (HloOp τ sig (Elt F)) :=
  [
    binary main_arg0 main_arg2 main_v0 ((fun l r => Host.dotGeneral dot_S16x2048x1024_S512x1024_S16x2048x512_2_1_01_0_n_n none l r) : (⟨S16x2048x1024, .f32⟩ : BufTy).Contents (Elt F) → (⟨S512x1024, .f32⟩ : BufTy).Contents (Elt F) → (⟨S16x2048x512, .f32⟩ : BufTy).Contents (Elt F)),
    unary main_arg3 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S16x2048x512 ![0, 1, 2] bcast_S1x1x512_S16x2048x512_0_1_2 : (⟨S1x1x512, .f32⟩ : BufTy).Contents (Elt F) → (⟨S16x2048x512, .f32⟩ : BufTy).Contents (Elt F)),
    binary main_v0 main_v2 main_v3 (addf : (⟨S16x2048x512, .f32⟩ : BufTy).Contents (Elt F) → (⟨S16x2048x512, .f32⟩ : BufTy).Contents (Elt F) → (⟨S16x2048x512, .f32⟩ : BufTy).Contents (Elt F)),
    TRef.binary (.of main_v3 : TRef sig ⟨S16x2048x512, .f32⟩) (.of main_v3 : TRef sig ⟨S16x2048x512, .f32⟩) main_call0.v0 (cmpf .une),
    TRef.unary main_call0.v0 main_call0.v1 noti,
    TRef.unary main_call0.v1 main_call0.v2 (extui 32 · natLt_1_32),
    TRef.unary main_call0.v2 main_call0.v3 (sitofp .f32),
    TRef.nullary main_call0.cst (constant S_ .f32 0x00000000#32),
    TRef.binary main_call0.v3 main_call0.cst main_call0.v4 (fun x v => Host.reduceAdd x v reducesTo_S16x2048x512_S_d0_1_2 h_S_),
    TRef.binary (.of main_v3 : TRef sig ⟨S16x2048x512, .f32⟩) (.of main_v3 : TRef sig ⟨S16x2048x512, .f32⟩) main_call0.call0.v0 (cmpf .une),
    TRef.nullary main_call0.call0.cst (constant S_ .f32 0x00000000#32),
    TRef.unary main_call0.call0.cst main_call0.call0.call0.v0 (broadcastInDim S16x2048x512 ![] bcast_S_S16x2048x512),
    TRef.ternary main_call0.call0.v0 main_call0.call0.call0.v0 (.of main_v3 : TRef sig ⟨S16x2048x512, .f32⟩) main_call0.call0.call0.v1 select,
    TRef.nullary main_call0.call0.cst_0 (constant S_ .f32 0x00000000#32),
    TRef.binary main_call0.call0.call0.v1 main_call0.call0.cst_0 main_call0.call0.v2 (fun x v => Host.reduceAdd x v reducesTo_S16x2048x512_S_d0_1_2 h_S_),
    TRef.binary main_call0.call0.v2 main_call0.v4 main_call0.v6 Host.divf,
    unary main_v4 main_v5 (broadcastInDim S16x2048x512 ![] bcast_S_S16x2048x512 : (⟨S_, .f32⟩ : BufTy).Contents (Elt F) → (⟨S16x2048x512, .f32⟩ : BufTy).Contents (Elt F)),
    binary main_v3 main_v5 main_v6 (subf : (⟨S16x2048x512, .f32⟩ : BufTy).Contents (Elt F) → (⟨S16x2048x512, .f32⟩ : BufTy).Contents (Elt F) → (⟨S16x2048x512, .f32⟩ : BufTy).Contents (Elt F)),
    unary main_v6 main_v7 (Host.absf : (⟨S16x2048x512, .f32⟩ : BufTy).Contents (Elt F) → (⟨S16x2048x512, .f32⟩ : BufTy).Contents (Elt F)),
    binary main_v7 main_v7 main_v8 (mulf : (⟨S16x2048x512, .f32⟩ : BufTy).Contents (Elt F) → (⟨S16x2048x512, .f32⟩ : BufTy).Contents (Elt F) → (⟨S16x2048x512, .f32⟩ : BufTy).Contents (Elt F)),
    TRef.binary (.of main_v8 : TRef sig ⟨S16x2048x512, .f32⟩) (.of main_v8 : TRef sig ⟨S16x2048x512, .f32⟩) main_call1.v0 (cmpf .une),
    TRef.unary main_call1.v0 main_call1.v1 noti,
    TRef.unary main_call1.v1 main_call1.v2 (extui 32 · natLt_1_32),
    TRef.unary main_call1.v2 main_call1.v3 (sitofp .f32),
    TRef.nullary main_call1.cst (constant S_ .f32 0x00000000#32),
    TRef.binary main_call1.v3 main_call1.cst main_call1.v4 (fun x v => Host.reduceAdd x v reducesTo_S16x2048x512_S_d0_1_2 h_S_),
    TRef.binary (.of main_v8 : TRef sig ⟨S16x2048x512, .f32⟩) (.of main_v8 : TRef sig ⟨S16x2048x512, .f32⟩) main_call1.call0.v0 (cmpf .une),
    TRef.nullary main_call1.call0.cst (constant S_ .f32 0x00000000#32),
    TRef.unary main_call1.call0.cst main_call1.call0.call0.v0 (broadcastInDim S16x2048x512 ![] bcast_S_S16x2048x512),
    TRef.ternary main_call1.call0.v0 main_call1.call0.call0.v0 (.of main_v8 : TRef sig ⟨S16x2048x512, .f32⟩) main_call1.call0.call0.v1 select,
    TRef.nullary main_call1.call0.cst_0 (constant S_ .f32 0x00000000#32),
    TRef.binary main_call1.call0.call0.v1 main_call1.call0.cst_0 main_call1.call0.v2 (fun x v => Host.reduceAdd x v reducesTo_S16x2048x512_S_d0_1_2 h_S_),
    TRef.binary main_call1.call0.v2 main_call1.v4 main_call1.v6 Host.divf,
    unary main_v9 main_v10 (Host.sqrt : (⟨S_, .f32⟩ : BufTy).Contents (Elt F) → (⟨S_, .f32⟩ : BufTy).Contents (Elt F)),
    nullary main_cst (constant S_ .f32 0x40A00000#32),
    binary main_v10 main_cst main_v11 (Host.divf : (⟨S_, .f32⟩ : BufTy).Contents (Elt F) → (⟨S_, .f32⟩ : BufTy).Contents (Elt F) → (⟨S_, .f32⟩ : BufTy).Contents (Elt F)),
    TRef.binary (.of main_v3 : TRef sig ⟨S16x2048x512, .f32⟩) (.of main_v3 : TRef sig ⟨S16x2048x512, .f32⟩) main_call2.v0 (cmpf .une),
    TRef.unary main_call2.v0 main_call2.v1 noti,
    TRef.unary main_call2.v1 main_call2.v2 (extui 32 · natLt_1_32),
    TRef.unary main_call2.v2 main_call2.v3 (sitofp .f32),
    TRef.nullary main_call2.cst (constant S_ .f32 0x00000000#32),
    TRef.binary main_call2.v3 main_call2.cst main_call2.v4 (fun x v => Host.reduceAdd x v reducesTo_S16x2048x512_S_d0_1_2 h_S_),
    TRef.binary (.of main_v3 : TRef sig ⟨S16x2048x512, .f32⟩) (.of main_v3 : TRef sig ⟨S16x2048x512, .f32⟩) main_call2.call0.v0 (cmpf .une),
    TRef.nullary main_call2.call0.cst (constant S_ .f32 0x00000000#32),
    TRef.unary main_call2.call0.cst main_call2.call0.call0.v0 (broadcastInDim S16x2048x512 ![] bcast_S_S16x2048x512),
    TRef.ternary main_call2.call0.v0 main_call2.call0.call0.v0 (.of main_v3 : TRef sig ⟨S16x2048x512, .f32⟩) main_call2.call0.call0.v1 select,
    TRef.nullary main_call2.call0.cst_0 (constant S_ .f32 0x00000000#32),
    TRef.binary main_call2.call0.call0.v1 main_call2.call0.cst_0 main_call2.call0.v2 (fun x v => Host.reduceAdd x v reducesTo_S16x2048x512_S_d0_1_2 h_S_),
    TRef.binary main_call2.call0.v2 main_call2.v4 main_call2.v6 Host.divf,
    nullary main_cst_0 (constant S_ .f32 0x41200000#32),
    binary main_v12 main_cst_0 main_v13 (Host.divf : (⟨S_, .f32⟩ : BufTy).Contents (Elt F) → (⟨S_, .f32⟩ : BufTy).Contents (Elt F) → (⟨S_, .f32⟩ : BufTy).Contents (Elt F)),
    unary main_v11 main_v14 (broadcastInDim S512 ![] bcast_S_S512 : (⟨S_, .f32⟩ : BufTy).Contents (Elt F) → (⟨S512, .f32⟩ : BufTy).Contents (Elt F)),
    binary main_v14 main_arg4 main_v15 (mulf : (⟨S512, .f32⟩ : BufTy).Contents (Elt F) → (⟨S512, .f32⟩ : BufTy).Contents (Elt F) → (⟨S512, .f32⟩ : BufTy).Contents (Elt F)),
    unary main_v13 main_v16 (broadcastInDim S512 ![] bcast_S_S512 : (⟨S_, .f32⟩ : BufTy).Contents (Elt F) → (⟨S512, .f32⟩ : BufTy).Contents (Elt F)),
    binary main_v16 main_v15 main_v17 (addf : (⟨S512, .f32⟩ : BufTy).Contents (Elt F) → (⟨S512, .f32⟩ : BufTy).Contents (Elt F) → (⟨S512, .f32⟩ : BufTy).Contents (Elt F)),
    nullary main_cst_1 (constant S_ .f32 0x3F000000#32),
    binary main_cst_1 main_v13 main_v18 (mulf : (⟨S_, .f32⟩ : BufTy).Contents (Elt F) → (⟨S_, .f32⟩ : BufTy).Contents (Elt F) → (⟨S_, .f32⟩ : BufTy).Contents (Elt F)),
    unary main_v18 main_v19 (broadcastInDim S512 ![] bcast_S_S512 : (⟨S_, .f32⟩ : BufTy).Contents (Elt F) → (⟨S512, .f32⟩ : BufTy).Contents (Elt F)),
    binary main_v17 main_v19 main_v20 (subf : (⟨S512, .f32⟩ : BufTy).Contents (Elt F) → (⟨S512, .f32⟩ : BufTy).Contents (Elt F) → (⟨S512, .f32⟩ : BufTy).Contents (Elt F)),
    unary main_v20 main_v21 (broadcastInDim S1x1x512 ![2] bcast_S512_S1x1x512_2 : (⟨S512, .f32⟩ : BufTy).Contents (Elt F) → (⟨S1x1x512, .f32⟩ : BufTy).Contents (Elt F)),
    unary main_v21 main_v22 (broadcastInDim S16x2048x512 ![0, 1, 2] bcast_S1x1x512_S16x2048x512_0_1_2 : (⟨S1x1x512, .f32⟩ : BufTy).Contents (Elt F) → (⟨S16x2048x512, .f32⟩ : BufTy).Contents (Elt F)),
    binary main_v3 main_v22 main_v23 (addf : (⟨S16x2048x512, .f32⟩ : BufTy).Contents (Elt F) → (⟨S16x2048x512, .f32⟩ : BufTy).Contents (Elt F) → (⟨S16x2048x512, .f32⟩ : BufTy).Contents (Elt F)),
    nullary main_v24 (iotaInDim S2048 32 0),
    nullary main_c (constantI S_ 1 1#1),
    unary main_c main_v25 (broadcastInDim S16x1 ![] bcast_S_S16x1 : (⟨S_, .i1⟩ : BufTy).Contents (Elt F) → (⟨S16x1, .i1⟩ : BufTy).Contents (Elt F)),
    unary main_arg1 main_v26 ((extractStridedSlice S16x2047 ![0, 0] · slices_S16x2048_S16x2047_0_0) : (⟨S16x2048, .i1⟩ : BufTy).Contents (Elt F) → (⟨S16x2047, .i1⟩ : BufTy).Contents (Elt F)),
    binary main_v25 main_v26 main_v27 ((fun a b => concatenate S16x2048 1 [⟨S16x1, a⟩, ⟨S16x2047, b⟩] concatenates_S16x1_S16x2047_S16x2048_d1) : (⟨S16x1, .i1⟩ : BufTy).Contents (Elt F) → (⟨S16x2047, .i1⟩ : BufTy).Contents (Elt F) → (⟨S16x2048, .i1⟩ : BufTy).Contents (Elt F)),
    unary main_v24 main_v28 (broadcastInDim S1x2048 ![1] bcast_S2048_S1x2048_1 : (⟨S2048, .i32⟩ : BufTy).Contents (Elt F) → (⟨S1x2048, .i32⟩ : BufTy).Contents (Elt F)),
    nullary main_c_2 (constantI S_ 32 0#32),
    TRef.unary (.of main_c_2 : TRef sig ⟨S_, .i32⟩) main_call3.v0 id,
    TRef.unary (.of main_v28 : TRef sig ⟨S1x2048, .i32⟩) main_call3.v1 (broadcastInDim S16x2048 ![0, 1] bcast_S1x2048_S16x2048_0_1),
    TRef.unary main_call3.v0 main_call3.v2 (broadcastInDim S16x2048 ![] bcast_S_S16x2048),
    TRef.ternary (.of main_v27 : TRef sig ⟨S16x2048, .i1⟩) main_call3.v1 main_call3.v2 main_call3.v3 select,
    TRef.nullary main_call4.c (constantI S_ 32 2147483648#32),
    TRef.unary main_call4.c main_call4.v0 (broadcastInDim S_ ![] bcast_S_S_),
    TRef.binary (.of main_v29 : TRef sig ⟨S16x2048, .i32⟩) main_call4.v0 main_call4.v1 (fun x v => Host.reduceWindow IntOp.maxsi ![1, 2048] ![1, 1] ![0, 2047] ![0, 0] x v reduceWindows_S16x2048_S16x2048_w1s1p0_0_w2048s1p2047_0 h_S_),
    unary main_v30 main_v31 (broadcastInDim S16x2048x1 ![0, 1] bcast_S16x2048_S16x2048x1_0_1 : (⟨S16x2048, .i32⟩ : BufTy).Contents (Elt F) → (⟨S16x2048x1, .i32⟩ : BufTy).Contents (Elt F)),
    TRef.nullary main_call5.c (constantI S_ 32 0#32),
    TRef.unary main_call5.c main_call5.v0 (broadcastInDim S16x2048x1 ![] bcast_S_S16x2048x1),
    TRef.binary (.of main_v31 : TRef sig ⟨S16x2048x1, .i32⟩) main_call5.v0 main_call5.v1 (cmpi .slt),
    TRef.nullary main_call5.c_0 (constantI S_ 32 2048#32),
    TRef.unary main_call5.c_0 main_call5.v2 (broadcastInDim S16x2048x1 ![] bcast_S_S16x2048x1),
    TRef.binary (.of main_v31 : TRef sig ⟨S16x2048x1, .i32⟩) main_call5.v2 main_call5.v3 addi,
    TRef.ternary main_call5.v1 main_call5.v3 (.of main_v31 : TRef sig ⟨S16x2048x1, .i32⟩) main_call5.v4 select,
    TRef.nullary main_call5.c_1 (constantI S1 32 2047#32),
    TRef.nullary main_call5.c_2 (constantI S_ 32 0#32),
    TRef.unary main_call5.c_2 main_call5.v5 (broadcastInDim S16x2048x1 ![] bcast_S_S16x2048x1),
    TRef.binary main_call5.v4 main_call5.v5 main_call5.v6 (cmpi .sge),
    TRef.unary main_call5.c_1 main_call5.v7 (broadcastInDim S1x1x1 ![2] bcast_S1_S1x1x1_2),
    TRef.unary main_call5.v7 main_call5.v8 (broadcastInDim S16x2048x1 ![0, 1, 2] bcast_S1x1x1_S16x2048x1_0_1_2),
    TRef.binary main_call5.v4 main_call5.v8 main_call5.v9 (cmpi .sle),
    TRef.binary main_call5.v6 main_call5.v9 main_call5.v10 andi,
    TRef.nullary main_call5.c_3 (constantI S_ 1 1#1),
    TRef.binary main_call5.v10 main_call5.c_3 main_call5.v11 (fun x v => Host.reduce IntOp.andi x v reducesTo_S16x2048x1_S16x2048_d2 h_S_),
    TRef.binary (.of main_v23 : TRef sig ⟨S16x2048x512, .f32⟩) main_call5.v4 main_call5.v12 (fun x i => Host.gather gather_S16x2048x512_S16x2048x1_S16x2048x512_2_1_0_0_1_2_11512 x i),
    TRef.unary main_call5.v11 main_call5.v13 (broadcastInDim S16x2048x512 ![0, 1] bcast_S16x2048_S16x2048x512_0_1),
    TRef.nullary main_call5.cst (constant S_ .f32 0x7FC00000#32),
    TRef.unary main_call5.cst main_call5.v14 (broadcastInDim S16x2048x512 ![] bcast_S_S16x2048x512),
    TRef.ternary main_call5.v13 main_call5.v12 main_call5.v14 main_call5.v15 select ]

set_option maxRecDepth 8192 in
set_option maxHeartbeats 1600000 in
/-- @main is that straight line: the functions' definitions unfolded at their calls and the records at their
    fields, both sides are one chain of steps once sequencing is reassociated. -/
theorem main_eq (c : Dev nD) : main (F := F) c = seq ops := by
  simp only [main, fn_nanmean.body, fn_nansum.body, fn_where.body, fn_where_0.body, fn_cummax.body,
    fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., binary_bufs_sub .., unary_bufs_sub ..,
    unary_bufs_sub .., unary_bufs_sub .., nullary_bufs_sub .., binary_bufs_sub .., binary_bufs_sub .., nullary_bufs_sub ..,
    unary_bufs_sub .., ternary_bufs_sub .., nullary_bufs_sub .., binary_bufs_sub .., binary_bufs_sub .., unary_bufs_sub ..,
    binary_bufs_sub .., unary_bufs_sub .., binary_bufs_sub .., binary_bufs_sub .., unary_bufs_sub .., unary_bufs_sub ..,
    unary_bufs_sub .., nullary_bufs_sub .., binary_bufs_sub .., binary_bufs_sub .., nullary_bufs_sub .., unary_bufs_sub ..,
    ternary_bufs_sub .., nullary_bufs_sub .., binary_bufs_sub .., binary_bufs_sub .., unary_bufs_sub .., nullary_bufs_sub ..,
    binary_bufs_sub .., binary_bufs_sub .., unary_bufs_sub .., unary_bufs_sub .., unary_bufs_sub .., nullary_bufs_sub ..,
    binary_bufs_sub .., binary_bufs_sub .., nullary_bufs_sub .., unary_bufs_sub .., ternary_bufs_sub .., nullary_bufs_sub ..,
    binary_bufs_sub .., binary_bufs_sub .., nullary_bufs_sub .., binary_bufs_sub .., unary_bufs_sub .., binary_bufs_sub ..,
    unary_bufs_sub .., binary_bufs_sub .., nullary_bufs_sub .., binary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., nullary_bufs_sub .., unary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Out.lean ====
/-
  The value the reference's line leaves in each argument buffer and in the result buffer.

  The line's operations inside the module-local functions are stated over typed references, whose contents are
  carried to and from the buffer's own type along an equation of types that is the identity at a literal reference.
  `opsPlain` is the same line with every such operation stated over the bare references (the carried function
  itself, no transport): the two lists are equal by computation, operation by operation, and the fold over the
  plain list is read with no transport left in it.
-/
import proofs.«144746_j73340861547085_2_alg».proof.Proof.Ref.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- The line over bare references. -/
abbrev opsPlain : List (HloOp τ sig (Elt F)) :=
  [
    binary main_arg0 main_arg2 main_v0 ((fun l r => Host.dotGeneral dot_S16x2048x1024_S512x1024_S16x2048x512_2_1_01_0_n_n none l r) : (⟨S16x2048x1024, .f32⟩ : BufTy).Contents (Elt F) → (⟨S512x1024, .f32⟩ : BufTy).Contents (Elt F) → (⟨S16x2048x512, .f32⟩ : BufTy).Contents (Elt F)),
    unary main_arg3 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S16x2048x512 ![0, 1, 2] bcast_S1x1x512_S16x2048x512_0_1_2 : (⟨S1x1x512, .f32⟩ : BufTy).Contents (Elt F) → (⟨S16x2048x512, .f32⟩ : BufTy).Contents (Elt F)),
    binary main_v0 main_v2 main_v3 (addf : (⟨S16x2048x512, .f32⟩ : BufTy).Contents (Elt F) → (⟨S16x2048x512, .f32⟩ : BufTy).Contents (Elt F) → (⟨S16x2048x512, .f32⟩ : BufTy).Contents (Elt F)),
    binary main_v3 main_v3 main_call0_v0 ((cmpf .une) : (⟨S16x2048x512, .f32⟩ : BufTy).Contents (Elt F) → (⟨S16x2048x512, .f32⟩ : BufTy).Contents (Elt F) → (⟨S16x2048x512, .i1⟩ : BufTy).Contents (Elt F)),
    unary main_call0_v0 main_call0_v1 ((noti) : (⟨S16x2048x512, .i1⟩ : BufTy).Contents (Elt F) → (⟨S16x2048x512, .i1⟩ : BufTy).Contents (Elt F)),
    unary main_call0_v1 main_call0_v2 ((extui 32 · natLt_1_32) : (⟨S16x2048x512, .i1⟩ : BufTy).Contents (Elt F) → (⟨S16x2048x512, .i32⟩ : BufTy).Contents (Elt F)),
    unary main_call0_v2 main_call0_v3 ((sitofp .f32) : (⟨S16x2048x512, .i32⟩ : BufTy).Contents (Elt F) → (⟨S16x2048x512, .f32⟩ : BufTy).Contents (Elt F)),
    nullary main_call0_cst ((constant S_ .f32 0x00000000#32) : (⟨S_, .f32⟩ : BufTy).Contents (Elt F)),
    binary main_call0_v3 main_call0_cst main_call0_v4 ((fun x v => Host.reduceAdd x v reducesTo_S16x2048x512_S_d0_1_2 h_S_) : (⟨S16x2048x512, .f32⟩ : BufTy).Contents (Elt F) → (⟨S_, .f32⟩ : BufTy).Contents (Elt F) → (⟨S_, .f32⟩ : BufTy).Contents (Elt F)),
    binary main_v3 main_v3 main_call0_call0_v0 ((cmpf .une) : (⟨S16x2048x512, .f32⟩ : BufTy).Contents (Elt F) → (⟨S16x2048x512, .f32⟩ : BufTy).Contents (Elt F) → (⟨S16x2048x512, .i1⟩ : BufTy).Contents (Elt F)),
    nullary main_call0_call0_cst ((constant S_ .f32 0x00000000#32) : (⟨S_, .f32⟩ : BufTy).Contents (Elt F)),
    unary main_call0_call0_cst main_call0_call0_call0_v0 ((broadcastInDim S16x2048x512 ![] bcast_S_S16x2048x512) : (⟨S_, .f32⟩ : BufTy).Contents (Elt F) → (⟨S16x2048x512, .f32⟩ : BufTy).Contents (Elt F)),
    ternary main_call0_call0_v0 main_call0_call0_call0_v0 main_v3 main_call0_call0_v1 ((select) : (⟨S16x2048x512, .i1⟩ : BufTy).Contents (Elt F) → (⟨S16x2048x512, .f32⟩ : BufTy).Contents (Elt F) → (⟨S16x2048x512, .f32⟩ : BufTy).Contents (Elt F) → (⟨S16x2048x512, .f32⟩ : BufTy).Contents (Elt F)),
    nullary main_call0_call0_cst_0 ((constant S_ .f32 0x00000000#32) : (⟨S_, .f32⟩ : BufTy).Contents (Elt F)),
    binary main_call0_call0_v1 main_call0_call0_cst_0 main_call0_v5 ((fun x v => Host.reduceAdd x v reducesTo_S16x2048x512_S_d0_1_2 h_S_) : (⟨S16x2048x512, .f32⟩ : BufTy).Contents (Elt F) → (⟨S_, .f32⟩ : BufTy).Contents (Elt F) → (⟨S_, .f32⟩ : BufTy).Contents (Elt F)),
    binary main_call0_v5 main_call0_v4 main_v4 ((Host.divf) : (⟨S_, .f32⟩ : BufTy).Contents (Elt F) → (⟨S_, .f32⟩ : BufTy).Contents (Elt F) → (⟨S_, .f32⟩ : BufTy).Contents (Elt F)),
    unary main_v4 main_v5 (broadcastInDim S16x2048x512 ![] bcast_S_S16x2048x512 : (⟨S_, .f32⟩ : BufTy).Contents (Elt F) → (⟨S16x2048x512, .f32⟩ : BufTy).Contents (Elt F)),
    binary main_v3 main_v5 main_v6 (subf : (⟨S16x2048x512, .f32⟩ : BufTy).Contents (Elt F) → (⟨S16x2048x512, .f32⟩ : BufTy).Contents (Elt F) → (⟨S16x2048x512, .f32⟩ : BufTy).Contents (Elt F)),
    unary main_v6 main_v7 (Host.absf : (⟨S16x2048x512, .f32⟩ : BufTy).Contents (Elt F) → (⟨S16x2048x512, .f32⟩ : BufTy).Contents (Elt F)),
    binary main_v7 main_v7 main_v8 (mulf : (⟨S16x2048x512, .f32⟩ : BufTy).Contents (Elt F) → (⟨S16x2048x512, .f32⟩ : BufTy).Contents (Elt F) → (⟨S16x2048x512, .f32⟩ : BufTy).Contents (Elt F)),
    binary main_v8 main_v8 main_call1_v0 ((cmpf .une) : (⟨S16x2048x512, .f32⟩ : BufTy).Contents (Elt F) → (⟨S16x2048x512, .f32⟩ : BufTy).Contents (Elt F) → (⟨S16x2048x512, .i1⟩ : BufTy).Contents (Elt F)),
    unary main_call1_v0 main_call1_v1 ((noti) : (⟨S16x2048x512, .i1⟩ : BufTy).Contents (Elt F) → (⟨S16x2048x512, .i1⟩ : BufTy).Contents (Elt F)),
    unary main_call1_v1 main_call1_v2 ((extui 32 · natLt_1_32) : (⟨S16x2048x512, .i1⟩ : BufTy).Contents (Elt F) → (⟨S16x2048x512, .i32⟩ : BufTy).Contents (Elt F)),
    unary main_call1_v2 main_call1_v3 ((sitofp .f32) : (⟨S16x2048x512, .i32⟩ : BufTy).Contents (Elt F) → (⟨S16x2048x512, .f32⟩ : BufTy).Contents (Elt F)),
    nullary main_call1_cst ((constant S_ .f32 0x00000000#32) : (⟨S_, .f32⟩ : BufTy).Contents (Elt F)),
    binary main_call1_v3 main_call1_cst main_call1_v4 ((fun x v => Host.reduceAdd x v reducesTo_S16x2048x512_S_d0_1_2 h_S_) : (⟨S16x2048x512, .f32⟩ : BufTy).Contents (Elt F) → (⟨S_, .f32⟩ : BufTy).Contents (Elt F) → (⟨S_, .f32⟩ : BufTy).Contents (Elt F)),
    binary main_v8 main_v8 main_call1_call0_v0 ((cmpf .une) : (⟨S16x2048x512, .f32⟩ : BufTy).Contents (Elt F) → (⟨S16x2048x512, .f32⟩ : BufTy).Contents (Elt F) → (⟨S16x2048x512, .i1⟩ : BufTy).Contents (Elt F)),
    nullary main_call1_call0_cst ((constant S_ .f32 0x00000000#32) : (⟨S_, .f32⟩ : BufTy).Contents (Elt F)),
    unary main_call1_call0_cst main_call1_call0_call0_v0 ((broadcastInDim S16x2048x512 ![] bcast_S_S16x2048x512) : (⟨S_, .f32⟩ : BufTy).Contents (Elt F) → (⟨S16x2048x512, .f32⟩ : BufTy).Contents (Elt F)),
    ternary main_call1_call0_v0 main_call1_call0_call0_v0 main_v8 main_call1_call0_v1 ((select) : (⟨S16x2048x512, .i1⟩ : BufTy).Contents (Elt F) → (⟨S16x2048x512, .f32⟩ : BufTy).Contents (Elt F) → (⟨S16x2048x512, .f32⟩ : BufTy).Contents (Elt F) → (⟨S16x2048x512, .f32⟩ : BufTy).Contents (Elt F)),
    nullary main_call1_call0_cst_0 ((constant S_ .f32 0x00000000#32) : (⟨S_, .f32⟩ : BufTy).Contents (Elt F)),
    binary main_call1_call0_v1 main_call1_call0_cst_0 main_call1_v5 ((fun x v => Host.reduceAdd x v reducesTo_S16x2048x512_S_d0_1_2 h_S_) : (⟨S16x2048x512, .f32⟩ : BufTy).Contents (Elt F) → (⟨S_, .f32⟩ : BufTy).Contents (Elt F) → (⟨S_, .f32⟩ : BufTy).Contents (Elt F)),
    binary main_call1_v5 main_call1_v4 main_v9 ((Host.divf) : (⟨S_, .f32⟩ : BufTy).Contents (Elt F) → (⟨S_, .f32⟩ : BufTy).Contents (Elt F) → (⟨S_, .f32⟩ : BufTy).Contents (Elt F)),
    unary main_v9 main_v10 (Host.sqrt : (⟨S_, .f32⟩ : BufTy).Contents (Elt F) → (⟨S_, .f32⟩ : BufTy).Contents (Elt F)),
    nullary main_cst (constant S_ .f32 0x40A00000#32),
    binary main_v10 main_cst main_v11 (Host.divf : (⟨S_, .f32⟩ : BufTy).Contents (Elt F) → (⟨S_, .f32⟩ : BufTy).Contents (Elt F) → (⟨S_, .f32⟩ : BufTy).Contents (Elt F)),
    binary main_v3 main_v3 main_call2_v0 ((cmpf .une) : (⟨S16x2048x512, .f32⟩ : BufTy).Contents (Elt F) → (⟨S16x2048x512, .f32⟩ : BufTy).Contents (Elt F) → (⟨S16x2048x512, .i1⟩ : BufTy).Contents (Elt F)),
    unary main_call2_v0 main_call2_v1 ((noti) : (⟨S16x2048x512, .i1⟩ : BufTy).Contents (Elt F) → (⟨S16x2048x512, .i1⟩ : BufTy).Contents (Elt F)),
    unary main_call2_v1 main_call2_v2 ((extui 32 · natLt_1_32) : (⟨S16x2048x512, .i1⟩ : BufTy).Contents (Elt F) → (⟨S16x2048x512, .i32⟩ : BufTy).Contents (Elt F)),
    unary main_call2_v2 main_call2_v3 ((sitofp .f32) : (⟨S16x2048x512, .i32⟩ : BufTy).Contents (Elt F) → (⟨S16x2048x512, .f32⟩ : BufTy).Contents (Elt F)),
    nullary main_call2_cst ((constant S_ .f32 0x00000000#32) : (⟨S_, .f32⟩ : BufTy).Contents (Elt F)),
    binary main_call2_v3 main_call2_cst main_call2_v4 ((fun x v => Host.reduceAdd x v reducesTo_S16x2048x512_S_d0_1_2 h_S_) : (⟨S16x2048x512, .f32⟩ : BufTy).Contents (Elt F) → (⟨S_, .f32⟩ : BufTy).Contents (Elt F) → (⟨S_, .f32⟩ : BufTy).Contents (Elt F)),
    binary main_v3 main_v3 main_call2_call0_v0 ((cmpf .une) : (⟨S16x2048x512, .f32⟩ : BufTy).Contents (Elt F) → (⟨S16x2048x512, .f32⟩ : BufTy).Contents (Elt F) → (⟨S16x2048x512, .i1⟩ : BufTy).Contents (Elt F)),
    nullary main_call2_call0_cst ((constant S_ .f32 0x00000000#32) : (⟨S_, .f32⟩ : BufTy).Contents (Elt F)),
    unary main_call2_call0_cst main_call2_call0_call0_v0 ((broadcastInDim S16x2048x512 ![] bcast_S_S16x2048x512) : (⟨S_, .f32⟩ : BufTy).Contents (Elt F) → (⟨S16x2048x512, .f32⟩ : BufTy).Contents (Elt F)),
    ternary main_call2_call0_v0 main_call2_call0_call0_v0 main_v3 main_call2_call0_v1 ((select) : (⟨S16x2048x512, .i1⟩ : BufTy).Contents (Elt F) → (⟨S16x2048x512, .f32⟩ : BufTy).Contents (Elt F) → (⟨S16x2048x512, .f32⟩ : BufTy).Contents (Elt F) → (⟨S16x2048x512, .f32⟩ : BufTy).Contents (Elt F)),
    nullary main_call2_call0_cst_0 ((constant S_ .f32 0x00000000#32) : (⟨S_, .f32⟩ : BufTy).Contents (Elt F)),
    binary main_call2_call0_v1 main_call2_call0_cst_0 main_call2_v5 ((fun x v => Host.reduceAdd x v reducesTo_S16x2048x512_S_d0_1_2 h_S_) : (⟨S16x2048x512, .f32⟩ : BufTy).Contents (Elt F) → (⟨S_, .f32⟩ : BufTy).Contents (Elt F) → (⟨S_, .f32⟩ : BufTy).Contents (Elt F)),
    binary main_call2_v5 main_call2_v4 main_v12 ((Host.divf) : (⟨S_, .f32⟩ : BufTy).Contents (Elt F) → (⟨S_, .f32⟩ : BufTy).Contents (Elt F) → (⟨S_, .f32⟩ : BufTy).Contents (Elt F)),
    nullary main_cst_0 (constant S_ .f32 0x41200000#32),
    binary main_v12 main_cst_0 main_v13 (Host.divf : (⟨S_, .f32⟩ : BufTy).Contents (Elt F) → (⟨S_, .f32⟩ : BufTy).Contents (Elt F) → (⟨S_, .f32⟩ : BufTy).Contents (Elt F)),
    unary main_v11 main_v14 (broadcastInDim S512 ![] bcast_S_S512 : (⟨S_, .f32⟩ : BufTy).Contents (Elt F) → (⟨S512, .f32⟩ : BufTy).Contents (Elt F)),
    binary main_v14 main_arg4 main_v15 (mulf : (⟨S512, .f32⟩ : BufTy).Contents (Elt F) → (⟨S512, .f32⟩ : BufTy).Contents (Elt F) → (⟨S512, .f32⟩ : BufTy).Contents (Elt F)),
    unary main_v13 main_v16 (broadcastInDim S512 ![] bcast_S_S512 : (⟨S_, .f32⟩ : BufTy).Contents (Elt F) → (⟨S512, .f32⟩ : BufTy).Contents (Elt F)),
    binary main_v16 main_v15 main_v17 (addf : (⟨S512, .f32⟩ : BufTy).Contents (Elt F) → (⟨S512, .f32⟩ : BufTy).Contents (Elt F) → (⟨S512, .f32⟩ : BufTy).Contents (Elt F)),
    nullary main_cst_1 (constant S_ .f32 0x3F000000#32),
    binary main_cst_1 main_v13 main_v18 (mulf : (⟨S_, .f32⟩ : BufTy).Contents (Elt F) → (⟨S_, .f32⟩ : BufTy).Contents (Elt F) → (⟨S_, .f32⟩ : BufTy).Contents (Elt F)),
    unary main_v18 main_v19 (broadcastInDim S512 ![] bcast_S_S512 : (⟨S_, .f32⟩ : BufTy).Contents (Elt F) → (⟨S512, .f32⟩ : BufTy).Contents (Elt F)),
    binary main_v17 main_v19 main_v20 (subf : (⟨S512, .f32⟩ : BufTy).Contents (Elt F) → (⟨S512, .f32⟩ : BufTy).Contents (Elt F) → (⟨S512, .f32⟩ : BufTy).Contents (Elt F)),
    unary main_v20 main_v21 (broadcastInDim S1x1x512 ![2] bcast_S512_S1x1x512_2 : (⟨S512, .f32⟩ : BufTy).Contents (Elt F) → (⟨S1x1x512, .f32⟩ : BufTy).Contents (Elt F)),
    unary main_v21 main_v22 (broadcastInDim S16x2048x512 ![0, 1, 2] bcast_S1x1x512_S16x2048x512_0_1_2 : (⟨S1x1x512, .f32⟩ : BufTy).Contents (Elt F) → (⟨S16x2048x512, .f32⟩ : BufTy).Contents (Elt F)),
    binary main_v3 main_v22 main_v23 (addf : (⟨S16x2048x512, .f32⟩ : BufTy).Contents (Elt F) → (⟨S16x2048x512, .f32⟩ : BufTy).Contents (Elt F) → (⟨S16x2048x512, .f32⟩ : BufTy).Contents (Elt F)),
    nullary main_v24 (iotaInDim S2048 32 0),
    nullary main_c (constantI S_ 1 1#1),
    unary main_c main_v25 (broadcastInDim S16x1 ![] bcast_S_S16x1 : (⟨S_, .i1⟩ : BufTy).Contents (Elt F) → (⟨S16x1, .i1⟩ : BufTy).Contents (Elt F)),
    unary main_arg1 main_v26 ((extractStridedSlice S16x2047 ![0, 0] · slices_S16x2048_S16x2047_0_0) : (⟨S16x2048, .i1⟩ : BufTy).Contents (Elt F) → (⟨S16x2047, .i1⟩ : BufTy).Contents (Elt F)),
    binary main_v25 main_v26 main_v27 ((fun a b => concatenate S16x2048 1 [⟨S16x1, a⟩, ⟨S16x2047, b⟩] concatenates_S16x1_S16x2047_S16x2048_d1) : (⟨S16x1, .i1⟩ : BufTy).Contents (Elt F) → (⟨S16x2047, .i1⟩ : BufTy).Contents (Elt F) → (⟨S16x2048, .i1⟩ : BufTy).Contents (Elt F)),
    unary main_v24 main_v28 (broadcastInDim S1x2048 ![1] bcast_S2048_S1x2048_1 : (⟨S2048, .i32⟩ : BufTy).Contents (Elt F) → (⟨S1x2048, .i32⟩ : BufTy).Contents (Elt F)),
    nullary main_c_2 (constantI S_ 32 0#32),
    unary main_c_2 main_call3_v0 ((id) : (⟨S_, .i32⟩ : BufTy).Contents (Elt F) → (⟨S_, .i32⟩ : BufTy).Contents (Elt F)),
    unary main_v28 main_call3_v1 ((broadcastInDim S16x2048 ![0, 1] bcast_S1x2048_S16x2048_0_1) : (⟨S1x2048, .i32⟩ : BufTy).Contents (Elt F) → (⟨S16x2048, .i32⟩ : BufTy).Contents (Elt F)),
    unary main_call3_v0 main_call3_v2 ((broadcastInDim S16x2048 ![] bcast_S_S16x2048) : (⟨S_, .i32⟩ : BufTy).Contents (Elt F) → (⟨S16x2048, .i32⟩ : BufTy).Contents (Elt F)),
    ternary main_v27 main_call3_v1 main_call3_v2 main_v29 ((select) : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    nullary main_call4_c ((constantI S_ 32 2147483648#32) : (⟨S_, .i32⟩ : BufTy).Contents (Elt F)),
    unary main_call4_c main_call4_v0 ((broadcastInDim S_ ![] bcast_S_S_) : (⟨S_, .i32⟩ : BufTy).Contents (Elt F) → (⟨S_, .i32⟩ : BufTy).Contents (Elt F)),
    binary main_v29 main_call4_v0 main_v30 ((fun x v => Host.reduceWindow IntOp.maxsi ![1, 2048] ![1, 1] ![0, 2047] ![0, 0] x v reduceWindows_S16x2048_S16x2048_w1s1p0_0_w2048s1p2047_0 h_S_) : (⟨S16x2048, .i32⟩ : BufTy).Contents (Elt F) → (⟨S_, .i32⟩ : BufTy).Contents (Elt F) → (⟨S16x2048, .i32⟩ : BufTy).Contents (Elt F)),
    unary main_v30 main_v31 (broadcastInDim S16x2048x1 ![0, 1] bcast_S16x2048_S16x2048x1_0_1 : (⟨S16x2048, .i32⟩ : BufTy).Contents (Elt F) → (⟨S16x2048x1, .i32⟩ : BufTy).Contents (Elt F)),
    nullary main_call5_c ((constantI S_ 32 0#32) : (⟨S_, .i32⟩ : BufTy).Contents (Elt F)),
    unary main_call5_c main_call5_v0 ((broadcastInDim S16x2048x1 ![] bcast_S_S16x2048x1) : (⟨S_, .i32⟩ : BufTy).Contents (Elt F) → (⟨S16x2048x1, .i32⟩ : BufTy).Contents (Elt F)),
    binary main_v31 main_call5_v0 main_call5_v1 ((cmpi .slt) : (⟨S16x2048x1, .i32⟩ : BufTy).Contents (Elt F) → (⟨S16x2048x1, .i32⟩ : BufTy).Contents (Elt F) → (⟨S16x2048x1, .i1⟩ : BufTy).Contents (Elt F)),
    nullary main_call5_c_0 ((constantI S_ 32 2048#32) : (⟨S_, .i32⟩ : BufTy).Contents (Elt F)),
    unary main_call5_c_0 main_call5_v2 ((broadcastInDim S16x2048x1 ![] bcast_S_S16x2048x1) : (⟨S_, .i32⟩ : BufTy).Contents (Elt F) → (⟨S16x2048x1, .i32⟩ : BufTy).Contents (Elt F)),
    binary main_v31 main_call5_v2 main_call5_v3 ((addi) : (⟨S16x2048x1, .i32⟩ : BufTy).Contents (Elt F) → (⟨S16x2048x1, .i32⟩ : BufTy).Contents (Elt F) → (⟨S16x2048x1, .i32⟩ : BufTy).Contents (Elt F)),
    ternary main_call5_v1 main_call5_v3 main_v31 main_call5_v4 ((select) : (⟨S16x2048x1, .i1⟩ : BufTy).Contents (Elt F) → (⟨S16x2048x1, .i32⟩ : BufTy).Contents (Elt F) → (⟨S16x2048x1, .i32⟩ : BufTy).Contents (Elt F) → (⟨S16x2048x1, .i32⟩ : BufTy).Contents (Elt F)),
    nullary main_call5_c_1 ((constantI S1 32 2047#32) : (⟨S1, .i32⟩ : BufTy).Contents (Elt F)),
    nullary main_call5_c_2 ((constantI S_ 32 0#32) : (⟨S_, .i32⟩ : BufTy).Contents (Elt F)),
    unary main_call5_c_2 main_call5_v5 ((broadcastInDim S16x2048x1 ![] bcast_S_S16x2048x1) : (⟨S_, .i32⟩ : BufTy).Contents (Elt F) → (⟨S16x2048x1, .i32⟩ : BufTy).Contents (Elt F)),
    binary main_call5_v4 main_call5_v5 main_call5_v6 ((cmpi .sge) : (⟨S16x2048x1, .i32⟩ : BufTy).Contents (Elt F) → (⟨S16x2048x1, .i32⟩ : BufTy).Contents (Elt F) → (⟨S16x2048x1, .i1⟩ : BufTy).Contents (Elt F)),
    unary main_call5_c_1 main_call5_v7 ((broadcastInDim S1x1x1 ![2] bcast_S1_S1x1x1_2) : (⟨S1, .i32⟩ : BufTy).Contents (Elt F) → (⟨S1x1x1, .i32⟩ : BufTy).Contents (Elt F)),
    unary main_call5_v7 main_call5_v8 ((broadcastInDim S16x2048x1 ![0, 1, 2] bcast_S1x1x1_S16x2048x1_0_1_2) : (⟨S1x1x1, .i32⟩ : BufTy).Contents (Elt F) → (⟨S16x2048x1, .i32⟩ : BufTy).Contents (Elt F)),
    binary main_call5_v4 main_call5_v8 main_call5_v9 ((cmpi .sle) : (⟨S16x2048x1, .i32⟩ : BufTy).Contents (Elt F) → (⟨S16x2048x1, .i32⟩ : BufTy).Contents (Elt F) → (⟨S16x2048x1, .i1⟩ : BufTy).Contents (Elt F)),
    binary main_call5_v6 main_call5_v9 main_call5_v10 ((andi) : (⟨S16x2048x1, .i1⟩ : BufTy).Contents (Elt F) → (⟨S16x2048x1, .i1⟩ : BufTy).Contents (Elt F) → (⟨S16x2048x1, .i1⟩ : BufTy).Contents (Elt F)),
    nullary main_call5_c_3 ((constantI S_ 1 1#1) : (⟨S_, .i1⟩ : BufTy).Contents (Elt F)),
    binary main_call5_v10 main_call5_c_3 main_call5_v11 ((fun x v => Host.reduce IntOp.andi x v reducesTo_S16x2048x1_S16x2048_d2 h_S_) : (⟨S16x2048x1, .i1⟩ : BufTy).Contents (Elt F) → (⟨S_, .i1⟩ : BufTy).Contents (Elt F) → (⟨S16x2048, .i1⟩ : BufTy).Contents (Elt F)),
    binary main_v23 main_call5_v4 main_call5_v12 ((fun x i => Host.gather gather_S16x2048x512_S16x2048x1_S16x2048x512_2_1_0_0_1_2_11512 x i) : (⟨S16x2048x512, .f32⟩ : BufTy).Contents (Elt F) → (⟨S16x2048x1, .i32⟩ : BufTy).Contents (Elt F) → (⟨S16x2048x512, .f32⟩ : BufTy).Contents (Elt F)),
    unary main_call5_v11 main_call5_v13 ((broadcastInDim S16x2048x512 ![0, 1] bcast_S16x2048_S16x2048x512_0_1) : (⟨S16x2048, .i1⟩ : BufTy).Contents (Elt F) → (⟨S16x2048x512, .i1⟩ : BufTy).Contents (Elt F)),
    nullary main_call5_cst ((constant S_ .f32 0x7FC00000#32) : (⟨S_, .f32⟩ : BufTy).Contents (Elt F)),
    unary main_call5_cst main_call5_v14 ((broadcastInDim S16x2048x512 ![] bcast_S_S16x2048x512) : (⟨S_, .f32⟩ : BufTy).Contents (Elt F) → (⟨S16x2048x512, .f32⟩ : BufTy).Contents (Elt F)),
    ternary main_call5_v13 main_call5_v12 main_call5_v14 main_v32 ((select) : (⟨S16x2048x512, .i1⟩ : BufTy).Contents (Elt F) → (⟨S16x2048x512, .f32⟩ : BufTy).Contents (Elt F) → (⟨S16x2048x512, .f32⟩ : BufTy).Contents (Elt F) → (⟨S16x2048x512, .f32⟩ : BufTy).Contents (Elt F)) ]

attribute [local irreducible] Host.reduce Host.reduceAdd Host.reduceWindow Host.gather in
set_option maxRecDepth 16384 in
set_option maxHeartbeats 1600000 in
/-- The two spellings of the line are one list: at a literal reference the transport is the identity. -/
theorem ops_eq_plain : (ops : List (HloOp τ sig (Elt F))) = opsPlain := rfl

attribute [local irreducible] Host.reduce Host.reduceAdd Host.reduceWindow Host.gather in
set_option maxRecDepth 16384 in
/-- No operation of the line writes argument 0's buffer: the fold leaves it as it was. -/
theorem arg0_eq (V : Valuation τ sig (Elt F)) :
    after ops V (main_arg0 : DevRef τ sig) = V (main_arg0 : DevRef τ sig) := by
  simp only [after_cons, after_nil]
  rfl

attribute [local irreducible] Host.reduce Host.reduceAdd Host.reduceWindow Host.gather in
set_option maxRecDepth 16384 in
/-- No operation of the line writes argument 1's buffer: the fold leaves it as it was. -/
theorem arg1_eq (V : Valuation τ sig (Elt F)) :
    after ops V (main_arg1 : DevRef τ sig) = V (main_arg1 : DevRef τ sig) := by
  simp only [after_cons, after_nil]
  rfl

attribute [local irreducible] Host.reduce Host.reduceAdd Host.reduceWindow Host.gather in
set_option maxRecDepth 16384 in
/-- No operation of the line writes argument 2's buffer: the fold leaves it as it was. -/
theorem arg2_eq (V : Valuation τ sig (Elt F)) :
    after ops V (main_arg2 : DevRef τ sig) = V (main_arg2 : DevRef τ sig) := by
  simp only [after_cons, after_nil]
  rfl

attribute [local irreducible] Host.reduce Host.reduceAdd Host.reduceWindow Host.gather in
set_option maxRecDepth 16384 in
/-- No operation of the line writes argument 3's buffer: the fold leaves it as it was. -/
theorem arg3_eq (V : Valuation τ sig (Elt F)) :
    after ops V (main_arg3 : DevRef τ sig) = V (main_arg3 : DevRef τ sig) := by
  simp only [after_cons, after_nil]
  rfl

attribute [local irreducible] Host.reduce Host.reduceAdd Host.reduceWindow Host.gather in
set_option maxRecDepth 16384 in
/-- No operation of the line writes argument 4's buffer: the fold leaves it as it was. -/
theorem arg4_eq (V : Valuation τ sig (Elt F)) :
    after ops V (main_arg4 : DevRef τ sig) = V (main_arg4 : DevRef τ sig) := by
  simp only [after_cons, after_nil]
  rfl

attribute [local irreducible] Host.reduce Host.reduceAdd Host.reduceWindow Host.gather in
set_option maxRecDepth 16384 in
set_option maxHeartbeats 1600000 in
/-- The fold at the result buffer is `refOut` of the arguments' contents: over the plain list each operation's
    result at its own buffer is its function's value and any other buffer is left, and the composed term is
    `refOut` unfolded. The reductions, the reduce-window and the gather are kept folded meanwhile: the equation
    never looks inside them. -/
theorem out_eq (V : Valuation τ sig (Elt F)) :
    after ops V (main_v32 : DevRef τ sig)
      = refOut (V (main_arg0 : DevRef τ sig)) (V (main_arg1 : DevRef τ sig)) (V (main_arg2 : DevRef τ sig))
          (V (main_arg3 : DevRef τ sig)) (V (main_arg4 : DevRef τ sig)) := by
  rw [ops_eq_plain]
  after_results_simp
  rfl

end Cert.ReferenceIdeal.Hand

end
-- ==== Proof.Ref.Read.lean ====
/-
  The reference's stages read at an index.

  * `stage_g_apply`: the contraction plus bias at `(p, l, j)` is the sum over the contraction coordinate of the
    operands' products plus the bias at `j` (at the ideal values).
  * `gather_apply`: the gather at `(p, t, j)` reads the operand at `(p, r, j)`, `r` the start index at
    `(p, t, 0)` read signed and clamped into `[0, 2047]`.
  * `takeF_apply`: when the index at `(p, t, 0)` is a natural number `s ≤ 2047`, the row selection at `(p, t, j)`
    is the operand at `(p, s, j)`: the wrap of negative indices is not taken, the range test holds, the clamp is the
    identity (for any float values).
-/
import proofs.«144746_j73340861547085_2_alg».proof.Proof.Ref.Run
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-! ## The contraction plus bias, at an index -/

/-- The contraction shape of the dot's dimension numbers has one axis … -/
theorem dot_contr_rank : (dot_S16x2048x1024_S512x1024_S16x2048x512_2_1_01_0_n_n).contr.rank = 1 := rfl
/-- … of extent 1024. -/
theorem dot_contr_size : (dot_S16x2048x1024_S512x1024_S16x2048x512_2_1_01_0_n_n).contr.size ⟨0, by rw [dot_contr_rank]; exact Nat.one_pos⟩ = 1024 := rfl

/-- `stage_g` at `(p, l, j)`: the sum over `k` of `x (p, l, k) * W (j, k)`, plus `b j`. -/
theorem stage_g_apply (x : FVec Ideal S16x2048x1024 .f32) (W : FVec Ideal S512x1024 .f32) (b : FVec Ideal S512 .f32)
    (p : Fin 16) (l : Fin 2048) (j : Fin 512) :
    stage_g x W b (ix3 p l j) = (∑ k : Fin 1024, x (ix3 p l k) * W (ix2 j k)) + b (ix1 j) := by
  unfold stage_g
  rw [addf_apply]
  congr 1
  · show FloatOps.dotGeneral dot_S16x2048x1024_S512x1024_S16x2048x512_2_1_01_0_n_n none .single x W (ix3 p l j) = _
    rw [Ideal.dotGeneral_apply,
      ← Equiv.sum_comp (contrEquiv1 dot_S16x2048x1024_S512x1024_S16x2048x512_2_1_01_0_n_n 1024 dot_contr_rank dot_contr_size).symm]
    refine Finset.sum_congr rfl fun k _ => ?_
    congr 2
    · funext a
      refine Fin.ext ?_
      match a with
      | ⟨0, _⟩ => rfl
      | ⟨1, _⟩ => rfl
      | ⟨2, _⟩ => exact contrEquiv1_symm_val dot_S16x2048x1024_S512x1024_S16x2048x512_2_1_01_0_n_n 1024 dot_contr_rank dot_contr_size k
    · funext a
      refine Fin.ext ?_
      match a with
      | ⟨0, _⟩ => rfl
      | ⟨1, _⟩ => exact contrEquiv1_symm_val dot_S16x2048x1024_S512x1024_S16x2048x512_2_1_01_0_n_n 1024 dot_contr_rank dot_contr_size k
  · rw [broadcastInDim_apply _ _ _ _ (ix3 (0 : Fin 1) (0 : Fin 1) j)
        (by intro a; match a with | ⟨0, _⟩ => rfl | ⟨1, _⟩ => rfl | ⟨2, _⟩ => rfl),
      broadcastInDim_apply _ _ _ _ (ix1 j) (by intro a; match a with | ⟨0, _⟩ => rfl)]

/-! ## The row selection, at an index -/

/-- The gather at `(p, t, j)`: `g` at `(p, r, j)`, `r` the start index at `(p, t, 0)` read signed and clamped
    into `[0, 2047]`. On the batching axis the operand index is the result's batch coordinate, on the collapsed
    axis the clamped start index, on the offset axis the result's offset coordinate. -/
theorem gather_apply {α : Type} (g : S16x2048x512.Idx → α) (w : IVec S16x2048x1 32) (p : Fin 16) (t : Fin 2048) (j : Fin 512) :
    Host.gather gather_S16x2048x512_S16x2048x1_S16x2048x512_2_1_0_0_1_2_11512 g w (ix3 p t j)
      = g (ix3 p ⟨min (w (ix3 p t (0 : Fin 1))).toInt.toNat 2047, by omega⟩ j) := by
  unfold Host.gather
  congr 1
  funext a
  refine Fin.ext ?_
  show (gather_S16x2048x512_S16x2048x1_S16x2048x512_2_1_0_0_1_2_11512).start (ix3 p t j) w a + (gather_S16x2048x512_S16x2048x1_S16x2048x512_2_1_0_0_1_2_11512).batchCoord (ix3 p t j) a + (gather_S16x2048x512_S16x2048x1_S16x2048x512_2_1_0_0_1_2_11512).offCoord (ix3 p t j) a = _
  match a with
  | ⟨0, _⟩ => show 0 + p.val + 0 = p.val; omega
  | ⟨1, _⟩ =>
    have hsi : (gather_S16x2048x512_S16x2048x1_S16x2048x512_2_1_0_0_1_2_11512).siIdx (ix3 p t j) ⟨List.idxOf (1 : Fin 3) (gather_S16x2048x512_S16x2048x1_S16x2048x512_2_1_0_0_1_2_11512).startIndexMap,
        List.idxOf_lt_length_iff.2 (List.mem_singleton.mpr rfl)⟩ = ix3 p t (0 : Fin 1) := by
      funext b; refine Fin.ext ?_
      match b with
      | ⟨0, _⟩ => rfl
      | ⟨1, _⟩ => rfl
      | ⟨2, _⟩ => rfl
    show min (w ((gather_S16x2048x512_S16x2048x1_S16x2048x512_2_1_0_0_1_2_11512).siIdx (ix3 p t j) ⟨List.idxOf (1 : Fin 3) (gather_S16x2048x512_S16x2048x1_S16x2048x512_2_1_0_0_1_2_11512).startIndexMap,
        List.idxOf_lt_length_iff.2 (List.mem_singleton.mpr rfl)⟩)).toInt.toNat 2047 + 0 + 0 = _
    rw [hsi]
    rfl
  | ⟨2, _⟩ => show 0 + 0 + j.val = j.val; omega

/-- A natural number up to 2047, as a 32-bit word read signed, is itself. -/
theorem toInt_ofNat_small (s : ℕ) (hs : s ≤ 2047) : (BitVec.ofNat 32 s).toInt = (s : Int) := by
  rw [BitVec.toInt_eq_toNat_cond, BitVec.toNat_ofNat]
  have h1 : s % 2 ^ 32 = s := Nat.mod_eq_of_lt (by omega)
  rw [h1]
  split <;> omega

theorem slt_ofNat_zero (s : ℕ) (hs : s ≤ 2047) : IntOp.cmpi .slt (BitVec.ofNat 32 s) 0#32 = 0#1 := by
  show BitVec.ofBool ((BitVec.ofNat 32 s).slt 0#32) = 0#1
  have : (BitVec.ofNat 32 s).slt 0#32 = false := by
    rw [BitVec.slt, toInt_ofNat_small s hs]
    simp
  rw [this]; rfl

theorem sge_ofNat_zero (s : ℕ) (hs : s ≤ 2047) : IntOp.cmpi .sge (BitVec.ofNat 32 s) 0#32 = 1#1 := by
  show BitVec.ofBool ((0#32 : BitVec 32).sle (BitVec.ofNat 32 s)) = 1#1
  have : (0#32 : BitVec 32).sle (BitVec.ofNat 32 s) = true := by
    rw [BitVec.sle, toInt_ofNat_small s hs]
    simp
  rw [this]; rfl

theorem sle_ofNat_2047 (s : ℕ) (hs : s ≤ 2047) : IntOp.cmpi .sle (BitVec.ofNat 32 s) 2047#32 = 1#1 := by
  show BitVec.ofBool ((BitVec.ofNat 32 s).sle 2047#32) = 1#1
  have : (BitVec.ofNat 32 s).sle 2047#32 = true := by
    rw [BitVec.sle, toInt_ofNat_small s hs, show (2047#32 : BitVec 32) = BitVec.ofNat 32 2047 from rfl,
      toInt_ofNat_small 2047 (le_refl _)]
    simp; omega
  rw [this]; rfl

/-- A start index in `[0, 2047]` is not wrapped. -/
theorem wrapF_apply_of_small (idx : IVec S16x2048x1 32) (i : S16x2048x1.Idx) (s : ℕ) (hs : s ≤ 2047)
    (hidx : idx i = BitVec.ofNat 32 s) : wrapF idx i = BitVec.ofNat 32 s := by
  unfold wrapF
  rw [select_apply]
  show Scalar.select (IntOp.cmpi .slt (idx i) 0#32) _ (idx i) = _
  rw [hidx, slt_ofNat_zero s hs, select_zero]

instance andi_comm {w : ℕ} : Std.Commutative (IntOp.andi (w := w)) := ⟨fun x y => BitVec.and_comm x y⟩
instance andi_assoc {w : ℕ} : Std.Associative (IntOp.andi (w := w)) := ⟨fun x y z => BitVec.and_assoc x y z⟩

/-- A fold over an index set with one element is one application of the operation. -/
theorem fold_fin_one {α : Type} (op : α → α → α) [Std.Commutative op] [Std.Associative op] (b : α) {n : ℕ} (hn : n = 1)
    (f : Fin n → α) : (Finset.univ : Finset (Fin n)).fold op b f = op (f ⟨0, by omega⟩) b := by
  subst hn
  rw [Finset.univ_unique, Finset.fold_singleton]
  rfl

theorem reduces_S16x2048x1_d2 : S16x2048x1.Reduces [2] S16x2048 := by decide

/-- The range test at `(p, t)` is the conjunction, from one, of the two comparisons at `(p, t, 0)`: the reduced
    axis has one coordinate. -/
theorem inRangeF_apply (idx : IVec S16x2048x1 32) (p : Fin 16) (t : Fin 2048) :
    inRangeF idx (ix2 p t)
      = IntOp.andi
          (IntOp.andi (IntOp.cmpi .sge (wrapF idx (ix3 p t (0 : Fin 1))) 0#32)
            (IntOp.cmpi .sle (wrapF idx (ix3 p t (0 : Fin 1))) 2047#32))
          1#1 := by
  unfold inRangeF
  rw [Host.reduce_eq_fold_single IntOp.andi _ _ reducesTo_S16x2048x1_S16x2048_d2 reduces_S16x2048x1_d2 h_S_ (ix2 p t)]
  rw [fold_fin_one IntOp.andi _ (show S16x2048x1.size (2 : Fin 3) = 1 from rfl)]
  have hl : reduces_S16x2048x1_d2.lift (ix2 p t) (⟨0, Nat.one_pos⟩ : Fin 1) = ix3 p t (0 : Fin 1) := by
    funext a; refine Fin.ext ?_
    match a with
    | ⟨0, _⟩ => rfl
    | ⟨1, _⟩ => rfl
    | ⟨2, _⟩ => rfl
  show IntOp.andi (IntOp.andi (IntOp.cmpi .sge (wrapF idx (reduces_S16x2048x1_d2.lift (ix2 p t) (⟨0, Nat.one_pos⟩ : Fin 1))) 0#32)
      (IntOp.cmpi .sle (wrapF idx (reduces_S16x2048x1_d2.lift (ix2 p t) (⟨0, Nat.one_pos⟩ : Fin 1))) 2047#32)) 1#1 = _
  rw [hl]

set_option maxRecDepth 8192 in
/-- `takeF g idx` at `(p, t, j)`, when the index at `(p, t, 0)` is `s ≤ 2047`: the wrap is not taken, the range
    test holds, and the gather reads row `s`. -/
theorem takeF_apply {F : FTy → Type} [FloatOps F] (g : FVec F S16x2048x512 .f32) (idx : IVec S16x2048x1 32)
    (p : Fin 16) (t : Fin 2048) (j : Fin 512) (s : ℕ) (hs : s ≤ 2047)
    (hidx : idx (ix3 p t (0 : Fin 1)) = BitVec.ofNat 32 s) :
    takeF g idx (ix3 p t j) = g (ix3 p ⟨s, by omega⟩ j) := by
  have hw := wrapF_apply_of_small idx (ix3 p t (0 : Fin 1)) s hs hidx
  have hc : broadcastInDim S16x2048x512 ![0, 1] bcast_S16x2048_S16x2048x512_0_1 (inRangeF idx) (ix3 p t j) = 1#1 := by
    rw [broadcastInDim_apply _ _ _ _ (ix2 p t) (by intro a; match a with | ⟨0, _⟩ => rfl | ⟨1, _⟩ => rfl),
      inRangeF_apply, hw, sge_ofNat_zero s hs, sle_ofNat_2047 s hs]
    rfl
  unfold takeF
  rw [select_apply]
  simp only [hc, select_one, gather_apply]
  have hmin : min (wrapF idx (ix3 p t (0 : Fin 1))).toInt.toNat 2047 = s := by
    rw [hw, toInt_ofNat_small s hs, Int.toNat_natCast]
    omega
  exact congrArg (fun r : Fin 2048 => g (ix3 p r j)) (Fin.ext hmin)

end Cert.ReferenceIdeal.Hand

end
-- ==== Proof.LibFill.lean ====
/-
  A forward fill computed block by block with one carried row.

  Positions `0, 1, 2, …` are cut into blocks of `T`.  Every position `t` has a source index `idx t`, the
  position whose value it takes.  Block `l` produces, at its local position `i` (global `l * T + i`): the
  value `g (idx (l * T + i))` when the source lies in the block itself or later (`l * T ≤ idx …`), and
  otherwise the row carried in from the block before, which is that block's last output.  If a source
  that lies before the block is always the source of the last position before the block, then every position
  gets the value at its source: the carried row is, by induction over the blocks, the value at the
  source of the last position before the block.

  Also: a running maximum of marks `f s ∈ {0, s}` is such a source index.
-/
import Mathlib.Tactic

namespace LibFill

/-- Blocks with a carried last row compute the value at every position's source. -/
theorem fill_blocks {α : Type*} (T : ℕ) (hT : 0 < T) (g : ℕ → α) (idx : ℕ → ℕ) (z : α)
    (out : ℕ → ℕ → α) (carry : ℕ → α)
    (hsrc : ∀ l i, i < T → 0 < l → idx (l * T + i) < l * T → idx (l * T + i) = idx (l * T - 1))
    (hc0 : carry 0 = z) (hcs : ∀ l, carry (l + 1) = out l (T - 1))
    (hout : ∀ l i, i < T → out l i = if l * T ≤ idx (l * T + i) then g (idx (l * T + i)) else carry l) :
    ∀ l i, i < T → out l i = g (idx (l * T + i)) := by
  intro l
  induction l with
  | zero =>
    intro i hi
    rw [hout 0 i hi, if_pos (by simp)]
  | succ l ih =>
    intro i hi
    rw [hout (l + 1) i hi]
    split_ifs with h
    · rfl
    · have hlt : idx ((l + 1) * T + i) < (l + 1) * T := Nat.lt_of_not_le h
      rw [hsrc (l + 1) i hi (Nat.succ_pos l) hlt, hcs l, ih (T - 1) (by omega)]
      congr 2
      have : (l + 1) * T = l * T + T := by ring
      omega

/-- The running maximum over `s ≤ t` of marks. -/
def runMax (f : ℕ → ℕ) : ℕ → ℕ
  | 0 => f 0
  | t + 1 => max (runMax f t) (f (t + 1))

theorem runMax_mono (f : ℕ → ℕ) : Monotone (runMax f) :=
  monotone_nat_of_le_succ fun t => le_max_left _ _

theorem runMax_le (f : ℕ → ℕ) (hf : ∀ s, f s ≤ s) : ∀ t, runMax f t ≤ t
  | 0 => hf 0
  | t + 1 => max_le ((runMax_le f hf t).trans (Nat.le_succ t)) (hf (t + 1))

/-- When every mark is `0` or its own position, a running maximum that stays below `b` at `t ≥ b` is the running
    maximum just before `b`. -/
theorem runMax_eq_before (f : ℕ → ℕ) (hf : ∀ s, f s = 0 ∨ f s = s) (b : ℕ) (hb : 0 < b) :
    ∀ t, b ≤ t → runMax f t < b → runMax f t = runMax f (b - 1) := by
  intro t hbt
  induction t, hbt using Nat.le_induction with
  | base =>
    intro h
    obtain ⟨k, rfl⟩ : ∃ k, b = k + 1 := ⟨b - 1, by omega⟩
    simp only [runMax, Nat.add_sub_cancel] at h ⊢
    rcases hf (k + 1) with h0 | h1
    · rw [h0]; exact max_eq_left (Nat.zero_le _)
    · rw [h1] at h; exact absurd (lt_of_le_of_lt (le_max_right _ _) h) (lt_irrefl _)
  | succ t hbt ih =>
    intro h
    simp only [runMax] at h ⊢
    have h1 : runMax f t < b := lt_of_le_of_lt (le_max_left _ _) h
    have h2 : f (t + 1) < b := lt_of_le_of_lt (le_max_right _ _) h
    rcases hf (t + 1) with h0 | hs
    · rw [h0, max_eq_left (Nat.zero_le _)]; exact ih h1
    · omega

end LibFill
-- ==== Proof.LibCummax.lean ====
/-
  The running maximum of marked column numbers, as a reduce-window computes it.

  Along each of the 16 rows of 2048 columns, column `s` is marked with its own number where a flag is set and with
  zero elsewhere.  A reduce-window by the signed maximum whose window of 2048 columns ends at column `t`, the
  columns before the row's start padded with the least signed integer, reads at column `t` the maximum of the marks
  of columns `0 … t`: the padding never wins, every mark lies in `[0, 2047]`, and on such words the signed maximum
  is the maximum of the numbers.  So the result is the word of `LibFill.runMax` of the marks, which is at most the
  column and which, when it lies before a block of 512 columns, is the running maximum just before the block.
-/
import Mathlib.Tactic
import Idealize.ShloMosaic.Lib.ValueIdx
import Idealize.ShloMosaic.Lib.Pipeline.Value
import proofs.«144746_j73340861547085_2_alg».proof.Proof.LibFill

namespace LibCummax

open Idealize.ShloMosaic Idealize.ShloMosaic.ValueIdx

/-! ## A left fold over `List.finRange` as an iteration -/

/-- `n` steps of `step`, the `k`-th taking the value so far and `k`. -/
def iter {β : Type} (step : β → ℕ → β) (v : β) : ℕ → β
  | 0 => v
  | k + 1 => step (iter step v k) k

theorem foldl_finRange {β : Type} (step : β → ℕ → β) (v : β) (n : ℕ) :
    (List.finRange n).foldl (fun r i => step r i.val) v = iter step v n := by
  induction n with
  | zero => simp [iter]
  | succ n ih =>
    rw [List.finRange_succ_last, List.foldl_append, List.foldl_map]
    simp only [Fin.coe_castSucc, List.foldl_cons, List.foldl_nil, Fin.val_last]
    rw [ih]; rfl

/-! ## The signed maximum on small words -/

/-- The least signed 32-bit integer. -/
abbrev MIN : BitVec 32 := 2147483648#32

theorem toInt_ofNat_small (a : ℕ) (ha : a < 2147483648) : (BitVec.ofNat 32 a).toInt = a := by
  rw [BitVec.toInt_eq_toNat_cond, BitVec.toNat_ofNat]
  have : a % 2 ^ 32 = a := Nat.mod_eq_of_lt (by omega)
  rw [this, if_pos (by omega)]

theorem maxsi_MIN_MIN : IntOp.maxsi MIN MIN = MIN := by decide

theorem maxsi_MIN_ofNat (a : ℕ) (ha : a < 2147483648) : IntOp.maxsi MIN (BitVec.ofNat 32 a) = BitVec.ofNat 32 a := by
  unfold IntOp.maxsi
  rw [if_neg]
  rw [BitVec.slt_eq_decide, toInt_ofNat_small a ha]
  have : (MIN).toInt = -2147483648 := by decide
  rw [this]
  simp only [decide_eq_true_eq]; omega

theorem maxsi_ofNat (a b : ℕ) (ha : a < 2147483648) (hb : b < 2147483648) :
    IntOp.maxsi (BitVec.ofNat 32 a) (BitVec.ofNat 32 b) = BitVec.ofNat 32 (max a b) := by
  unfold IntOp.maxsi
  rw [BitVec.slt_eq_decide, toInt_ofNat_small a ha, toInt_ofNat_small b hb]
  by_cases h : b < a
  · rw [if_pos (by simpa using h), max_eq_left (le_of_lt h)]
  · rw [if_neg (by simpa using h), max_eq_right (not_lt.mp h)]

/-! ## The window's fold at column `t` -/

/-- The fold the window at column `t` performs, over marks `g`: position `n` of the window is column `t + n - 2047`,
    padding where that is before the row's start. -/
def wstep (g : ℕ → ℕ) (t : ℕ) (r : BitVec 32) (n : ℕ) : BitVec 32 :=
  IntOp.maxsi r (if 2047 ≤ t + n then BitVec.ofNat 32 (g (t + n - 2047)) else MIN)

theorem iter_wstep (g : ℕ → ℕ) (hg : ∀ s, g s ≤ s) (t : ℕ) (ht : t ≤ 2047) :
    ∀ k, k ≤ 2048 → iter (wstep g t) MIN k
      = if k ≤ 2047 - t then MIN else BitVec.ofNat 32 (LibFill.runMax g (k - (2047 - t) - 1)) := by
  intro k
  induction k with
  | zero => intro _; rw [if_pos (Nat.zero_le _)]; rfl
  | succ k ih =>
    intro hk
    show wstep g t (iter (wstep g t) MIN k) k = _
    rw [ih (by omega)]
    unfold wstep
    by_cases h1 : k < 2047 - t
    · rw [if_pos (by omega), if_neg (by omega), if_pos (by omega), maxsi_MIN_MIN]
    · by_cases h2 : k = 2047 - t
      · rw [if_pos (by omega), if_pos (by omega), if_neg (by omega)]
        have e1 : t + k - 2047 = 0 := by omega
        have e2 : k + 1 - (2047 - t) - 1 = 0 := by omega
        rw [e1, e2, maxsi_MIN_ofNat _ (by have := hg 0; omega)]
        rfl
      · rw [if_neg (by omega), if_pos (by omega), if_neg (by omega)]
        obtain ⟨m, hm⟩ : ∃ m, k - (2047 - t) - 1 = m := ⟨_, rfl⟩
        have e1 : t + k - 2047 = m + 1 := by omega
        have e2 : k + 1 - (2047 - t) - 1 = m + 1 := by omega
        rw [hm, e1, e2]
        have b1 := LibFill.runMax_le g hg m
        have b2 := hg (m + 1)
        rw [maxsi_ofNat _ _ (by omega) (by omega)]
        rfl

/-! ## The marks and their running maximum -/

/-- The mark of column `s` of row `p`: its own number where the flag is set, else zero (zero past the row's end). -/
def mark (flags : IVec (⟨2, ![16, 2048]⟩ : Shape) 1) (p : Fin 16) (s : ℕ) : ℕ :=
  if h : s < 2048 then (if flags (ix2 p ⟨s, h⟩) = 1#1 then s else 0) else 0

/-- The running maximum of the marks of columns `0 … t` of row `p`. -/
def src (flags : IVec (⟨2, ![16, 2048]⟩ : Shape) 1) (p : Fin 16) (t : ℕ) : ℕ := LibFill.runMax (mark flags p) t

theorem mark_cases (flags : IVec (⟨2, ![16, 2048]⟩ : Shape) 1) (p : Fin 16) (s : ℕ) : mark flags p s = 0 ∨ mark flags p s = s := by
  unfold mark
  split_ifs
  · exact Or.inr rfl
  · exact Or.inl rfl
  · exact Or.inl rfl

theorem mark_le (flags : IVec (⟨2, ![16, 2048]⟩ : Shape) 1) (p : Fin 16) (s : ℕ) : mark flags p s ≤ s := by
  rcases mark_cases flags p s with h | h <;> omega

/-- The running maximum is never after its column. -/
theorem src_le (flags : IVec (⟨2, ![16, 2048]⟩ : Shape) 1) (p : Fin 16) (t : ℕ) : src flags p t ≤ t :=
  LibFill.runMax_le _ (mark_le flags p) t

/-- A running maximum that lies before a block of 512 columns is the running maximum just before the block. -/
theorem src_block (flags : IVec (⟨2, ![16, 2048]⟩ : Shape) 1) (p : Fin 16) (l i : ℕ) (hi : i < 512) (hl : 0 < l)
    (h : src flags p (l * 512 + i) < l * 512) : src flags p (l * 512 + i) = src flags p (l * 512 - 1) :=
  LibFill.runMax_eq_before _ (mark_cases flags p) (l * 512) (by omega) (l * 512 + i) (by omega) h

/-! ## The reduce-window -/

/-- Position `n` of the 1 × 2048 window: row offset 0, column offset `n`. -/
theorem win_pos (n : Fin (⟨2, ![1, 2048]⟩ : Shape).numel) :
    (((⟨2, ![1, 2048]⟩ : Shape).rowMajor.symm n) 0).val = 0 ∧ (((⟨2, ![1, 2048]⟩ : Shape).rowMajor.symm n) 1).val = n.val := by
  have h : n.val = (((⟨2, ![1, 2048]⟩ : Shape).rowMajor.symm n) 0).val * 2048 + (((⟨2, ![1, 2048]⟩ : Shape).rowMajor.symm n) 1).val := by
    have := Shape.rowMajor_val_two ((⟨2, ![1, 2048]⟩ : Shape).rowMajor.symm n)
    rw [Equiv.apply_symm_apply] at this
    exact this
  have h0 : (((⟨2, ![1, 2048]⟩ : Shape).rowMajor.symm n) 0).val < 1 := (((⟨2, ![1, 2048]⟩ : Shape).rowMajor.symm n) 0).isLt
  omega

/-- The marked column numbers, read at a column. -/
theorem marks_apply (flags : IVec (⟨2, ![16, 2048]⟩ : Shape) 1)
    (h1 : (⟨2, ![1, 2048]⟩ : Shape).BroadcastsInDim ⟨2, ![16, 2048]⟩ ![0, 1])
    (h2 : (⟨1, ![2048]⟩ : Shape).BroadcastsInDim ⟨2, ![1, 2048]⟩ ![1])
    (h3 : (⟨0, ![]⟩ : Shape).BroadcastsInDim ⟨2, ![16, 2048]⟩ ![])
    (p : Fin 16) (s : Fin 2048) :
    select flags
        (broadcastInDim ⟨2, ![16, 2048]⟩ ![0, 1] h1 (broadcastInDim ⟨2, ![1, 2048]⟩ ![1] h2 (iotaInDim ⟨1, ![2048]⟩ 32 0)))
        (broadcastInDim ⟨2, ![16, 2048]⟩ ![] h3 (constantI ⟨0, ![]⟩ 32 0#32)) (ix2 p s)
      = BitVec.ofNat 32 (mark flags p s.val) := by
  show Scalar.select (flags (ix2 p s)) (BitVec.ofNat 32 s.val) 0#32 = _
  unfold mark Scalar.select
  rw [dif_pos s.isLt]
  simp only [Fin.eta]
  show (if flags (ix2 p s) = 1#1 then BitVec.ofNat 32 s.val else 0#32) = _
  by_cases hf : flags (ix2 p s) = 1#1
  · rw [if_pos hf, if_pos hf]
  · rw [if_neg hf, if_neg hf]

set_option maxHeartbeats 400000 in
/-- THE RUNNING MAXIMUM. The reduce-window by the signed maximum over a window of 2048 columns ending at each column,
    padded before the row's start with the least signed integer, of the marked column numbers, reads at row `p`,
    column `t` the word of the running maximum of the marks. -/
theorem cummax_eq (flags : IVec (⟨2, ![16, 2048]⟩ : Shape) 1)
    (h1 : (⟨2, ![1, 2048]⟩ : Shape).BroadcastsInDim ⟨2, ![16, 2048]⟩ ![0, 1])
    (h2 : (⟨1, ![2048]⟩ : Shape).BroadcastsInDim ⟨2, ![1, 2048]⟩ ![1])
    (h3 : (⟨0, ![]⟩ : Shape).BroadcastsInDim ⟨2, ![16, 2048]⟩ ![])
    (h4 : (⟨0, ![]⟩ : Shape).BroadcastsInDim ⟨0, ![]⟩ ![])
    (h5 : (⟨2, ![16, 2048]⟩ : Shape).ReduceWindows ![1, 2048] ![1, 1] ![0, 2047] ![0, 0] ⟨2, ![16, 2048]⟩)
    (h6 : 0 < (⟨0, ![]⟩ : Shape).numel) (p : Fin 16) (t : Fin 2048) :
    Host.reduceWindow IntOp.maxsi ![1, 2048] ![1, 1] ![0, 2047] ![0, 0]
        (select flags
          (broadcastInDim ⟨2, ![16, 2048]⟩ ![0, 1] h1 (broadcastInDim ⟨2, ![1, 2048]⟩ ![1] h2 (iotaInDim ⟨1, ![2048]⟩ 32 0)))
          (broadcastInDim ⟨2, ![16, 2048]⟩ ![] h3 (constantI ⟨0, ![]⟩ 32 0#32)))
        (broadcastInDim ⟨0, ![]⟩ ![] h4 (constantI ⟨0, ![]⟩ 32 2147483648#32)) h5 h6 (ix2 p t)
      = BitVec.ofNat 32 (src flags p t.val) := by
  have ht := t.isLt
  have hp := p.isLt
  unfold Host.reduceWindow
  dsimp only
  rw [show broadcastInDim ⟨0, ![]⟩ ![] h4 (constantI ⟨0, ![]⟩ 32 2147483648#32) (Shape.Idx.first h6) = MIN from rfl]
  trans (List.foldl (fun r (n : Fin (⟨2, ![1, 2048]⟩ : Shape).numel) => wstep (mark flags p) t.val r n.val) MIN (List.finRange _))
  · congr 1
    funext r n
    unfold wstep
    congr 1
    obtain ⟨w0, w1⟩ := win_pos n
    have hn : n.val < 2048 := n.isLt
    split
    · next hin =>
      have hw1 : 2047 ≤ t.val * 1 + (((⟨2, ![1, 2048]⟩ : Shape).rowMajor.symm n) 1).val := (hin 1).1
      have h : 2047 ≤ t.val + n.val := by omega
      rw [if_pos h]
      have hidx : (fun a : Fin 2 => (⟨(ix2 p t (Fin.cast (h5.1.symm ▸ rfl) a)).val * (![1, 1] : Fin 2 → ℕ) a + (((⟨2, ![1, 2048]⟩ : Shape).rowMajor.symm n) a).val - (![0, 2047] : Fin 2 → ℕ) a, (hin a).2⟩ : (⟨2, ![16, 2048]⟩ : Shape).Coord a))
          = ix2 p ⟨t.val + n.val - 2047, by omega⟩ := by
        funext a
        match a with
        | ⟨0, _⟩ => exact Fin.ext (by show p.val * 1 + (((⟨2, ![1, 2048]⟩ : Shape).rowMajor.symm n) 0).val - 0 = p.val; omega)
        | ⟨1, _⟩ => exact Fin.ext (by show t.val * 1 + (((⟨2, ![1, 2048]⟩ : Shape).rowMajor.symm n) 1).val - 2047 = t.val + n.val - 2047; omega)
      exact (congrArg _ hidx).trans (marks_apply flags h1 h2 h3 p ⟨t.val + n.val - 2047, by omega⟩)
    · next hin =>
      have h : ¬ 2047 ≤ t.val + n.val := fun h => hin (fun a => by
        match a with
        | ⟨0, _⟩ => exact (show 0 ≤ p.val * 1 + (((⟨2, ![1, 2048]⟩ : Shape).rowMajor.symm n) 0).val ∧ p.val * 1 + (((⟨2, ![1, 2048]⟩ : Shape).rowMajor.symm n) 0).val - 0 < 16 by omega)
        | ⟨1, _⟩ => exact (show 2047 ≤ t.val * 1 + (((⟨2, ![1, 2048]⟩ : Shape).rowMajor.symm n) 1).val ∧ t.val * 1 + (((⟨2, ![1, 2048]⟩ : Shape).rowMajor.symm n) 1).val - 2047 < 2048 by omega))
      rw [if_neg h]
  · rw [foldl_finRange, show (⟨2, ![1, 2048]⟩ : Shape).numel = 2048 from rfl,
      iter_wstep _ (mark_le flags p) t.val (by omega) 2048 le_rfl, if_neg (by omega)]
    unfold src
    congr 2
    omega

end LibCummax
-- ==== Proof.Ref.Value.lean ====
/-
  The reference's result at the ideal values, read at an index.

  * `run_value`: every weakly fair execution of @main terminates with the result buffer at `refOut` of the
    arguments' launch contents and the five arguments unchanged.
  * `noisedF_apply`: the offset is added along the last axis: at `(p, l, j)` the value is `g (p, l, j)` plus the
    offset at `j`.
  * `idxF_apply`: the running maximum of the marked column numbers at `(p, t)` is the word of `LibCummax.src`.
  * `refOut_apply`: at `(p, t, j)` the result is the contraction plus bias at row `src p t` — the last flagged
    column at or before `t` — plus the offset at `j`: the index is in `[0, t]`, so the row selection reads that
    row, and the offset does not depend on the row.
-/
import proofs.«144746_j73340861547085_2_alg».proof.Proof.Ref.Out
import proofs.«144746_j73340861547085_2_alg».proof.Proof.Ref.Read
import proofs.«144746_j73340861547085_2_alg».proof.Proof.LibCummax

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

/-- On every device, at the ideal values, from any memory with zero counters: every weakly fair execution of @main
    terminates with the result at `refOut` of the arguments' launch contents and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32)
          = refOut (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v32).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

/-- `noisedF g nb` at `(p, l, j)`: `g` there plus the offset at `j` (the offset's two broadcasts read at an index). -/
theorem noisedF_apply (g : FVec Ideal S16x2048x512 .f32) (nb : FVec Ideal S512 .f32) (p : Fin 16) (l : Fin 2048)
    (j : Fin 512) : noisedF g nb (ix3 p l j) = g (ix3 p l j) + noiseF g nb (ix1 j) := by
  unfold noisedF
  rw [addf_apply]
  congr 1
  rw [broadcastInDim_apply _ _ _ _ (ix3 (0 : Fin 1) (0 : Fin 1) j)
      (by intro a; match a with | ⟨0, _⟩ => rfl | ⟨1, _⟩ => rfl | ⟨2, _⟩ => rfl),
    broadcastInDim_apply _ _ _ _ (ix1 j) (by intro a; match a with | ⟨0, _⟩ => rfl)]

/-- The running maximum of the marked column numbers at `(p, t)`: the word of the last flagged column at or before
    `t`. -/
theorem idxF_apply (mask : IVec S16x2048 1) (p : Fin 16) (t : Fin 2048) :
    idxF mask (ix2 p t) = BitVec.ofNat 32 (LibCummax.src (flagsF mask) p t.val) :=
  LibCummax.cummax_eq (flagsF mask) _ _ _ _ _ _ p t

/-- THE RESULT AT AN INDEX: the contraction plus bias at the row of the last flagged column at or before `t`, plus
    the offset at `j`. -/
theorem refOut_apply (x : FVec Ideal S16x2048x1024 .f32) (mask : IVec S16x2048 1) (W : FVec Ideal S512x1024 .f32)
    (b : FVec Ideal S512 .f32) (nb : FVec Ideal S512 .f32) (p : Fin 16) (t : Fin 2048) (j : Fin 512) :
    refOut x mask W b nb (ix3 p t j)
      = stage_g x W b (ix3 p ⟨LibCummax.src (flagsF mask) p t.val,
            by have := LibCummax.src_le (flagsF mask) p t.val; omega⟩ j)
          + noiseF (stage_g x W b) nb (ix1 j) := by
  have hle : LibCummax.src (flagsF mask) p t.val ≤ 2047 := by
    have := LibCummax.src_le (flagsF mask) p t.val; omega
  have hidx : broadcastInDim S16x2048x1 ![0, 1] bcast_S16x2048_S16x2048x1_0_1 (idxF mask) (ix3 p t (0 : Fin 1))
      = BitVec.ofNat 32 (LibCummax.src (flagsF mask) p t.val) := by
    rw [broadcastInDim_apply _ _ _ _ (ix2 p t) (by intro a; match a with | ⟨0, _⟩ => rfl | ⟨1, _⟩ => rfl),
      idxF_apply]
  unfold refOut
  rw [takeF_apply _ _ p t j _ hle hidx, noisedF_apply]

end Cert.ReferenceIdeal.Hand

end
-- ==== Proof.Finite.lean ====
/-
  Reading the precondition back: when the printed predicate `finite_inputs` is true, every entry of each of the
  four float inputs is a real number (neither infinity).  The predicate is a conjunction of four tests "every
  entry's absolute value is below +∞"; a conjunction of bits that is one has every conjunct one, a reduction
  by `and` that is one has every reduced bit one, and an extended real whose absolute value is strictly below
  the top is a real.
-/
import proofs.«144746_j73340861547085_2_alg».proof.Defs
import Idealize.ShloMosaic.Lib.ReduceAll
import Idealize.ShloMosaic.Lib.ValueIdx

noncomputable section

namespace Cert.Pre_finite_inputs.Hand

open Idealize.ShloMosaic Cert.Pre_finite_inputs Cert.Pre_finite_inputs.Facts

instance : Subsingleton S_.Idx := ⟨fun a b => funext fun d => d.elim0⟩

/-- An entry whose absolute value compares below the pattern of +∞ is a real number. -/
theorem real_of_abs_lt {S : Shape} (x : FVec Ideal S .f32) (hb : S_.BroadcastsInDim S (![] : Fin 0 → Fin S.rank)) (i : S.Idx)
    (h : cmpf CmpFPredicate.olt (Host.absf x) (broadcastInDim S ![] hb (constant S_ .f32 0x7F800000#32)) i = 1#1) :
    ∃ r : ℝ, x i = (r : EReal) := by
  simp only [cmpf, Host.absf, broadcastInDim, constant] at h
  revert h
  generalize x i = y
  intro h
  induction y using EReal.rec with
  | bot => exfalso; revert h; show ¬ Ideal.cmp CmpFPredicate.olt (max (⊥ : EReal) (-⊥)) ⊤ = 1#1; simp [Ideal.cmp]
  | coe r => exact ⟨r, rfl⟩
  | top => exfalso; revert h; show ¬ Ideal.cmp CmpFPredicate.olt (max (⊤ : EReal) (-⊤)) ⊤ = 1#1; simp [Ideal.cmp]

variable [Facts]

/-- Under the precondition every entry of the four float inputs is a real number. -/
theorem finite_of_pre (x : FVec Ideal S16x2048x1024 .f32) (msk : IVec S16x2048 1) (W : FVec Ideal S512x1024 .f32)
    (b nb : FVec Ideal S512 .f32) (h : fn (F := Ideal) x msk W b nb = fun _ => 1#1) :
    (∀ i, ∃ r : ℝ, x i = (r : EReal)) ∧ (∀ i, ∃ r : ℝ, W i = (r : EReal)) ∧ (∀ i, ∃ r : ℝ, b i = (r : EReal))
      ∧ (∀ i, ∃ r : ℝ, nb i = (r : EReal)) := by
  have h1 := congrFun h ValueIdx.ix0
  dsimp only [fn, fn_part1] at h1
  obtain ⟨h123, h4⟩ := IntOp.andi_eq_one.1 h1
  obtain ⟨h12, h3⟩ := IntOp.andi_eq_one.1 h123
  obtain ⟨hx, hW⟩ := IntOp.andi_eq_one.1 h12
  exact ⟨fun i => real_of_abs_lt x _ i (Host.reduce_andi_all _ _ _ _ _ hx i),
    fun i => real_of_abs_lt W _ i (Host.reduce_andi_all _ _ _ _ _ hW i),
    fun i => real_of_abs_lt b _ i (Host.reduce_andi_all _ _ _ _ _ h3 i),
    fun i => real_of_abs_lt nb _ i (Host.reduce_andi_all _ _ _ _ _ h4 i)⟩

end Cert.Pre_finite_inputs.Hand

end
-- ==== Proof.KI.Host.lean ====
/-
  What the host operations between the two kernel regions compute, as named functions of the buffers they read.

  The noise row: from the two per-batch sums the first region leaves (of the entries of g, and of their squares),
  the mean `μ = (∑ sums) / n` with `n = 16·2048·512 = 2^24`, the variance as mean of squares minus squared
  mean, clamped at zero from below, and then `μ/10 + (√var / 5) · nb − ½ · (μ/10)`, entry by entry.
-/
import proofs.«144746_j73340861547085_2_alg».proof.Proof.KI.Segs
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- The sum of the sixteen per-batch sums, divided by the number of entries `2^24`. -/
def meanK (s : FVec F S16x1x1 .f32) : FVec F S_ .f32 :=
  Host.divf (Host.reduceAdd s (constant S_ .f32 0x00000000#32) reducesTo_S16x1x1_S_d0_1_2 h_S_)
    (constant S_ .f32 0x4B800000#32)

/-- Mean of squares minus squared mean, clamped at zero from below. -/
def varK (s1 s2 : FVec F S16x1x1 .f32) : FVec F S_ .f32 :=
  maximumf (subf (meanK s2) (mulf (meanK s1) (meanK s1))) (constant S_ .f32 0x00000000#32)

/-- `μ/10 + (√var / 5) · nb − ½ · (μ/10)`, entry by entry. -/
def noiseVec (mean var : FVec F S_ .f32) (nb : FVec F S512 .f32) : FVec F S512 .f32 :=
  subf
    (addf (broadcastInDim S512 ![] bcast_S_S512 (Host.divf mean (constant S_ .f32 0x41200000#32)))
      (mulf (broadcastInDim S512 ![] bcast_S_S512 (Host.divf (Host.sqrt var) (constant S_ .f32 0x40A00000#32))) nb))
    (broadcastInDim S512 ![] bcast_S_S512
      (mulf (constant S_ .f32 0x3F000000#32) (Host.divf mean (constant S_ .f32 0x41200000#32))))

/-- The noise row as the second region is handed it (one row of 512). -/
def noiseK (s1 s2 : FVec F S16x1x1 .f32) (nb : FVec F S512 .f32) : FVec F S1x512 .f32 :=
  shapeCast S1x512 (noiseVec (meanK s1) (varK s1 s2) nb) shapeCasts_S512_S1x512

variable (m : (ℓ : Loc nD τ sig) → Buf (Elt F) ℓ) (h0 : Half0 F)

set_option maxHeartbeats 2000000 in
/-- After the first stretch between the regions, the noise row's buffer holds `noiseK` of the two sums' buffers and
    the noise base. -/
theorem W3_noise (c : Dev nD) :
    W3 m h0 c (Proc.devRef .tc main_v20)
      = noiseK (W2 m h0 c (Proc.devRef .tc main_v2_1)) (W2 m h0 c (Proc.devRef .tc main_v2_2))
          (W2 m h0 c (Proc.devRef .tc main_arg4)) := by
  dsimp only [W3, hostOps1]
  generalize W2 m h0 c = Wv
  after_results_simp
  rfl

end Cert.KernelIdeal.Hand

end
-- ==== Proof.KI.R0Pieces.lean ====
/- Region 0: each list of stores a case of the body leaves, read back as the payload of the point's input blocks and
   of the accumulators' earlier contents — for every float instance. -/
import proofs.«144746_j73340861547085_2_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each piece is

Each buffer a case of the body stores into ends holding the payload of its last (whole-block) store; the loads that
payload reads are of whole buffers — an input's block, or an accumulator at what the case itself stored before
(the zero it was reset to at an even point) or at what the point before left (at an odd point). -/

theorem hz2 : (![0, 0] : Fin 2 → Nat) = fun _ => 0 := funext fun a => by fin_cases a <;> rfl
theorem hz3 : (![0, 0, 0] : Fin 3 → Nat) = fun _ => 0 := funext fun a => by fin_cases a <;> rfl

/-- At an even point the product's block holds the product (plus bias) of the point's input blocks. -/
theorem out0_A_3_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) :
    out0_A_3 c i arg2 harg2 arg3 harg3 arg4 harg4 arg5 harg5 arg6 harg6 arg7 harg7 arg8 harg8 arg9 harg9 hc0 hc1 x0 x1 x2 = k0_pay7 x0 x1 x2 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an even point the running sum holds the block's sum added to the zero it was reset to. -/
theorem sout0_A_0_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) :
    sout0_A_0 c i arg2 harg2 arg3 harg3 arg4 harg4 arg5 harg5 arg6 harg6 arg7 harg7 arg8 harg8 arg9 harg9 hc0 hc1 x0 x1 x2 = k0_pay8 x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an even point the running sum of squares holds the block's sum of squares added to the zero it was reset to. -/
theorem sout0_A_1_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S1x1024x1024 .f32) (x1 : Vec F S512x1024 .bf16) (x2 : Vec F S1x512 .f32) :
    sout0_A_1 c i arg2 harg2 arg3 harg3 arg4 harg4 arg5 harg5 arg6 harg6 arg7 harg7 arg8 harg8 arg9 harg9 hc0 hc1 x0 x1 x2 = k0_pay1 (k0_pay9 x0 x1 x2 (k0_pay5 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an odd point the product's block holds the product (plus bias) of the point's input blocks. -/
theorem out0_B_3_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    out0_B_3 c i arg2 harg2 arg3 harg3 arg4 harg4 arg5 harg5 arg6 harg6 arg7 harg7 arg8 harg8 arg9 harg9 hc0 hc1 x0 x1 x2 xs0 xs1 = k0_pay7 x0 x1 x2 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an odd point the running sum holds the block's sum added to what the point before left. -/
theorem sout0_B_0_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    sout0_B_0 c i arg2 harg2 arg3 harg3 arg4 harg4 arg5 harg5 arg6 harg6 arg7 harg7 arg8 harg8 arg9 harg9 hc0 hc1 x0 x1 x2 xs0 xs1 = k0_pay8 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an odd point the running sum of squares holds the block's sum of squares added to what the point before left. -/
theorem sout0_B_1_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    sout0_B_1 c i arg2 harg2 arg3 harg3 arg4 harg4 arg5 harg5 arg6 harg6 arg7 harg7 arg8 harg8 arg9 harg9 hc0 hc1 x0 x1 x2 xs0 xs1 = k0_pay1 (k0_pay9 x0 x1 x2 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an odd point the sum's window holds the running sum as the point has just updated it. -/
theorem out0_B_4_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    out0_B_4 c i arg2 harg2 arg3 harg3 arg4 harg4 arg5 harg5 arg6 harg6 arg7 harg7 arg8 harg8 arg9 harg9 hc0 hc1 x0 x1 x2 xs0 xs1 = k0_pay2 (k0_pay8 x0 x1 x2 xs0) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-- At an odd point the sum of squares' window holds the running sum of squares as the point has just updated it. -/
theorem out0_B_5_eq (c : Dev nD) (i : grid0.Coords) (arg2 : Memref sig .tc .vmem S1x1024x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S1x1024x1024 .f32) (x1 : Vec F S512x1024 .bf16) (x2 : Vec F S1x512 .f32) (xs0 : Vec F S1x1 .f32) (xs1 : Vec F S1x1 .f32) :
    out0_B_5 c i arg2 harg2 arg3 harg3 arg4 harg4 arg5 harg5 arg6 harg6 arg7 harg7 arg8 harg8 arg9 harg9 hc0 hc1 x0 x1 x2 xs0 xs1 = k0_pay3 (k0_pay1 (k0_pay9 x0 x1 x2 xs1)) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  simp only [View.canon_cons_unit_zero (S := S1x1) hz2, View.canon_cons_unit_zero (S := S1x1x1) hz3, View.canon_cons_unit_zero (S := S1x1024x512) hz3,
    View.readCov_unit_zero (S := S1x1) _ hz2, View.readAt_eq_ld, harg2.read_unread, harg3.read_unread, harg4.read_unread, harg8.read_unread, harg9.read_unread,
    View.ld_unit_zero (S := S1x1024x1024) hz3, View.ld_unit_zero (S := S512x1024) hz2, View.ld_unit_zero (S := S1x512) hz2, View.ld_unit_zero (S := S1x1) hz2]

/-! ## Point by point -/

section Region0

variable (V : (c : Dev nD) → (b : Ref sig .tc) → Buf (Elt F) ((c : Thread nD τ).loc b))

/-- After every point the product's staging buffer holds the product (plus bias) of the point's input blocks. -/
theorem out3_at (c : Dev nD) (t : Fin cfg0.N) :
    (outsAt0 V c t.val t.isLt).1 = k0_pay7 (iblk0 V c 0 t) (iblk0 V c 1 t) (iblk0 V c 2 t) := by
  by_cases h0 : t.val % 2 = 0
  · have h1 : ¬t.val % 2 = 1 := by omega
    rw [outsAt0_A V c t h0 h1]
    dsimp only
    rw [out0_A_3_eq]
  · have h1 : t.val % 2 = 1 := by omega
    rw [outsAt0_B V c t h0 h1]
    dsimp only
    rw [out0_B_3_eq]

/-- After an even point the running sum is the block's sum added to zero. -/
theorem s0_even (c : Dev nD) (t : Fin cfg0.N) (h0 : t.val % 2 = 0) :
    (outsAt0 V c t.val t.isLt).2.2.2.1 = k0_pay8 (iblk0 V c 0 t) (iblk0 V c 1 t) (iblk0 V c 2 t) (k0_pay4 (F := F)) := by
  have h1 : ¬t.val % 2 = 1 := by omega
  exact (congrArg (fun p => p.2.2.2.1) (outsAt0_A V c t h0 h1)).trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t))

/-- After an even point the running sum of squares is the block's sum of squares added to zero. -/
theorem s1_even (c : Dev nD) (t : Fin cfg0.N) (h0 : t.val % 2 = 0) :
    (outsAt0 V c t.val t.isLt).2.2.2.2 = k0_pay1 (k0_pay9 (iblk0 V c 0 t) (iblk0 V c 1 t) (iblk0 V c 2 t) (k0_pay5 (F := F))) := by
  have h1 : ¬t.val % 2 = 1 := by omega
  exact (congrArg (fun p => p.2.2.2.2) (outsAt0_A V c t h0 h1)).trans (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t))

/-- After an odd point the running sum is the block's sum added to what the point before left. -/
theorem s0_odd (c : Dev nD) (t : Fin cfg0.N) (h1 : t.val % 2 = 1) :
    (outsAt0 V c t.val t.isLt).2.2.2.1 = k0_pay8 (iblk0 V c 0 t) (iblk0 V c 1 t) (iblk0 V c 2 t) (outsAt0 V c (t.val - 1) (Nat.lt_of_le_of_lt (Nat.sub_le _ _) t.isLt)).2.2.2.1 := by
  have h0 : ¬t.val % 2 = 0 := by omega
  exact (congrArg (fun p => p.2.2.2.1) (outsAt0_B V c t h0 h1)).trans (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)

/-- After an odd point the running sum of squares is the block's sum of squares added to what the point before left. -/
theorem s1_odd (c : Dev nD) (t : Fin cfg0.N) (h1 : t.val % 2 = 1) :
    (outsAt0 V c t.val t.isLt).2.2.2.2 = k0_pay1 (k0_pay9 (iblk0 V c 0 t) (iblk0 V c 1 t) (iblk0 V c 2 t) (outsAt0 V c (t.val - 1) (Nat.lt_of_le_of_lt (Nat.sub_le _ _) t.isLt)).2.2.2.2) := by
  have h0 : ¬t.val % 2 = 0 := by omega
  exact (congrArg (fun p => p.2.2.2.2) (outsAt0_B V c t h0 h1)).trans (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)

/-- After an odd point the sum's window holds the running sum as just updated. -/
theorem out4_odd (c : Dev nD) (t : Fin cfg0.N) (h1 : t.val % 2 = 1) :
    (outsAt0 V c t.val t.isLt).2.1 = k0_pay2 (k0_pay8 (iblk0 V c 0 t) (iblk0 V c 1 t) (iblk0 V c 2 t) (outsAt0 V c (t.val - 1) (Nat.lt_of_le_of_lt (Nat.sub_le _ _) t.isLt)).2.2.2.1) := by
  have h0 : ¬t.val % 2 = 0 := by omega
  exact (congrArg (fun p => p.2.1) (outsAt0_B V c t h0 h1)).trans (out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)

/-- After an odd point the sum of squares' window holds the running sum of squares as just updated. -/
theorem out5_odd (c : Dev nD) (t : Fin cfg0.N) (h1 : t.val % 2 = 1) :
    (outsAt0 V c t.val t.isLt).2.2.1 = k0_pay3 (k0_pay1 (k0_pay9 (iblk0 V c 0 t) (iblk0 V c 1 t) (iblk0 V c 2 t) (outsAt0 V c (t.val - 1) (Nat.lt_of_le_of_lt (Nat.sub_le _ _) t.isLt)).2.2.2.2)) := by
  have h0 : ¬t.val % 2 = 0 := by omega
  exact (congrArg (fun p => p.2.2.1) (outsAt0_B V c t h0 h1)).trans (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)

end Region0

end Cert.KernelIdeal.Hand

end
-- ==== Proof.KI.R0Value.lean ====
/- Region 0 at the ideal values: the array the product's blocks are written back to, as one function of the three
   input arrays, index by index. -/
import proofs.«144746_j73340861547085_2_alg».proof.Proof.KI.R0Pieces
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! # Region 0 at the ideal values: the product plus bias, index by index

At the ideal values the body's payload is a finite sum of products per element, with no rounding and no order; so the
array the region writes the product's blocks back to ends holding ONE function of the three input arrays. -/

/-- The product plus bias, index by index: `(p, l, j) ↦ (∑ₖ X[p, l, k] · W[j, k]) + b[0, j]`. -/
def gK (X : S16x2048x1024.Idx → EReal) (Wb : S512x1024.Idx → EReal) (B2 : S1x512.Idx → EReal) : S16x2048x512.Idx → EReal :=
  fun i => (∑ k : Fin 1024, X (ix3 (i 0) (i 1) k) * Wb (ix2 (i 2) k)) + B2 (ix2 (0 : Fin 1) (i 2))

theorem gK_apply (X : S16x2048x1024.Idx → EReal) (Wb : S512x1024.Idx → EReal) (B2 : S1x512.Idx → EReal) (p : Fin 16) (l : Fin 2048) (j : Fin 512) :
    gK X Wb B2 (ix3 p l j) = (∑ k : Fin 1024, X (ix3 p l k) * Wb (ix2 j k)) + B2 (ix2 (0 : Fin 1) j) := rfl

/-! ## The payload at an index -/

set_option maxHeartbeats 400000 in
/-- The product-plus-bias payload at row `r`, column `cc`: the row of the x-block against the row `cc` of the weights
    (the contraction runs over both operands' last axis; the format change of the x-block is the identity at the ideal
    values), plus the bias at `cc`. -/
theorem pay6_apply (v3 : Vec Ideal S1x1024x1024 .f32) (v6 : Vec Ideal S512x1024 .bf16) (v9 : Vec Ideal S1x512 .f32) (r : Fin 1024) (cc : Fin 512) :
    k0_pay6 v3 v6 v9 (ix2 r cc) = (∑ k : Fin 1024, v3 (ix3 (0 : Fin 1) r k) * v6 (ix2 cc k)) + v9 (ix2 (0 : Fin 1) cc) := by
  unfold k0_pay6
  rw [addf_apply]
  simp only [matmul]
  rw [Ideal.matmul_constant_zero_apply]
  rw [broadcastTo_1b_ab_apply, shapeCast_self]
  rw [shapeCast_self]
  rw [← Equiv.sum_comp (contrEquiv1 dot_S1024x1024_S512x1024_S1024x512_1_1_0_0_n_n 1024 rfl rfl).symm]
  congr 1
  refine Finset.sum_congr rfl fun k _ => ?_
  have ck := contrEquiv1_symm_val dot_S1024x1024_S512x1024_S1024x512_1_1_0_0_n_n 1024 rfl rfl k
  have l2 : dot_S1024x1024_S512x1024_S1024x512_1_1_0_0_n_n.lhsIdx (ix2 r cc) ((contrEquiv1 _ 1024 rfl rfl).symm k) = ix2 r k := by
    funext ax; apply Fin.ext
    match ax with
    | ⟨0, _⟩ => simp [DotDims.lhsIdx, dot_S1024x1024_S512x1024_S1024x512_1_1_0_0_n_n]; rfl
    | ⟨1, _⟩ => exact (DotDims.lhsIdx_val_of_single _ rfl _ _).trans ck
  have r2 : dot_S1024x1024_S512x1024_S1024x512_1_1_0_0_n_n.rhsIdx (ix2 r cc) ((contrEquiv1 _ 1024 rfl rfl).symm k) = ix2 cc k := by
    funext ax; apply Fin.ext
    match ax with
    | ⟨0, _⟩ => simp [DotDims.rhsIdx, dot_S1024x1024_S512x1024_S1024x512_1_1_0_0_n_n]; rfl
    | ⟨1, _⟩ => exact (DotDims.rhsIdx_val_of_single _ rfl _ _).trans ck
  rw [l2, r2, truncf_apply, shapeCast_1ab_ab_apply]

/-- The stored block is the same with a leading unit axis. -/
theorem pay7_apply (v3 : Vec Ideal S1x1024x1024 .f32) (v6 : Vec Ideal S512x1024 .bf16) (v9 : Vec Ideal S1x512 .f32) (u : Fin 1) (r : Fin 1024) (cc : Fin 512) :
    k0_pay7 v3 v6 v9 (ix3 u r cc) = (∑ k : Fin 1024, v3 (ix3 (0 : Fin 1) r k) * v6 (ix2 cc k)) + v9 (ix2 (0 : Fin 1) cc) := by
  unfold k0_pay7
  rw [shapeCast_ab_1ab_apply, pay6_apply]

/-! ## The product's array after the region -/

section Region0

variable (V : (c : Dev nD) → (b : Ref sig .tc) → Buf (Elt Ideal) ((c : Thread nD τ).loc b))

/-- The printed index maps, decided over the grid: the x-block moves with the product's block on the first two axes,
    the weights and the bias do not move, and no window moves along its last axis. -/
theorem idx_facts3 : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = t.val % 2 :=
  (by decide +kernel : ∀ t : Fin grid0.N, _)

set_option maxHeartbeats 1000000 in
/-- The stored block at point `t`, element by element, is `gK` of the three input arrays at the element's place in the
    product's array: the x-block moves with the product's block, the weights and the bias are whole. -/
theorem pay7_at (c : Dev nD) (t : Fin cfg0.N) (u : Fin 1) (r : Fin 1024) (cc : Fin 512) :
    k0_pay7 (iblk0 V c 0 t) (iblk0 V c 1 t) (iblk0 V c 2 t) (ix3 u r cc)
      = gK (V c main_arg0) (V c main_v0) (V c main_v1) (((cfg0.win 3).blk t).view.emb (ix3 u r cc)) := by
  obtain ⟨e0, e1, e2, e3, e4, e5, e6, e7, e8, e9⟩ := idx_facts3 t
  rw [pay7_apply]
  have hu : u.val < 1 := u.isLt
  have hr : r.val < 1024 := r.isLt
  have hcc : cc.val < 512 := cc.isLt
  have hX : ∀ k : Fin 1024, iblk0 V c 0 t (ix3 (0 : Fin 1) r k)
      = V c main_arg0 (ix3 ((((cfg0.win 3).blk t).view.emb (ix3 u r cc)) 0) ((((cfg0.win 3).blk t).view.emb (ix3 u r cc)) 1) k) := fun k => by
    have hk : k.val < 1024 := k.isLt
    show V c main_arg0 (((cfg0.win 0).blk t).view.emb (ix3 (0 : Fin 1) r k)) = _
    refine congrArg (V c main_arg0) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 1024 + 1 * r.val = win0_3.index t (1 : Fin 3) * 1024 + 1 * r.val; omega
    | ⟨2, _⟩ => show win0_0.index t (2 : Fin 3) * 1024 + 1 * k.val = k.val; omega
  have hW : ∀ k : Fin 1024, iblk0 V c 1 t (ix2 cc k)
      = V c main_v0 (ix2 ((((cfg0.win 3).blk t).view.emb (ix3 u r cc)) 2) k) := fun k => by
    have hk : k.val < 1024 := k.isLt
    show V c main_v0 (((cfg0.win 1).blk t).view.emb (ix2 cc k)) = _
    refine congrArg (V c main_v0) (funext fun a => Fin.ext ?_)
    match a with
    | ⟨0, _⟩ => show win0_1.index t (0 : Fin 2) * 512 + 1 * cc.val = win0_3.index t (2 : Fin 3) * 512 + 1 * cc.val; omega
    | ⟨1, _⟩ => show win0_1.index t (1 : Fin 2) * 1024 + 1 * k.val = k.val; omega
  have hB : iblk0 V c 2 t (ix2 (0 : Fin 1) cc)
      = V c main_v1 (ix2 (0 : Fin 1) ((((cfg0.win 3).blk t).view.emb (ix3 u r cc)) 2)) := by
    show V c main_v1 (((cfg0.win 2).blk t).view.emb (ix2 (0 : Fin 1) cc)) = _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 512 + 1 * cc.val = win0_3.index t (2 : Fin 3) * 512 + 1 * cc.val; omega
  unfold gK
  rw [hB]
  congr 1
  exact Finset.sum_congr rfl fun k _ => by rw [hX k, hW k]

/-- WHAT POINT `t` WRITES BACK to the product's array is block `t` of `gK` of the three input arrays as the region
    finds them. -/
theorem flushed3_eq (c : Dev nD) (t : Fin cfg0.N) :
    (dat0 V c).flushed 3 t = ((cfg0.win 3).blk t).view.read (Elt Ideal) (gK (V c main_arg0) (V c main_v0) (V c main_v1)) := by
  show (cfg0.win 3).cut (grid0.coords t) ((dat0 V c).after 3 t) = _
  rw [after0_3, out3_at]
  funext j
  obtain ⟨u, r, cc, rfl⟩ : ∃ (u : Fin 1) (r : Fin 1024) (cc : Fin 512), j = ix3 u r cc := ⟨j 0, j 1, j 2, eq_ix3 j⟩
  exact pay7_at V c t u r cc

/-- An index of the product's array is in point `t`'s block iff each coordinate is in the block's range on its axis. -/
theorem mem_blk3 (t : Fin cfg0.N) (i : S16x2048x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v2_0).slice (win0_3.rect t)).set ↔ _
  rw [View.set_slice_whole, Rect.mem_set_unit]
  exact Iff.rfl

/-- Every index of the product's array is in some point's block: row `l` of batch `p` is in the block of point
    `2 p + l / 1024`. -/
theorem cover3 (i : S16x2048x512.Idx) : ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 512 := (i 2).isLt
  have hN : cfg0.N = 32 := N_0
  have hlt : 2 * (i 0).val + (i 1).val / 1024 < cfg0.N := by rw [hN]; omega
  refine ⟨⟨2 * (i 0).val + (i 1).val / 1024, hlt⟩, flush0_3 _, ?_⟩
  rw [mem_blk3]
  obtain ⟨-, -, -, e3, -, -, -, -, e8, e9⟩ := idx_facts3 ⟨2 * (i 0).val + (i 1).val / 1024, hlt⟩
  have e8' : win0_3.index ⟨2 * (i 0).val + (i 1).val / 1024, hlt⟩ (0 : Fin 3) = (2 * (i 0).val + (i 1).val / 1024) / 2 := e8
  have e9' : win0_3.index ⟨2 * (i 0).val + (i 1).val / 1024, hlt⟩ (1 : Fin 3) = (2 * (i 0).val + (i 1).val / 1024) % 2 := e9
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 512 ≤ (i 2).val ∧ (i 2).val < win0_3.index _ (2 : Fin 3) * 512 + 512; omega

/-- THE PRODUCT'S ARRAY after the region is `gK` of the three input arrays as the region finds them. -/
theorem final3 (c : Dev nD) : (dat0 V c).arrAt 3 cfg0.N = gK (V c main_arg0) (V c main_v0) (V c main_v1) :=
  (dat0 V c).arrAt_eq_of_cover 3 _ (fun t _ => flushed3_eq V c t) cover3

end Region0

end Cert.KernelIdeal.Hand

end
-- ==== Proof.KI.R0Sums.lean ====
/- Region 0 at the ideal values: the two accumulators point by point, and the arrays the sum and the sum of squares are
   written back to — at each batch the sum of the product-plus-bias (of its squares) over the batch's rows and columns. -/
import proofs.«144746_j73340861547085_2_alg».proof.Proof.KI.R0Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! # The two sums' windows at the ideal values -/

/-! ## The accumulators' payloads at an index -/

set_option maxHeartbeats 1000000 in
/-- The running sum's update at its one element: what it held plus the sum of the product-plus-bias block over rows
    and columns (the lane sum, then the row sum). -/
theorem pay8_apply (v3 : Vec Ideal S1x1024x1024 .f32) (v6 : Vec Ideal S512x1024 .bf16) (v9 : Vec Ideal S1x512 .f32) (v25 : Vec Ideal S1x1 .f32) (a b : Fin 1) :
    k0_pay8 v3 v6 v9 v25 (ix2 a b) = v25 (ix2 a b) + ∑ r : Fin 1024, ∑ cc : Fin 512, k0_pay6 v3 v6 v9 (ix2 r cc) := by
  unfold k0_pay8
  rw [shapeCast_self, addf_apply, shapeCast_a_1a_apply]
  erw [Ideal.multiReduction_add_single]
  congr 1
  refine Finset.sum_congr rfl fun (r : Fin 1024) _ => ?_
  refine (shapeCast_apply _ _ _ (ix1 r) (by
    rw [Shape.rowMajor_val_one, Shape.rowMajor_val_two]
    show r.val = r.val * 1 + b.val
    have := b.isLt; omega)).trans ?_
  erw [Ideal.multiReduction_add_single]
  refine Finset.sum_congr rfl fun (cc : Fin 512) _ => congrArg _ (funext fun ax => Fin.ext ?_)
  match ax with
  | ⟨0, _⟩ => rfl
  | ⟨1, _⟩ => rfl

set_option maxHeartbeats 1000000 in
/-- The running sum of squares' update at its one element: what it held plus the sum of the block's squares. -/
theorem pay9_apply (v3 : Vec Ideal S1x1024x1024 .f32) (v6 : Vec Ideal S512x1024 .bf16) (v9 : Vec Ideal S1x512 .f32) (v30 : Vec Ideal S1x1 .f32) (a b : Fin 1) :
    k0_pay9 v3 v6 v9 v30 (ix2 a b) = v30 (ix2 a b) + ∑ r : Fin 1024, ∑ cc : Fin 512, k0_pay6 v3 v6 v9 (ix2 r cc) * k0_pay6 v3 v6 v9 (ix2 r cc) := by
  unfold k0_pay9
  rw [addf_apply, shapeCast_a_1a_apply]
  erw [Ideal.multiReduction_add_single]
  congr 1
  refine Finset.sum_congr rfl fun (r : Fin 1024) _ => ?_
  refine (shapeCast_apply _ _ _ (ix1 r) (by
    rw [Shape.rowMajor_val_one, Shape.rowMajor_val_two]
    show r.val = r.val * 1 + b.val
    have := b.isLt; omega)).trans ?_
  erw [Ideal.multiReduction_add_single]
  refine Finset.sum_congr rfl fun (cc : Fin 512) _ => ?_
  rw [mulf_apply]
  have e : reduces_S1024x512_S1024.lift (ix1 r) cc = ix2 r cc := funext fun ax => Fin.ext (by
    match ax with
    | ⟨0, _⟩ => rfl
    | ⟨1, _⟩ => rfl)
  rw [e]

/-- The zero the accumulators are reset to is the extended real `0`. -/
theorem pay4_apply (a b : Fin 1) : k0_pay4 (F := Ideal) (ix2 a b) = 0 := by
  unfold k0_pay4
  rw [shapeCast_self]
  show Ideal.ofBits .f32 0x00000000#32 = 0
  exact Ideal.ofBits_zero_f32
theorem pay5_apply (a b : Fin 1) : k0_pay5 (F := Ideal) (ix2 a b) = 0 := by
  unfold k0_pay5
  rw [shapeCast_self]
  show Ideal.ofBits .f32 0x00000000#32 = 0
  exact Ideal.ofBits_zero_f32

/-- The stores into the sums' windows and the second accumulator only change the shape. -/
theorem pay1_eq (v31 : FVec Ideal S1x1 .f32) : k0_pay1 v31 = v31 := by
  unfold k0_pay1; rw [shapeCast_self]
theorem pay2_apply (v38 : Vec Ideal S1x1 .f32) (u a b : Fin 1) : k0_pay2 v38 (ix3 u a b) = v38 (ix2 a b) := by
  unfold k0_pay2
  rw [shapeCast_ab_1ab_apply]
theorem pay3_apply (v42 : Vec Ideal S1x1 .f32) (u a b : Fin 1) : k0_pay3 v42 (ix3 u a b) = v42 (ix2 a b) := by
  unfold k0_pay3
  rw [shapeCast_ab_1ab_apply]

/-! ## The accumulation, point by point -/

section Region0Sums

variable (V : (c : Dev nD) → (b : Ref sig .tc) → Buf (Elt Ideal) ((c : Thread nD τ).loc b))

/-- The sum of point `t`'s product-plus-bias block over its rows and columns, -/
def bsum0 (c : Dev nD) (t : Fin cfg0.N) : EReal :=
  ∑ r : Fin 1024, ∑ cc : Fin 512, k0_pay6 (iblk0 V c 0 t) (iblk0 V c 1 t) (iblk0 V c 2 t) (ix2 r cc)
/-- and of its squares. -/
def bsq0 (c : Dev nD) (t : Fin cfg0.N) : EReal :=
  ∑ r : Fin 1024, ∑ cc : Fin 512, k0_pay6 (iblk0 V c 0 t) (iblk0 V c 1 t) (iblk0 V c 2 t) (ix2 r cc) * k0_pay6 (iblk0 V c 0 t) (iblk0 V c 1 t) (iblk0 V c 2 t) (ix2 r cc)

/-- After an even point the running sum is the point's block sum (added to the zero it was reset to). -/
theorem s0_even_apply (c : Dev nD) (t : Fin cfg0.N) (h0 : t.val % 2 = 0) (a b : Fin 1) :
    (outsAt0 V c t.val t.isLt).2.2.2.1 (ix2 a b) = 0 + bsum0 V c t := by
  rw [s0_even V c t h0, pay8_apply, pay4_apply]; rfl
theorem s1_even_apply (c : Dev nD) (t : Fin cfg0.N) (h0 : t.val % 2 = 0) (a b : Fin 1) :
    (outsAt0 V c t.val t.isLt).2.2.2.2 (ix2 a b) = 0 + bsq0 V c t := by
  rw [s1_even V c t h0, pay1_eq, pay9_apply, pay5_apply]; rfl

/-- After an odd point the sum's window holds the block sums of the point before and of the point. -/
theorem out4_odd_apply (c : Dev nD) (t : Fin cfg0.N) (h1 : t.val % 2 = 1) (u a b : Fin 1) :
    (outsAt0 V c t.val t.isLt).2.1 (ix3 u a b) = (0 + bsum0 V c ⟨t.val - 1, Nat.lt_of_le_of_lt (Nat.sub_le _ _) t.isLt⟩) + bsum0 V c t := by
  rw [out4_odd V c t h1, pay2_apply, pay8_apply]
  exact congrArg (fun z => z + bsum0 V c t) (s0_even_apply V c ⟨t.val - 1, Nat.lt_of_le_of_lt (Nat.sub_le _ _) t.isLt⟩ (by show (t.val - 1) % 2 = 0; omega) a b)
theorem out5_odd_apply (c : Dev nD) (t : Fin cfg0.N) (h1 : t.val % 2 = 1) (u a b : Fin 1) :
    (outsAt0 V c t.val t.isLt).2.2.1 (ix3 u a b) = (0 + bsq0 V c ⟨t.val - 1, Nat.lt_of_le_of_lt (Nat.sub_le _ _) t.isLt⟩) + bsq0 V c t := by
  rw [out5_odd V c t h1, pay3_apply, pay1_eq, pay9_apply]
  exact congrArg (fun z => z + bsq0 V c t) (s1_even_apply V c ⟨t.val - 1, Nat.lt_of_le_of_lt (Nat.sub_le _ _) t.isLt⟩ (by show (t.val - 1) % 2 = 0; omega) a b)

/-! ## The block sums over the product's array -/

/-- Point `t`'s block element, as an element of the product's array: batch `t / 2`, row `(t % 2) · 1024 + r`. -/
theorem pay6_at (c : Dev nD) (t : Fin cfg0.N) (r : Fin 1024) (cc : Fin 512) :
    k0_pay6 (iblk0 V c 0 t) (iblk0 V c 1 t) (iblk0 V c 2 t) (ix2 r cc) = gK (V c main_arg0) (V c main_v0) (V c main_v1) (((cfg0.win 3).blk t).view.emb (ix3 (0 : Fin 1) r cc)) := by
  rw [← pay7_at V c t 0 r cc]
  unfold k0_pay7
  rw [shapeCast_ab_1ab_apply]

theorem emb3_eq (t : Fin cfg0.N) (r : Fin 1024) (cc : Fin 512) :
    ((cfg0.win 3).blk t).view.emb (ix3 (0 : Fin 1) r cc)
      = ix3 (⟨t.val / 2, by have := lt_of_lt_of_eq t.isLt (show cfg0.N = 32 from N_0); omega⟩ : Fin 16)
          (⟨t.val % 2 * 1024 + r.val, by have := r.isLt; omega⟩ : Fin 2048) cc := by
  obtain ⟨-, -, -, e3, -, -, -, -, e8, e9⟩ := idx_facts3 t
  have hr : r.val < 1024 := r.isLt
  have hcc : cc.val < 512 := cc.isLt
  funext a; apply Fin.ext
  match a with
  | ⟨0, _⟩ => show win0_3.index t (0 : Fin 3) * 1 + 1 * 0 = t.val / 2; omega
  | ⟨1, _⟩ => show win0_3.index t (1 : Fin 3) * 1024 + 1 * r.val = t.val % 2 * 1024 + r.val; omega
  | ⟨2, _⟩ => show win0_3.index t (2 : Fin 3) * 512 + 1 * cc.val = cc.val; omega

end Region0Sums

/-! ## The sums' arrays after the region -/

section Region0Finals

variable (V : (c : Dev nD) → (b : Ref sig .tc) → Buf (Elt Ideal) ((c : Thread nD τ).loc b))

/-- The two sums' windows sit at batch `t / 2`, the other two block indices zero — decided over the grid. -/
theorem idx_facts45 : ∀ t : Fin cfg0.N,
    win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

/-- Two odd points write back different batches' blocks. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (Fin.ext (by
    have h1 := (flush0_4 t).mp hf
    have h2 := (flush0_4 t').mp hf'
    have e : win0_4.index t (0 : Fin 3) = win0_4.index t' (0 : Fin 3) := congrFun h 0
    rw [(idx_facts45 t).1, (idx_facts45 t').1] at e
    omega))
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have h1 := (flush0_5 t).mp hf
    have h2 := (flush0_5 t').mp hf'
    have e : win0_5.index t (0 : Fin 3) = win0_5.index t' (0 : Fin 3) := congrFun h 0
    rw [(idx_facts45 t).2.2.2.1, (idx_facts45 t').2.2.2.1] at e
    omega))

/-- Batch `p`'s first row block (the even point `2 p`) as elements of the product's array: rows `0 … 1023`; -/
theorem pay6_lo (c : Dev nD) (p : Fin 16) (t : Fin cfg0.N) (ht : t.val = 2 * p.val) (r : Fin 1024) (cc : Fin 512) :
    k0_pay6 (iblk0 V c 0 t) (iblk0 V c 1 t) (iblk0 V c 2 t) (ix2 r cc) = gK (V c main_arg0) (V c main_v0) (V c main_v1) (ix3 p (Fin.castAdd 1024 r : Fin 2048) cc) := by
  rw [pay6_at, emb3_eq]
  congr 1
  funext a; apply Fin.ext
  have hp := p.isLt
  have hr := r.isLt
  match a with
  | ⟨0, _⟩ => show t.val / 2 = p.val; omega
  | ⟨1, _⟩ => show t.val % 2 * 1024 + r.val = r.val; omega
  | ⟨2, _⟩ => rfl
/-- its second (the odd point `2 p + 1`): rows `1024 … 2047`. -/
theorem pay6_hi (c : Dev nD) (p : Fin 16) (t : Fin cfg0.N) (ht : t.val = 2 * p.val + 1) (r : Fin 1024) (cc : Fin 512) :
    k0_pay6 (iblk0 V c 0 t) (iblk0 V c 1 t) (iblk0 V c 2 t) (ix2 r cc) = gK (V c main_arg0) (V c main_v0) (V c main_v1) (ix3 p (Fin.natAdd 1024 r : Fin 2048) cc) := by
  rw [pay6_at, emb3_eq]
  congr 1
  funext a; apply Fin.ext
  have hp := p.isLt
  have hr := r.isLt
  match a with
  | ⟨0, _⟩ => show t.val / 2 = p.val; omega
  | ⟨1, _⟩ => show t.val % 2 * 1024 + r.val = 1024 + r.val; omega
  | ⟨2, _⟩ => rfl

set_option maxHeartbeats 1000000 in
/-- THE SUM'S ARRAY after the region: at batch `p`, the sum of `gK` over the batch's rows and columns. -/
theorem final4 (c : Dev nD) (p : Fin 16) :
    (dat0 V c).arrAt 4 cfg0.N (ix3 p (0 : Fin 1) (0 : Fin 1)) = ∑ l : Fin 2048, ∑ j : Fin 512, gK (V c main_arg0) (V c main_v0) (V c main_v1) (ix3 p l j) := by
  have hp := p.isLt
  obtain ⟨t, ht⟩ : ∃ t : Fin cfg0.N, t.val = 2 * p.val + 1 := ⟨⟨2 * p.val + 1, by have : cfg0.N = 32 := N_0; omega⟩, rfl⟩
  have h1 : t.val % 2 = 1 := by omega
  have hf : (cfg0.win 4).flush t = true := (flush0_4 t).mpr h1
  have h := (dat0 V c).arrAt_emb_eq_flushed 4 disjoint4 t hf (ix3 (0 : Fin 1) (0 : Fin 1) (0 : Fin 1))
  have he : ((cfg0.win 4).blk t).view.emb (ix3 (0 : Fin 1) (0 : Fin 1) (0 : Fin 1)) = ix3 p (0 : Fin 1) (0 : Fin 1) := by
    obtain ⟨e0, e1, e2, e3, e4, e5⟩ := idx_facts45 t
    funext a; apply Fin.ext
    match a with
    | ⟨0, _⟩ => show win0_4.index t (0 : Fin 3) * 1 + 1 * 0 = p.val; omega
    | ⟨1, _⟩ => show win0_4.index t (1 : Fin 3) * 1 + 1 * 0 = 0; omega
    | ⟨2, _⟩ => show win0_4.index t (2 : Fin 3) * 1 + 1 * 0 = 0; omega
  rw [he] at h
  rw [h]
  show (cfg0.win 4).cut (grid0.coords t) ((dat0 V c).after 4 t) (ix3 (0 : Fin 1) (0 : Fin 1) (0 : Fin 1)) = _
  rw [after0_4]
  show (outsAt0 V c t.val t.isLt).2.1 (ix3 (0 : Fin 1) (0 : Fin 1) (0 : Fin 1)) = _
  rw [out4_odd_apply V c t h1, zero_add]
  unfold bsum0
  rw [show (∑ l : Fin 2048, ∑ j : Fin 512, gK (V c main_arg0) (V c main_v0) (V c main_v1) (ix3 p l j)) = ∑ l : Fin (1024 + 1024), ∑ j : Fin 512, gK (V c main_arg0) (V c main_v0) (V c main_v1) (ix3 p (l : Fin 2048) j) from rfl,
    Fin.sum_univ_add]
  congr 1
  · exact Finset.sum_congr rfl fun r _ => Finset.sum_congr rfl fun cc _ => by
      rw [pay6_lo V c p ⟨t.val - 1, Nat.lt_of_le_of_lt (Nat.sub_le _ _) t.isLt⟩ (by show t.val - 1 = 2 * p.val; omega) r cc]
  · exact Finset.sum_congr rfl fun r _ => Finset.sum_congr rfl fun cc _ => by
      rw [pay6_hi V c p t ht r cc]

set_option maxHeartbeats 1000000 in
/-- THE SUM OF SQUARES' ARRAY after the region: at batch `p`, the sum of `gK`'s squares over the batch's rows and columns. -/
theorem final5 (c : Dev nD) (p : Fin 16) :
    (dat0 V c).arrAt 5 cfg0.N (ix3 p (0 : Fin 1) (0 : Fin 1)) = ∑ l : Fin 2048, ∑ j : Fin 512, (gK (V c main_arg0) (V c main_v0) (V c main_v1) (ix3 p l j) * gK (V c main_arg0) (V c main_v0) (V c main_v1) (ix3 p l j)) := by
  have hp := p.isLt
  obtain ⟨t, ht⟩ : ∃ t : Fin cfg0.N, t.val = 2 * p.val + 1 := ⟨⟨2 * p.val + 1, by have : cfg0.N = 32 := N_0; omega⟩, rfl⟩
  have h1 : t.val % 2 = 1 := by omega
  have hf : (cfg0.win 5).flush t = true := (flush0_5 t).mpr h1
  have h := (dat0 V c).arrAt_emb_eq_flushed 5 disjoint5 t hf (ix3 (0 : Fin 1) (0 : Fin 1) (0 : Fin 1))
  have he : ((cfg0.win 5).blk t).view.emb (ix3 (0 : Fin 1) (0 : Fin 1) (0 : Fin 1)) = ix3 p (0 : Fin 1) (0 : Fin 1) := by
    obtain ⟨e0, e1, e2, e3, e4, e5⟩ := idx_facts45 t
    funext a; apply Fin.ext
    match a with
    | ⟨0, _⟩ => show win0_5.index t (0 : Fin 3) * 1 + 1 * 0 = p.val; omega
    | ⟨1, _⟩ => show win0_5.index t (1 : Fin 3) * 1 + 1 * 0 = 0; omega
    | ⟨2, _⟩ => show win0_5.index t (2 : Fin 3) * 1 + 1 * 0 = 0; omega
  rw [he] at h
  rw [h]
  show (cfg0.win 5).cut (grid0.coords t) ((dat0 V c).after 5 t) (ix3 (0 : Fin 1) (0 : Fin 1) (0 : Fin 1)) = _
  rw [after0_5]
  show (outsAt0 V c t.val t.isLt).2.2.1 (ix3 (0 : Fin 1) (0 : Fin 1) (0 : Fin 1)) = _
  rw [out5_odd_apply V c t h1, zero_add]
  unfold bsq0
  rw [show (∑ l : Fin 2048, ∑ j : Fin 512, (gK (V c main_arg0) (V c main_v0) (V c main_v1) (ix3 p l j) * gK (V c main_arg0) (V c main_v0) (V c main_v1) (ix3 p l j))) = ∑ l : Fin (1024 + 1024), ∑ j : Fin 512, (gK (V c main_arg0) (V c main_v0) (V c main_v1) (ix3 p (l : Fin 2048) j) * gK (V c main_arg0) (V c main_v0) (V c main_v1) (ix3 p (l : Fin 2048) j)) from rfl,
    Fin.sum_univ_add]
  congr 1
  · exact Finset.sum_congr rfl fun r _ => Finset.sum_congr rfl fun cc _ => by
      rw [pay6_lo V c p ⟨t.val - 1, Nat.lt_of_le_of_lt (Nat.sub_le _ _) t.isLt⟩ (by show t.val - 1 = 2 * p.val; omega) r cc]
  · exact Finset.sum_congr rfl fun r _ => Finset.sum_congr rfl fun cc _ => by
      rw [pay6_hi V c p t ht r cc]

end Region0Finals

end Cert.KernelIdeal.Hand

end
-- ==== Proof.KI.R1Pieces.lean ====
/- The second pipelined region: what each case's pieces are, as values. The output window ends holding the
   body's last sum reshaped (its one covering store); the scratch row ends holding the last line of the body's
   first sum. In case A the scratch row the body reads is the row of zeros it has just stored. -/
import proofs.«144746_j73340861547085_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- Case B, the output window: the reshaped sum, the scratch row read at what the point before left. -/
theorem out1_B_3_eq (c : Dev nD) (i : grid1.Coords) (a2 : Memref sig .tc .vmem S1x512x512 .f32) (h2 : a2.IsWhole) (a3 : Memref sig .tc .vmem S1x512x1 .i32) (h3 : a3.IsWhole) (a4 : Memref sig .tc .vmem S1x512 .f32) (h4 : a4.IsWhole) (a5 : Memref sig .tc .vmem S1x512x512 .f32) (h5 : a5.IsWhole) (a6 : Memref sig .tc .vmem S1x512 .f32) (h6 : a6.IsWhole) (hc : ¬cond1_0 i) (x0 : Vec F S1x512x512 .f32) (x1 : Vec F S1x512x1 .i32) (x2 : Vec F S1x512 .f32) (xs0 : Vec F S1x512 .f32) :
    out1_B_3 c i a2 h2 a3 h3 a4 h4 a5 h5 a6 h6 hc x0 x1 x2 xs0 = k1_pay1 (k1_pay5 i x1 x0 xs0 x2) := by
  unfold out1_B_3
  rw [View.read_writes_eq_canon _ _ _ (cover1_B_3 c i a2 h2 a3 h3 a4 h4 a5 h5 a6 h6 hc x0 x1 x2 xs0)]
  unfold kernelRun1_B
  dsimp only
  sl_unfold_words
  rw [View.canon_unit_zero hz1_3]
  simp only [View.readAt_eq_ld, h2.read_unread, h3.read_unread, h4.read_unread, h6.read_unread, View.ld_unit_zero (S := S1x512x512) hz1_3, View.ld_unit_zero (S := S1x512x1) hz1_3, View.ld_unit_zero (S := S1x512) hz1_2]

/-- Case B, the scratch row: the last line of the first sum. -/
theorem sout1_B_0_eq (c : Dev nD) (i : grid1.Coords) (a2 : Memref sig .tc .vmem S1x512x512 .f32) (h2 : a2.IsWhole) (a3 : Memref sig .tc .vmem S1x512x1 .i32) (h3 : a3.IsWhole) (a4 : Memref sig .tc .vmem S1x512 .f32) (h4 : a4.IsWhole) (a5 : Memref sig .tc .vmem S1x512x512 .f32) (h5 : a5.IsWhole) (a6 : Memref sig .tc .vmem S1x512 .f32) (h6 : a6.IsWhole) (hc : ¬cond1_0 i) (x0 : Vec F S1x512x512 .f32) (x1 : Vec F S1x512x1 .i32) (x2 : Vec F S1x512 .f32) (xs0 : Vec F S1x512 .f32) :
    sout1_B_0 c i a2 h2 a3 h3 a4 h4 a5 h5 a6 h6 hc x0 x1 x2 xs0 = k1_pay2 (k1_pay4 i x1 x0 xs0) := by
  unfold sout1_B_0
  rw [View.read_writes_eq_canon _ _ _ (scover1_B_0 c i a2 h2 a3 h3 a4 h4 a5 h5 a6 h6 hc x0 x1 x2 xs0)]
  unfold kernelRun1_B
  dsimp only
  sl_unfold_words
  rw [View.canon_unit_zero hz1_2]
  simp only [View.readAt_eq_ld, h2.read_unread, h3.read_unread, h4.read_unread, h6.read_unread, View.ld_unit_zero (S := S1x512x512) hz1_3, View.ld_unit_zero (S := S1x512x1) hz1_3, View.ld_unit_zero (S := S1x512) hz1_2]

/-- Case A, the output window: the same with the scratch row read as the zeros just stored. -/
theorem out1_A_3_eq (c : Dev nD) (i : grid1.Coords) (a2 : Memref sig .tc .vmem S1x512x512 .f32) (h2 : a2.IsWhole) (a3 : Memref sig .tc .vmem S1x512x1 .i32) (h3 : a3.IsWhole) (a4 : Memref sig .tc .vmem S1x512 .f32) (h4 : a4.IsWhole) (a5 : Memref sig .tc .vmem S1x512x512 .f32) (h5 : a5.IsWhole) (a6 : Memref sig .tc .vmem S1x512 .f32) (h6 : a6.IsWhole) (hc : cond1_0 i) (x0 : Vec F S1x512x512 .f32) (x1 : Vec F S1x512x1 .i32) (x2 : Vec F S1x512 .f32) :
    out1_A_3 c i a2 h2 a3 h3 a4 h4 a5 h5 a6 h6 hc x0 x1 x2 = k1_pay1 (k1_pay5 i x1 x0 (k1_pay3 (F := F)) x2) := by
  unfold out1_A_3
  rw [View.read_writes_eq_canon _ _ _ (cover1_A_3 c i a2 h2 a3 h3 a4 h4 a5 h5 a6 h6 hc x0 x1 x2)]
  unfold kernelRun1_A
  dsimp only
  sl_unfold_words
  rw [View.canon_unit_zero hz1_3]
  simp only [View.readCov_unit_zero (S := S1x512) _ hz1_2, View.readAt_eq_ld, h2.read_unread, h3.read_unread, h4.read_unread, View.ld_unit_zero (S := S1x512x512) hz1_3, View.ld_unit_zero (S := S1x512x1) hz1_3, View.ld_unit_zero (S := S1x512) hz1_2]

/-- Case A, the scratch row: the last line of the first sum over the zero row. -/
theorem sout1_A_0_eq (c : Dev nD) (i : grid1.Coords) (a2 : Memref sig .tc .vmem S1x512x512 .f32) (h2 : a2.IsWhole) (a3 : Memref sig .tc .vmem S1x512x1 .i32) (h3 : a3.IsWhole) (a4 : Memref sig .tc .vmem S1x512 .f32) (h4 : a4.IsWhole) (a5 : Memref sig .tc .vmem S1x512x512 .f32) (h5 : a5.IsWhole) (a6 : Memref sig .tc .vmem S1x512 .f32) (h6 : a6.IsWhole) (hc : cond1_0 i) (x0 : Vec F S1x512x512 .f32) (x1 : Vec F S1x512x1 .i32) (x2 : Vec F S1x512 .f32) :
    sout1_A_0 c i a2 h2 a3 h3 a4 h4 a5 h5 a6 h6 hc x0 x1 x2 = k1_pay2 (k1_pay4 i x1 x0 (k1_pay3 (F := F))) := by
  unfold sout1_A_0
  rw [View.read_writes_eq_canon _ _ _ (scover1_A_0 c i a2 h2 a3 h3 a4 h4 a5 h5 a6 h6 hc x0 x1 x2)]
  unfold kernelRun1_A
  dsimp only
  sl_unfold_words
  rw [View.canon_cons_unit_zero (S := S1x512) hz1_2, View.readCov_unit_zero (S := S1x512) _ hz1_2]
  simp only [View.readAt_eq_ld, h2.read_unread, h3.read_unread, h4.read_unread, View.ld_unit_zero (S := S1x512x512) hz1_3, View.ld_unit_zero (S := S1x512x1) hz1_3, View.ld_unit_zero (S := S1x512) hz1_2]

end Cert.KernelIdeal.Hand
end
-- ==== Proof.KI.R1ValueBody.lean ====
/- The second pipelined region at the ideal values: the body's first sum read at one row and lane. The body
   rebuilds, from the row's source position taken relative to the block's first row, a one-hot row over the 512
   lanes, and selects with it by a matrix product (computed twice: against the block, and against the block minus
   itself, which is zero wherever the block is finite); where the source position lies before the block it adds
   the carried row instead. The 32-bit integer arithmetic is exact: every position is below 4096. -/
import proofs.«144746_j73340861547085_2_alg».proof.Proof.KI.R1Pieces
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.Ideal
open scoped BigOperators

namespace R1V

abbrev D1 : DotDims S512x512 S512x512 S512x512 := dot_S512x512_S512x512_S512x512_1_0_0_1_n_n

theorem D1_rank : D1.contr.rank = 1 := rfl
theorem D1_size : D1.contr.size ⟨0, by rw [D1_rank]; exact Nat.one_pos⟩ = 512 := rfl

def cE : D1.contr.Idx ≃ Fin 512 := contrEquiv1 D1 512 D1_rank D1_size

theorem lhsIdx_eq (r c : Fin 512) (k : D1.contr.Idx) : D1.lhsIdx (ix2 r c) k = ix2 r (cE k) := by
  funext a
  match a with
  | ⟨0, _⟩ => exact Fin.ext rfl
  | ⟨1, _⟩ => exact Fin.ext rfl

theorem rhsIdx_eq (r c : Fin 512) (k : D1.contr.Idx) : D1.rhsIdx (ix2 r c) k = ix2 (cE k) c := by
  funext a
  match a with
  | ⟨0, _⟩ => exact Fin.ext rfl
  | ⟨1, _⟩ => exact Fin.ext rfl

theorem cmpi_apply {s : Shape} {w : Nat} (p : CmpIPredicate) (a b : IVec s w) (i : s.Idx) : cmpi p a b i = IntOp.cmpi p (a i) (b i) := rfl
theorem subi_apply {s : Shape} {w : Nat} (a b : IVec s w) (i : s.Idx) : subi a b i = IntOp.subi (a i) (b i) := rfl

/-- Dropping the block's leading unit axis: the 512 × 1 column of source positions. -/
theorem cast_x1 (x1 : Vec Ideal S1x512x1 .i32) (r : Fin 512) (z : Fin 1) :
    shapeCast S512x1 x1 shapeCasts_S1x512x1_S512x1 (ix2 r z) = x1 (ix3 0 r 0) := by
  rw [shapeCast_dropUnit_apply ![512, 1] x1 shapeCasts_S1x512x1_S512x1 (ix2 r z)]
  congr 1
  funext a
  match a with
  | ⟨0, _⟩ => rfl
  | ⟨1, _⟩ => rfl
  | ⟨2, _⟩ => exact Fin.ext (by have := z.isLt; show z.val = 0; omega)

/-- Dropping the block's leading unit axis: the 512 × 512 block of values. -/
theorem cast_x0 (x0 : Vec Ideal S1x512x512 .f32) (q j : Fin 512) :
    shapeCast S512x512 x0 shapeCasts_S1x512x512_S512x512 (ix2 q j) = x0 (ix3 0 q j) := by
  rw [shapeCast_dropUnit_apply ![512, 512] x0 shapeCasts_S1x512x512_S512x512 (ix2 q j)]
  congr 1
  funext a
  match a with
  | ⟨0, _⟩ => rfl
  | ⟨1, _⟩ => rfl
  | ⟨2, _⟩ => rfl

/-- A column broadcast along the lanes reads its row's entry. -/
theorem bc_col {α : Type} (v : S512x1.Idx → α) (r q : Fin 512) :
    broadcastTo S512x512 v broadcasts_S512x1_S512x512 (ix2 r q) = v (ix2 r 0) :=
  broadcastTo_apply v broadcasts_S512x1_S512x512 (ix2 r q) (ix2 r 0) (fun a => by
    match a with
    | ⟨0, _⟩ => rfl
    | ⟨1, _⟩ => rfl)

/-- A row broadcast along the rows reads its lane's entry. -/
theorem bc_row {α : Type} (v : S1x512.Idx → α) (r q : Fin 512) :
    broadcastTo S512x512 v broadcasts_S1x512_S512x512 (ix2 r q) = v (ix2 0 q) :=
  broadcastTo_apply v broadcasts_S1x512_S512x512 (ix2 r q) (ix2 0 q) (fun a => by
    match a with
    | ⟨0, _⟩ => rfl
    | ⟨1, _⟩ => rfl)

theorem iota_fun : iota .tc S512x512 32 [1] iota_S512x512_d1_w32 = fun y => BitVec.ofNat 32 (y 1).val :=
  funext fun y => iota_single_apply .tc S512x512 32 1 iota_S512x512_d1_w32 y

theorem cast_x0_fun (x0 : Vec Ideal S1x512x512 .f32) :
    shapeCast S512x512 x0 shapeCasts_S1x512x512_S512x512 = fun y => x0 (ix3 0 (y 0) (y 1)) := by
  funext y; rw [eq_ix2 y]; exact cast_x0 x0 _ _

theorem cast_x1_fun (x1 : Vec Ideal S1x512x1 .i32) :
    shapeCast S512x1 x1 shapeCasts_S1x512x1_S512x1 = fun y => x1 (ix3 0 (y 0) 0) := by
  funext y; rw [eq_ix2 y]; exact cast_x1 x1 _ _

/-- The one-hot entry: 1 where the source position, taken relative to the block's first row, is the lane. -/
def oh (w b : BitVec 32) (k : ℕ) : EReal :=
  (FloatOps.sitofp .f32 (BitVec.setWidth 32 (IntOp.cmpi .eq (IntOp.subi w b) (BitVec.ofNat 32 k))) : Ideal .f32)
/-- The indicator that the source position lies before the block. -/
def ng (w b : BitVec 32) : EReal :=
  (FloatOps.sitofp .f32 (BitVec.setWidth 32 (IntOp.cmpi .slt (IntOp.subi w b) 0#32)) : Ideal .f32)

set_option maxHeartbeats 400000 in
/-- The body's first sum at row `r`, lane `j`: the one-hot row times the block (twice: the block, and the block
    minus itself), plus the indicator times the carried row. -/
theorem pay4_raw (i : grid1.Coords) (x1 : Vec Ideal S1x512x1 .i32) (x0 : Vec Ideal S1x512x512 .f32) (xs : Vec Ideal S1x512 .f32) (r j : Fin 512) :
    k1_pay4 i x1 x0 xs (ix2 r j)
      = (∑ q : Fin 512, oh (x1 (ix3 0 r 0)) (Scalar.muli (BitVec.ofNat 32 (i 1).val) 512#32) q.val * x0 (ix3 0 q j))
        + (∑ q : Fin 512, oh (x1 (ix3 0 r 0)) (Scalar.muli (BitVec.ofNat 32 (i 1).val) 512#32) q.val * (x0 (ix3 0 q j) - x0 (ix3 0 q j)))
        + ng (x1 (ix3 0 r 0)) (Scalar.muli (BitVec.ofNat 32 (i 1).val) 512#32) * xs (ix2 0 j) := by
  unfold k1_pay4
  simp only [addf_apply, mulf_apply, matmul_constant_zero_apply, lhsIdx_eq, rhsIdx_eq, subf_apply, truncf_apply, sitofp_apply, extui_apply, cmpi_apply, subi_apply, broadcast_apply, shapeCast_self, bc_col, bc_row]
  rw [iota_fun, cast_x0_fun, cast_x1_fun]
  rw [← Equiv.sum_comp cE (fun q : Fin 512 => oh (x1 (ix3 0 r 0)) (Scalar.muli (BitVec.ofNat 32 (i 1).val) 512#32) q.val * x0 (ix3 0 q j)),
    ← Equiv.sum_comp cE (fun q : Fin 512 => oh (x1 (ix3 0 r 0)) (Scalar.muli (BitVec.ofNat 32 (i 1).val) 512#32) q.val * (x0 (ix3 0 q j) - x0 (ix3 0 q j)))]
  rfl

theorem toInt_bit (b : BitVec 1) : ((FloatOps.sitofp .f32 (BitVec.setWidth 32 b) : Ideal .f32) : EReal) = if b = 1#1 then 1 else 0 := by
  rcases BitVec.eq_zero_or_eq_one b with h | h
  · subst h
    show (((BitVec.setWidth 32 (0#1)).toInt : ℝ) : EReal) = _
    rw [show (BitVec.setWidth 32 (0#1)).toInt = 0 from by decide, if_neg (by decide)]; simp
  · subst h
    show (((BitVec.setWidth 32 (1#1)).toInt : ℝ) : EReal) = _
    rw [show (BitVec.setWidth 32 (1#1)).toInt = 1 from by decide, if_pos rfl]; simp

theorem oh_eq (s b k : ℕ) (hs : s < 4096) (hb : b ≤ 2048) (hk : k < 512) :
    oh (BitVec.ofNat 32 s) (BitVec.ofNat 32 b) k = if s = b + k then 1 else 0 := by
  unfold oh
  rw [toInt_bit]
  have hw : (IntOp.cmpi .eq (IntOp.subi (BitVec.ofNat 32 s) (BitVec.ofNat 32 b)) (BitVec.ofNat 32 k) = 1#1) ↔ s = b + k := by
    unfold IntOp.cmpi IntOp.subi
    constructor
    · intro h
      have h' : BitVec.ofBool ((BitVec.ofNat 32 s - BitVec.ofNat 32 b) == BitVec.ofNat 32 k) = 1#1 := h
      have h2 : (BitVec.ofNat 32 s - BitVec.ofNat 32 b) = BitVec.ofNat 32 k := by
        by_contra hne
        rw [show ((BitVec.ofNat 32 s - BitVec.ofNat 32 b) == BitVec.ofNat 32 k) = false from by simpa using hne] at h'
        exact absurd h' (by decide)
      have h3 := congrArg BitVec.toNat h2
      simp only [BitVec.toNat_sub, BitVec.toNat_ofNat] at h3
      omega
    · intro h
      subst h
      have h2 : (BitVec.ofNat 32 (b + k) - BitVec.ofNat 32 b) = BitVec.ofNat 32 k := by
        apply BitVec.eq_of_toNat_eq
        simp only [BitVec.toNat_sub, BitVec.toNat_ofNat]
        omega
      show BitVec.ofBool ((BitVec.ofNat 32 (b + k) - BitVec.ofNat 32 b) == BitVec.ofNat 32 k) = 1#1
      rw [h2]; simp
  by_cases h : s = b + k
  · rw [if_pos (hw.mpr h), if_pos h]
  · rw [if_neg (fun e => h (hw.mp e)), if_neg h]

theorem ng_eq (s b : ℕ) (hs : s < 4096) (hb : b ≤ 2048) :
    ng (BitVec.ofNat 32 s) (BitVec.ofNat 32 b) = if s < b then 1 else 0 := by
  unfold ng
  rw [toInt_bit]
  have hw : (IntOp.cmpi .slt (IntOp.subi (BitVec.ofNat 32 s) (BitVec.ofNat 32 b)) 0#32 = 1#1) ↔ s < b := by
    unfold IntOp.cmpi IntOp.subi
    have hslt : (BitVec.ofNat 32 s - BitVec.ofNat 32 b).slt 0#32 = decide (s < b) := by
      rw [BitVec.slt_eq_decide]
      have hn : (BitVec.ofNat 32 s - BitVec.ofNat 32 b).toNat = (4294967296 - b + s) % 4294967296 := by
        simp only [BitVec.toNat_sub, BitVec.toNat_ofNat]; omega
      rw [BitVec.toInt_eq_toNat_cond, hn]
      simp only [BitVec.toInt_zero]
      by_cases hlt : s < b
      · rw [decide_eq_true hlt]; simp only [decide_eq_true_eq]; split <;> omega
      · rw [decide_eq_false hlt]; simp only [decide_eq_false_iff_not]; split <;> omega
    show BitVec.ofBool ((BitVec.ofNat 32 s - BitVec.ofNat 32 b).slt 0#32) = 1#1 ↔ _
    rw [hslt]
    by_cases hlt : s < b <;> simp [hlt]
  by_cases h : s < b
  · rw [if_pos (hw.mpr h), if_pos h]
  · rw [if_neg (fun e => h (hw.mp e)), if_neg h]

end R1V

end Cert.KernelIdeal.Hand
end
-- ==== Proof.KI.R1ValueRead.lean ====
/- The second pipelined region at the ideal values: where the windows' blocks sit in their arrays (block row
   `t mod 4` of batch row `t / 4`), the two stores' payloads read at an element, and the body's first sum as a
   selection: the block's row at the source position when it lies in the block, else the carried row. -/
import proofs.«144746_j73340861547085_2_alg».proof.Proof.KI.R1ValueBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.Ideal
open scoped BigOperators

namespace R1V

section
variable (V : (c : Dev nD) → (b : Ref sig .tc) → Buf (Elt Ideal) ((c : Thread nD τ).loc b))

/-- The windows' block indices and the inner grid coordinate at point `t` (the 64 points, 4 per batch row). -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_3.index t (0 : Fin 3) = t.val / 4 ∧ win1_3.index t (1 : Fin 3) = t.val % 4 ∧ win1_3.index t (2 : Fin 3) = 0
    ∧ win1_2.index t (0 : Fin 2) = 0 ∧ win1_2.index t (1 : Fin 2) = 0
    ∧ ((grid1.coords t) 1).val = t.val % 4 :=
  (by decide +kernel : ∀ t : Fin grid1.N, _)

theorem N64 : cfg1.N = 64 := N_1

/-- The block of values at point `t`: rows `512 · (t mod 4) …` of batch row `t / 4`. -/
theorem iblk1_0_apply (c : Dev nD) (t : Fin cfg1.N) (z : Fin 1) (q j : Fin 512) :
    iblk1 V c 0 t (ix3 z q j) = V c main_v2_0 (ix3 ⟨t.val / 4, by have := t.isLt; have := N64; omega⟩ ⟨(t.val % 4) * 512 + q.val, by have := q.isLt; omega⟩ j) := by
  show V c main_v2_0 (((cfg1.win 0).blk t).view.emb (ix3 z q j)) = _
  obtain ⟨e0, e1, e2, -⟩ := idx_facts1 t
  congr 1
  funext a; apply Fin.ext
  match a with
  | ⟨0, _⟩ => show win1_0.index t (0 : Fin 3) * 1 + 1 * z.val = t.val / 4; have := z.isLt; omega
  | ⟨1, _⟩ => show win1_0.index t (1 : Fin 3) * 512 + 1 * q.val = t.val % 4 * 512 + q.val; omega
  | ⟨2, _⟩ => show win1_0.index t (2 : Fin 3) * 512 + 1 * j.val = j.val; omega

/-- The block of source positions at point `t`. -/
theorem iblk1_1_apply (c : Dev nD) (t : Fin cfg1.N) (z : Fin 1) (q : Fin 512) (u : Fin 1) :
    iblk1 V c 1 t (ix3 z q u) = V c main_v28 (ix3 ⟨t.val / 4, by have := t.isLt; have := N64; omega⟩ ⟨(t.val % 4) * 512 + q.val, by have := q.isLt; omega⟩ 0) := by
  show V c main_v28 (((cfg1.win 1).blk t).view.emb (ix3 z q u)) = _
  obtain ⟨-, -, -, e0, e1, e2, -⟩ := idx_facts1 t
  congr 1
  funext a; apply Fin.ext
  match a with
  | ⟨0, _⟩ => show win1_1.index t (0 : Fin 3) * 1 + 1 * z.val = t.val / 4; have := z.isLt; omega
  | ⟨1, _⟩ => show win1_1.index t (1 : Fin 3) * 512 + 1 * q.val = t.val % 4 * 512 + q.val; omega
  | ⟨2, _⟩ => show win1_1.index t (2 : Fin 3) * 1 + 1 * u.val = 0; have := u.isLt; omega

/-- The added row at point `t`: the whole one-row array. -/
theorem iblk1_2_apply (c : Dev nD) (t : Fin cfg1.N) (z : Fin 1) (j : Fin 512) :
    iblk1 V c 2 t (ix2 z j) = V c main_v20 (ix2 0 j) := by
  show V c main_v20 (((cfg1.win 2).blk t).view.emb (ix2 z j)) = _
  obtain ⟨-, -, -, -, -, -, -, -, -, e0, e1, -⟩ := idx_facts1 t
  congr 1
  funext a; apply Fin.ext
  match a with
  | ⟨0, _⟩ => show win1_2.index t (0 : Fin 2) * 1 + 1 * z.val = 0; have := z.isLt; omega
  | ⟨1, _⟩ => show win1_2.index t (1 : Fin 2) * 512 + 1 * j.val = j.val; omega
end

/-- The output store's payload at an element: the first sum plus the added row. -/
theorem pay1_apply (i : grid1.Coords) (x1 : Vec Ideal S1x512x1 .i32) (x0 : Vec Ideal S1x512x512 .f32) (xs x2 : Vec Ideal S1x512 .f32)
    (z : Fin 1) (r j : Fin 512) :
    k1_pay1 (k1_pay5 i x1 x0 xs x2) (ix3 z r j) = k1_pay4 i x1 x0 xs (ix2 r j) + x2 (ix2 0 j) := by
  unfold k1_pay1 k1_pay5
  rw [shapeCast_addUnit_apply ![512, 512] _ shapeCasts_S512x512_S1x512x512 (ix3 z r j)]
  simp only [shapeCast_self]
  rw [show (fun a : Fin 2 => (ix3 z r j) a.succ) = ix2 r j from by
    funext a
    match a with
    | ⟨0, _⟩ => rfl
    | ⟨1, _⟩ => rfl]
  rw [addf_apply, bc_row]

/-- The scratch store's payload at an element: the last line of the first sum. -/
theorem pay2_apply (v33 : FVec Ideal S512x512 .f32) (z : Fin 1) (j : Fin 512) :
    k1_pay2 v33 (ix2 z j) = v33 (ix2 511 j) := by
  unfold k1_pay2
  simp only [shapeCast_self]
  exact extractStridedSlice_apply ![511, 0] v33 slices_S512x512_o511_0_S1x512 (ix2 z j) (ix2 511 j) (fun a => by
    match a with
    | ⟨0, _⟩ => show 511 = 511 + z.val; have := z.isLt; omega
    | ⟨1, _⟩ => show j.val = 0 + j.val; omega)

/-- The row of zeros the body stores at the start of a row of blocks. -/
theorem pay3_apply (y : S1x512.Idx) : (k1_pay3 (F := Ideal)) y = 0 := by
  unfold k1_pay3
  simp only [shapeCast_self]
  show Ideal.ofBits .f32 0x00000000#32 = 0
  exact ofBits_zero_f32

theorem muli512 (l : ℕ) (hl : l < 4) : Scalar.muli (BitVec.ofNat 32 l) 512#32 = BitVec.ofNat 32 (l * 512) := by
  interval_cases l <;> rfl

set_option maxHeartbeats 800000 in
/-- THE BODY'S FIRST SUM, READ. At inner grid coordinate `l`, for a row whose source position is `s` (at most the
    row's own position) and a block finite in lane `j`: the block's row `s - 512 l` when the source lies in the block,
    else the carried row. -/
theorem pay4_val (i : grid1.Coords) (l : ℕ) (hl : (i 1).val = l) (hl4 : l < 4)
    (x1 : Vec Ideal S1x512x1 .i32) (x0 : Vec Ideal S1x512x512 .f32) (xs : Vec Ideal S1x512 .f32) (r j : Fin 512) (s : ℕ)
    (hs : x1 (ix3 0 r 0) = BitVec.ofNat 32 s) (hsle : s ≤ l * 512 + r.val)
    (hfin : ∀ q : Fin 512, ∃ a : ℝ, x0 (ix3 0 q j) = (a : EReal)) :
    k1_pay4 i x1 x0 xs (ix2 r j)
      = if h : l * 512 ≤ s then x0 (ix3 0 ⟨s - l * 512, by have := r.isLt; omega⟩ j) else xs (ix2 0 j) := by
  have hr := r.isLt
  have hs4 : s < 4096 := by omega
  have hb2 : l * 512 ≤ 2048 := by omega
  rw [pay4_raw, hs, hl, muli512 l hl4]
  have hoh : ∀ q : Fin 512, oh (BitVec.ofNat 32 s) (BitVec.ofNat 32 (l * 512)) q.val = if s = l * 512 + q.val then 1 else 0 :=
    fun q => oh_eq s (l * 512) q.val hs4 hb2 q.isLt
  have hzero : ∀ q : Fin 512, x0 (ix3 0 q j) - x0 (ix3 0 q j) = 0 := fun q => by
    obtain ⟨a, ha⟩ := hfin q
    rw [ha, ← EReal.coe_sub, sub_self, EReal.coe_zero]
  rw [Finset.sum_congr rfl (fun q _ => by rw [hoh q]),
    Finset.sum_eq_zero (s := Finset.univ) (f := fun q : Fin 512 => oh (BitVec.ofNat 32 s) (BitVec.ofNat 32 (l * 512)) q.val * (x0 (ix3 0 q j) - x0 (ix3 0 q j))) (fun q _ => by rw [hzero q, mul_zero]),
    add_zero, ng_eq s (l * 512) hs4 hb2]
  by_cases h : l * 512 ≤ s
  · rw [dif_pos h, if_neg (by omega), zero_mul, add_zero]
    rw [Finset.sum_eq_single (⟨s - l * 512, by omega⟩ : Fin 512)]
    · rw [if_pos (by show s = l * 512 + (s - l * 512); omega), one_mul]
    · intro q _ hq
      rw [if_neg (fun e => hq (Fin.ext (by show q.val = s - l * 512; omega))), zero_mul]
    · intro hne; exact absurd (Finset.mem_univ _) hne
  · rw [dif_neg h, if_pos (by omega), one_mul]
    rw [Finset.sum_eq_zero (fun q _ => by rw [if_neg (by omega), zero_mul]), zero_add]

end R1V

end Cert.KernelIdeal.Hand
end
-- ==== Proof.KI.R1Value.lean ====
/- The second pipelined region at the ideal values: its VALUE. By induction on the point, the scratch row carried
   out of a block is the value at the source of the block's last row; so every row of every block receives the value
   at its own source position (a source before the block is, by hypothesis, the source of the last position before
   the block: the carried row), plus the added row. Every point writes its own block of the result array back, and
   the blocks cover it. -/
import proofs.«144746_j73340861547085_2_alg».proof.Proof.KI.R1ValueRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.Ideal
open scoped BigOperators

namespace R1V

section
variable (V : (c : Dev nD) → (b : Ref sig .tc) → Buf (Elt Ideal) ((c : Thread nD τ).loc b)) (c : Dev nD)

/-- The scratch row the body reads at position `n`: the zeros it has just stored at the start of a row of blocks,
    else what the position before left. -/
def carryIn (n : ℕ) (hn : n < cfg1.N) : Vec Ideal S1x512 .f32 :=
  if n % 4 = 0 then k1_pay3 (F := Ideal) else (outsAt1 V c (n - 1) (by omega)).2

/-- What the output window and the scratch row hold after position `n`, in one form for both cases: the two
    stores' payloads over the point's blocks and the row read. -/
theorem outsAt1_eq (n : ℕ) (hn : n < cfg1.N) :
    outsAt1 V c n hn
      = (k1_pay1 (k1_pay5 (grid1.coords ⟨n, hn⟩) (iblk1 V c 1 ⟨n, hn⟩) (iblk1 V c 0 ⟨n, hn⟩) (carryIn V c n hn) (iblk1 V c 2 ⟨n, hn⟩)),
         k1_pay2 (k1_pay4 (grid1.coords ⟨n, hn⟩) (iblk1 V c 1 ⟨n, hn⟩) (iblk1 V c 0 ⟨n, hn⟩) (carryIn V c n hn))) := by
  unfold carryIn
  by_cases h0 : n % 4 = 0
  · rw [if_pos h0]
    rw [show outsAt1 V c n hn = _ from outsAt1_A V c ⟨n, hn⟩ h0, out1_A_3_eq, sout1_A_0_eq]
  · rw [if_neg h0]
    rw [show outsAt1 V c n hn = _ from outsAt1_B V c ⟨n, hn⟩ h0, out1_B_3_eq, sout1_B_0_eq]

end

section
variable (V : (c : Dev nD) → (b : Ref sig .tc) → Buf (Elt Ideal) ((c : Thread nD τ).loc b)) (c : Dev nD)
  (src : Fin 16 → ℕ → ℕ)

/-- The values array read at batch row `p`, position `s`, lane `j` (zero at a position outside the array). -/
def Gat (p : Fin 16) (s : ℕ) (j : Fin 512) : EReal :=
  if h : s < 2048 then V c main_v2_0 (ix3 p ⟨s, h⟩ j) else 0

theorem pOf_lt (n : ℕ) (hn : n < cfg1.N) : n / 4 < 16 := by have := N64; omega

set_option maxHeartbeats 800000 in
/-- The body's first sum at position `n` is the value at every row's source position, provided the row read (when
    `n` is not the start of a row of blocks) is the value at the source of the last position before the block. -/
theorem sum_at (hI : ∀ (p : Fin 16) (t : Fin 2048), V c main_v28 (ix3 p t 0) = BitVec.ofNat 32 (src p t.val))
    (hle : ∀ p t, src p t ≤ t)
    (hblk : ∀ p l i, i < 512 → 0 < l → src p (l * 512 + i) < l * 512 → src p (l * 512 + i) = src p (l * 512 - 1))
    (hfin : ∀ i, ∃ r : ℝ, V c main_v2_0 i = (r : EReal))
    (n : ℕ) (hn : n < cfg1.N) (XS : Vec Ideal S1x512 .f32)
    (hXS : n % 4 ≠ 0 → ∀ j : Fin 512, XS (ix2 0 j) = Gat V c ⟨n / 4, pOf_lt n hn⟩ (src ⟨n / 4, pOf_lt n hn⟩ (n % 4 * 512 - 1)) j)
    (r j : Fin 512) :
    k1_pay4 (grid1.coords ⟨n, hn⟩) (iblk1 V c 1 ⟨n, hn⟩) (iblk1 V c 0 ⟨n, hn⟩) XS (ix2 r j)
      = Gat V c ⟨n / 4, pOf_lt n hn⟩ (src ⟨n / 4, pOf_lt n hn⟩ (n % 4 * 512 + r.val)) j := by
  have hr := r.isLt
  have hl4 : n % 4 < 4 := Nat.mod_lt _ (by decide)
  have hcoord : ((grid1.coords ⟨n, hn⟩) 1).val = n % 4 := (idx_facts1 ⟨n, hn⟩).2.2.2.2.2.2.2.2.2.2.2
  have hsle := hle ⟨n / 4, pOf_lt n hn⟩ (n % 4 * 512 + r.val)
  have hword : iblk1 V c 1 ⟨n, hn⟩ (ix3 0 r 0) = BitVec.ofNat 32 (src ⟨n / 4, pOf_lt n hn⟩ (n % 4 * 512 + r.val)) := by
    rw [iblk1_1_apply V c ⟨n, hn⟩ 0 r 0]; exact hI ⟨n / 4, pOf_lt n hn⟩ ⟨n % 4 * 512 + r.val, by omega⟩
  have hbl := hblk ⟨n / 4, pOf_lt n hn⟩ (n % 4) r.val hr
  generalize src ⟨n / 4, pOf_lt n hn⟩ (n % 4 * 512 + r.val) = S at hsle hword hbl ⊢
  rw [pay4_val (grid1.coords ⟨n, hn⟩) (n % 4) hcoord hl4 _ _ XS r j S hword hsle
    (fun q => by rw [iblk1_0_apply V c ⟨n, hn⟩ 0 q j]; exact hfin _)]
  by_cases h : n % 4 * 512 ≤ S
  · rw [dif_pos h, iblk1_0_apply V c ⟨n, hn⟩ 0 _ j]
    unfold Gat
    rw [dif_pos (show S < 2048 by omega)]
    have hix : (⟨(⟨n, hn⟩ : Fin cfg1.N).val % 4 * 512 + (⟨S - n % 4 * 512, by omega⟩ : Fin 512).val, by show n % 4 * 512 + (S - n % 4 * 512) < 2048; omega⟩ : Fin 2048) = ⟨S, by omega⟩ :=
      Fin.ext (by show n % 4 * 512 + (S - n % 4 * 512) = S; omega)
    rw [hix]
  · rw [dif_neg h]
    have hl0 : n % 4 ≠ 0 := fun e => h (by rw [e]; omega)
    rw [hXS hl0 j, hbl (by omega) (by omega)]

/-- THE CARRIED ROW. After position `n` the scratch row holds the value at the source of the block's last row. -/
theorem carry_at (hI : ∀ (p : Fin 16) (t : Fin 2048), V c main_v28 (ix3 p t 0) = BitVec.ofNat 32 (src p t.val))
    (hle : ∀ p t, src p t ≤ t)
    (hblk : ∀ p l i, i < 512 → 0 < l → src p (l * 512 + i) < l * 512 → src p (l * 512 + i) = src p (l * 512 - 1))
    (hfin : ∀ i, ∃ r : ℝ, V c main_v2_0 i = (r : EReal)) :
    ∀ (n : ℕ) (hn : n < cfg1.N) (j : Fin 512),
      (outsAt1 V c n hn).2 (ix2 0 j) = Gat V c ⟨n / 4, pOf_lt n hn⟩ (src ⟨n / 4, pOf_lt n hn⟩ (n % 4 * 512 + 511)) j := by
  intro n
  induction n with
  | zero =>
    intro hn j
    rw [outsAt1_eq V c 0 hn]
    dsimp only
    rw [pay2_apply]
    exact sum_at V c src hI hle hblk hfin 0 hn _ (fun h => absurd rfl h) 511 j
  | succ n ih =>
    intro hn j
    rw [outsAt1_eq V c (n + 1) hn]
    dsimp only
    rw [pay2_apply]
    refine sum_at V c src hI hle hblk hfin (n + 1) hn _ (fun h j' => ?_) 511 j
    unfold carryIn
    rw [if_neg h]
    show (outsAt1 V c n _).2 (ix2 0 j') = _
    rw [ih (by omega) j']
    have e1 : n / 4 = (n + 1) / 4 := by omega
    have e2 : n % 4 * 512 + 511 = (n + 1) % 4 * 512 - 1 := by omega
    have e3 : (⟨n / 4, pOf_lt n (by omega)⟩ : Fin 16) = ⟨(n + 1) / 4, pOf_lt (n + 1) hn⟩ := Fin.ext e1
    rw [e3, e2]

/-- THE OUTPUT BLOCK. After position `n` the output window's buffer holds, at row `r` and lane `j`, the value at
    the row's source position plus the added row. -/
theorem out_at (hI : ∀ (p : Fin 16) (t : Fin 2048), V c main_v28 (ix3 p t 0) = BitVec.ofNat 32 (src p t.val))
    (hle : ∀ p t, src p t ≤ t)
    (hblk : ∀ p l i, i < 512 → 0 < l → src p (l * 512 + i) < l * 512 → src p (l * 512 + i) = src p (l * 512 - 1))
    (hfin : ∀ i, ∃ r : ℝ, V c main_v2_0 i = (r : EReal))
    (n : ℕ) (hn : n < cfg1.N) (z : Fin 1) (r j : Fin 512) :
    (outsAt1 V c n hn).1 (ix3 z r j)
      = Gat V c ⟨n / 4, pOf_lt n hn⟩ (src ⟨n / 4, pOf_lt n hn⟩ (n % 4 * 512 + r.val)) j + V c main_v20 (ix2 0 j) := by
  rw [outsAt1_eq V c n hn]
  dsimp only
  rw [pay1_apply, iblk1_2_apply V c ⟨n, hn⟩ 0 j]
  congr 1
  refine sum_at V c src hI hle hblk hfin n hn _ (fun h j' => ?_) r j
  unfold carryIn
  rw [if_neg h]
  have hn1 : n - 1 < cfg1.N := by omega
  rw [carry_at V c src hI hle hblk hfin (n - 1) hn1 j']
  have e1 : (n - 1) / 4 = n / 4 := by omega
  have e2 : (n - 1) % 4 * 512 + 511 = n % 4 * 512 - 1 := by omega
  have e3 : (⟨(n - 1) / 4, pOf_lt (n - 1) hn1⟩ : Fin 16) = ⟨n / 4, pOf_lt n hn⟩ := Fin.ext e1
  rw [e3, e2]

end

section
variable (V : (c : Dev nD) → (b : Ref sig .tc) → Buf (Elt Ideal) ((c : Thread nD τ).loc b)) (c : Dev nD)
  (src : Fin 16 → ℕ → ℕ)

/-- What the result array ends holding: at batch row `p`, position `t`, lane `j` the value at `t`'s source
    position plus the added row. -/
def Res : Buf (Elt Ideal) ((c : Thread nD τ).loc main_v29) :=
  fun idx : S16x2048x512.Idx => Gat V c (idx 0) (src (idx 0) (idx 1).val) (idx 2) + V c main_v20 (ix2 0 (idx 2))

set_option maxHeartbeats 800000 in
/-- What point `t` writes back is block `t` of that array. -/
theorem flushed1_3_eq (hI : ∀ (p : Fin 16) (t : Fin 2048), V c main_v28 (ix3 p t 0) = BitVec.ofNat 32 (src p t.val))
    (hle : ∀ p t, src p t ≤ t)
    (hblk : ∀ p l i, i < 512 → 0 < l → src p (l * 512 + i) < l * 512 → src p (l * 512 + i) = src p (l * 512 - 1))
    (hfin : ∀ i, ∃ r : ℝ, V c main_v2_0 i = (r : EReal)) (t : Fin cfg1.N) :
    (dat1 V c).flushed 3 t = ((cfg1.win 3).blk t).view.read (Elt Ideal) (Res V c src) := by
  show (cfg1.win 3).cut (grid1.coords t) ((dat1 V c).after 3 t) = _
  rw [after1_3]
  funext y
  obtain ⟨z, r, j, rfl⟩ : ∃ (z : Fin 1) (r j : Fin 512), y = ix3 z r j := ⟨y 0, y 1, y 2, eq_ix3 y⟩
  show (outsAt1 V c t.val t.isLt).1 (ix3 z r j) = Res V c src (((cfg1.win 3).blk t).view.emb (ix3 z r j))
  rw [out_at V c src hI hle hblk hfin t.val t.isLt z r j]
  obtain ⟨-, -, -, -, -, -, e0, e1, e2, -⟩ := idx_facts1 t
  have hemb : ((cfg1.win 3).blk t).view.emb (ix3 z r j)
      = ix3 ⟨t.val / 4, pOf_lt t.val t.isLt⟩ ⟨t.val % 4 * 512 + r.val, by have := r.isLt; omega⟩ j := by
    funext a; apply Fin.ext
    match a with
    | ⟨0, _⟩ => show win1_3.index t (0 : Fin 3) * 1 + 1 * z.val = t.val / 4; have := z.isLt; omega
    | ⟨1, _⟩ => show win1_3.index t (1 : Fin 3) * 512 + 1 * r.val = t.val % 4 * 512 + r.val; omega
    | ⟨2, _⟩ => show win1_3.index t (2 : Fin 3) * 512 + 1 * j.val = j.val; omega
  rw [hemb]
  rfl

/-- Every element of the result array lies in some point's block. -/
theorem cover1_arr3 (i : S16x2048x512.Idx) :
    ∃ t : Fin cfg1.N, (cfg1.win 3).flush t = true ∧ i ∈ ((cfg1.win 3).blk t).view.set := by
  have h0 : (i 0).val < 16 := (i 0).isLt
  have h1 : (i 1).val < 2048 := (i 1).isLt
  have h2 : (i 2).val < 512 := (i 2).isLt
  have hN := N64
  have ht : 4 * (i 0).val + (i 1).val / 512 < cfg1.N := by omega
  refine ⟨⟨4 * (i 0).val + (i 1).val / 512, ht⟩, flush1_3 _, ?_⟩
  obtain ⟨-, -, -, -, -, -, e0, e1, e2, -⟩ := idx_facts1 ⟨4 * (i 0).val + (i 1).val / 512, ht⟩
  show i ∈ ((View.whole main_v29).slice (win1_3.rect ⟨4 * (i 0).val + (i 1).val / 512, ht⟩)).set
  rw [View.set_slice_whole, Rect.mem_set_unit]
  intro a
  match a with
  | ⟨0, _⟩ =>
    show win1_3.index ⟨4 * (i 0).val + (i 1).val / 512, ht⟩ (0 : Fin 3) * 1 ≤ (i 0).val ∧ (i 0).val < win1_3.index ⟨4 * (i 0).val + (i 1).val / 512, ht⟩ (0 : Fin 3) * 1 + 1
    rw [e0]; show (4 * (i 0).val + (i 1).val / 512) / 4 * 1 ≤ (i 0).val ∧ (i 0).val < (4 * (i 0).val + (i 1).val / 512) / 4 * 1 + 1; omega
  | ⟨1, _⟩ =>
    show win1_3.index ⟨4 * (i 0).val + (i 1).val / 512, ht⟩ (1 : Fin 3) * 512 ≤ (i 1).val ∧ (i 1).val < win1_3.index ⟨4 * (i 0).val + (i 1).val / 512, ht⟩ (1 : Fin 3) * 512 + 512
    rw [e1]; show (4 * (i 0).val + (i 1).val / 512) % 4 * 512 ≤ (i 1).val ∧ (i 1).val < (4 * (i 0).val + (i 1).val / 512) % 4 * 512 + 512; omega
  | ⟨2, _⟩ =>
    show win1_3.index ⟨4 * (i 0).val + (i 1).val / 512, ht⟩ (2 : Fin 3) * 512 ≤ (i 2).val ∧ (i 2).val < win1_3.index ⟨4 * (i 0).val + (i 1).val / 512, ht⟩ (2 : Fin 3) * 512 + 512
    rw [e2]; omega

/-- The values array, the array of source positions and the added row as the region finds them, as functions of an
    index into extended reals and 32-bit words. -/
abbrev G1 : S16x2048x512.Idx → EReal := V c main_v2_0
abbrev I1 : S16x2048x1.Idx → BitVec 32 := V c main_v28
abbrev Nz1 : S1x512.Idx → EReal := V c main_v20

/-- THE VALUE OF THE REGION at the ideal values. If the array of source positions holds, at batch row `p` and
    position `t`, the word of `src p t`, where a source position is never after its position and one that lies
    before its block of 512 is the source of the last position before the block; and if the values array is finite:
    then the result array ends holding, at every position, the value at its source position plus the added row. -/
theorem value1 (hI : ∀ (p : Fin 16) (t : Fin 2048), V c main_v28 (ix3 p t 0) = BitVec.ofNat 32 (src p t.val))
    (hle : ∀ p t, src p t ≤ t)
    (hblk : ∀ p l i, i < 512 → 0 < l → src p (l * 512 + i) < l * 512 → src p (l * 512 + i) = src p (l * 512 - 1))
    (hfin : ∀ i, ∃ r : ℝ, V c main_v2_0 i = (r : EReal)) :
    ∀ (p : Fin 16) (t : Fin 2048) (j : Fin 512),
      (dat1 V c).arrAt 3 cfg1.N (ix3 p t j)
        = G1 V c (ix3 p ⟨src p t.val, by have := hle p t.val; have := t.isLt; omega⟩ j) + Nz1 V c (ix2 0 j) := by
  intro p t j
  rw [(dat1 V c).arrAt_eq_of_cover 3 (Res V c src) (fun t _ => flushed1_3_eq V c src hI hle hblk hfin t) cover1_arr3]
  show Gat V c p (src p t.val) j + V c main_v20 (ix2 0 j) = _
  unfold Gat
  rw [dif_pos (by have := hle p t.val; have := t.isLt; omega)]

end

end R1V

end Cert.KernelIdeal.Hand
end
-- ==== Proof.KI.KValue.lean ====
/-
  The idealized kernel's result, traced through the run: the last boundary holds the second region's output array;
  that region was entered with g (the first region's output array, the closed form of the matrix product plus
  bias), the fill index (the host's running maximum), and the noise row (the host's function of the first region's
  two per-batch sums and the noise base).
-/
import proofs.«144746_j73340861547085_2_alg».proof.Proof.KI.Frame
import proofs.«144746_j73340861547085_2_alg».proof.Proof.KI.Host
import proofs.«144746_j73340861547085_2_alg».proof.Proof.KI.R0Sums
import proofs.«144746_j73340861547085_2_alg».proof.Proof.KI.R1Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ)

/-- The contents the two regions are entered from, and the first region's exit contents. -/
abbrev V1 : Entry Ideal := E1 m
abbrev V6 : Entry Ideal := E6 m (half0 (F := Ideal))

/-- The result buffer at the end is the second region's output array after its last point. -/
theorem out_eq_arr (c : Dev nD) :
    W7 m half0 half1 c (Proc.devRef .tc main_v29) = (dat1 (V6 m) c).arrAt 3 cfg1.N :=
  W7_arr m half0 half1 c 3

/-- The second region is entered with the first region's output array in its first window: the closed form. -/
theorem V6_g (c : Dev nD) :
    V6 m c main_v2_0 = gK (V1 m c main_arg0) (V1 m c main_v0) (V1 m c main_v1) :=
  (W6_of m half0 c main_v2_0 (by decide) (by decide) (by decide) (by decide)).trans
    ((W2_arr m half0 c 3).trans (final3 (V1 m) c))

/-- … and with the noise row the first host stretch after the first region computes from its two sums. -/
theorem V6_noise (c : Dev nD) :
    V6 m c main_v20
      = noiseK (F := Ideal) (W2 m half0 c (Proc.devRef .tc main_v2_1)) (W2 m half0 c (Proc.devRef .tc main_v2_2))
          (W2 m half0 c (Proc.devRef .tc main_arg4)) :=
  ((StableHlo.after_of_writes_sub hostOps1_3 _ hostOps1_3_writes (by decide : main_v20 ∉ hostOps1_3_W)).trans <|
   (StableHlo.after_of_writes_sub hostOps1_2 _ hostOps1_2_writes (by decide : main_v20 ∉ hostOps1_2_W)).trans <|
   (StableHlo.after_of_writes_sub hostOps1_1 _ hostOps1_1_writes (by decide : main_v20 ∉ hostOps1_1_W))).trans
    (W3_noise m half0 c)

/-- The first region's two sum arrays at its exit, per batch. -/
theorem W2_sum (c : Dev nD) (p : Fin 16) :
    W2 m half0 c (Proc.devRef .tc main_v2_1) (ix3 p (0 : Fin 1) (0 : Fin 1))
      = ∑ l : Fin 2048, ∑ j : Fin 512, gK (V1 m c main_arg0) (V1 m c main_v0) (V1 m c main_v1) (ix3 p l j) :=
  (congrFun (W2_arr m half0 c 4) _).trans (final4 (V1 m) c p)

theorem W2_sumsq (c : Dev nD) (p : Fin 16) :
    W2 m half0 c (Proc.devRef .tc main_v2_2) (ix3 p (0 : Fin 1) (0 : Fin 1))
      = ∑ l : Fin 2048, ∑ j : Fin 512, (gK (V1 m c main_arg0) (V1 m c main_v0) (V1 m c main_v1) (ix3 p l j)
          * gK (V1 m c main_arg0) (V1 m c main_v0) (V1 m c main_v1) (ix3 p l j)) :=
  (congrFun (W2_arr m half0 c 5) _).trans (final5 (V1 m) c p)

/-- The noise base reaches the noise stretch as launched. -/
theorem W2_nb (c : Dev nD) : W2 m half0 c (Proc.devRef .tc main_arg4) = m ((c : Thread nD τ).loc main_arg4) :=
  (W2_of_ne m half0 c main_arg4 (by decide)).trans (W1_of m c main_arg4 (by decide))

/-- The first region is entered with the first argument as launched. -/
theorem V1_x (c : Dev nD) : V1 m c main_arg0 = m ((c : Thread nD τ).loc main_arg0) := W1_of m c main_arg0 (by decide)

open Idealize.ShloMosaic.StableHlo in
/-- The weight handed to the first region is the launched weight: rounding to a narrower format is the identity on
    extended reals. -/
theorem V1_w (c : Dev nD) (j : Fin 512) (k : Fin 1024) :
    (V1 m c main_v0 (ix2 j k) : EReal) = m ((c : Thread nD τ).loc main_arg2) (ix2 j k) := by
  have h : W1 m c (Proc.devRef .tc main_v0)
      = truncf (F := Ideal) FTy.bf16 (W0 m c (Proc.devRef .tc main_arg2)) bitsLt_bf16_f32 := by
    dsimp only [W1, W0, hostOps0]; after_results
  exact congrFun h (ix2 j k)

open Idealize.ShloMosaic.StableHlo in
/-- The bias handed to the first region, a one-row matrix, reads the launched bias. -/
theorem V1_b (c : Dev nD) (j : Fin 512) :
    (V1 m c main_v1 (ix2 (0 : Fin 1) j) : EReal) = m ((c : Thread nD τ).loc main_arg3) (ix1 j) := by
  have h : W1 m c (Proc.devRef .tc main_v1)
      = shapeCast S1x512 (W0 m c (Proc.devRef .tc main_arg3)) shapeCasts_S512_S1x512 := by
    dsimp only [W1, W0, hostOps0]; after_results; rfl
  exact (congrFun h (ix2 (0 : Fin 1) j)).trans (shapeCast_a_1a_apply _ _ _ _)

/-- The launched argument arrays of core `c`, as functions into the extended reals (the mask into bits). -/
abbrev aX (c : Dev nD) : S16x2048x1024.Idx → EReal := m ((c : Thread nD τ).loc main_arg0)
abbrev aMask (c : Dev nD) : IVec S16x2048 1 := m ((c : Thread nD τ).loc main_arg1)
abbrev aW (c : Dev nD) : S512x1024.Idx → EReal := m ((c : Thread nD τ).loc main_arg2)
abbrev aB (c : Dev nD) : S512.Idx → EReal := m ((c : Thread nD τ).loc main_arg3)
abbrev aNb (c : Dev nD) : S512.Idx → EReal := m ((c : Thread nD τ).loc main_arg4)

/-- The first region's output array, entry by entry, in terms of the launched arguments. -/
theorem gK_V1 (c : Dev nD) (p : Fin 16) (l : Fin 2048) (j : Fin 512) :
    gK (V1 m c main_arg0) (V1 m c main_v0) (V1 m c main_v1) (ix3 p l j)
      = (∑ k : Fin 1024, aX m c (ix3 p l k) * aW m c (ix2 j k)) + aB m c (ix1 j) := by
  rw [gK_apply, V1_b m c j, V1_x m c]
  congr 1

end Cert.KernelIdeal.Hand

end
-- ==== Proof.KI.HostIdx.lean ====
/-
  The fill index the host computes between the regions: a flag per position (the first position of every row, and
  every position after one the mask marks), the position itself where flagged and zero elsewhere, and the running
  maximum of that along each row; handed to the second region with a trailing unit axis.

  The two stretches that compute the marked positions and their running maximum are stated over typed references,
  whose contents are carried to and from the buffer's own type along an equation of types that is the identity at a
  literal reference. `hostOps1_1P` and `hostOps1_2P` are the same stretches over the bare references: equal lists by
  computation, and read with no transport left in them.
-/
import proofs.«144746_j73340861547085_2_alg».proof.Proof.KI.Segs
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

/-- A column of ones, then the first 2047 columns of the mask. -/
def flagsK (mask : IVec S16x2048 1) : IVec S16x2048 1 :=
  concatenate S16x2048 1
    [⟨S16x1, broadcastInDim S16x1 ![] bcast_S_S16x1 (constantI S_ 1 1#1)⟩,
     ⟨S16x2047, extractStridedSlice S16x2047 ![0, 0] mask slices_S16x2048_S16x2047_0_0⟩]
    concatenates_S16x1_S16x2047_S16x2048_d1

/-- The column number where the flag is set, zero elsewhere. -/
def whereK (mask : IVec S16x2048 1) : IVec S16x2048 32 :=
  select (flagsK mask)
    (broadcastInDim S16x2048 ![0, 1] bcast_S1x2048_S16x2048_0_1
      (broadcastInDim S1x2048 ![1] bcast_S2048_S1x2048_1 (iotaInDim S2048 32 0)))
    (broadcastInDim S16x2048 ![] bcast_S_S16x2048 (id (constantI S_ 32 0#32)))

/-- The running maximum of `whereK mask` along each row, from the least signed integer. -/
def idxK (mask : IVec S16x2048 1) : IVec S16x2048 32 :=
  Host.reduceWindow IntOp.maxsi ![1, 2048] ![1, 1] ![0, 2047] ![0, 0] (whereK mask)
    (broadcastInDim S_ ![] bcast_S_S_ (constantI S_ 32 2147483648#32))
    reduceWindows_S16x2048_S16x2048_w1s1p0_0_w2048s1p2047_0 h_S_

variable {F : FTy → Type} [FloatOps F]

/-- The marked positions' stretch over bare references. -/
abbrev hostOps1_1P : List (HloOp τ sig (Elt F)) :=
  [ unary main_c_7 main_call0_v0 (id : (⟨S_, .i32⟩ : BufTy).Contents (Elt F) → (⟨S_, .i32⟩ : BufTy).Contents (Elt F)),
    unary main_v25 main_call0_v1 (broadcastInDim S16x2048 ![0, 1] bcast_S1x2048_S16x2048_0_1 : (⟨S1x2048, .i32⟩ : BufTy).Contents (Elt F) → (⟨S16x2048, .i32⟩ : BufTy).Contents (Elt F)),
    unary main_call0_v0 main_call0_v2 (broadcastInDim S16x2048 ![] bcast_S_S16x2048 : (⟨S_, .i32⟩ : BufTy).Contents (Elt F) → (⟨S16x2048, .i32⟩ : BufTy).Contents (Elt F)),
    ternary main_v23 main_call0_v1 main_call0_v2 main_v26 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)) ]

/-- The running maximum's stretch over bare references. -/
abbrev hostOps1_2P : List (HloOp τ sig (Elt F)) :=
  [ nullary main_call1_c (constantI S_ 32 2147483648#32 : (⟨S_, .i32⟩ : BufTy).Contents (Elt F)),
    unary main_call1_c main_call1_v0 (broadcastInDim S_ ![] bcast_S_S_ : (⟨S_, .i32⟩ : BufTy).Contents (Elt F) → (⟨S_, .i32⟩ : BufTy).Contents (Elt F)),
    binary main_v26 main_call1_v0 main_v27 ((fun x v => Host.reduceWindow IntOp.maxsi ![1, 2048] ![1, 1] ![0, 2047] ![0, 0] x v reduceWindows_S16x2048_S16x2048_w1s1p0_0_w2048s1p2047_0 h_S_) : (⟨S16x2048, .i32⟩ : BufTy).Contents (Elt F) → (⟨S_, .i32⟩ : BufTy).Contents (Elt F) → (⟨S16x2048, .i32⟩ : BufTy).Contents (Elt F)) ]

/-- The two spellings of the marked positions' stretch are one list. -/
theorem hostOps1_1_eq : (hostOps1_1 : List (HloOp τ sig (Elt F))) = hostOps1_1P := rfl

attribute [local irreducible] Host.reduceWindow in
/-- The two spellings of the running maximum's stretch are one list. -/
theorem hostOps1_2_eq : (hostOps1_2 : List (HloOp τ sig (Elt F))) = hostOps1_2P := rfl

variable (m : (ℓ : Loc nD τ sig) → Buf (Elt F) ℓ) (h0 : Half0 F)

attribute [local irreducible] Host.reduceAdd in
set_option maxRecDepth 8192 in
/-- After the first stretch between the regions: the flags, -/
theorem W3_flags (c : Dev nD) :
    W3 m h0 c (Proc.devRef .tc main_v23) = flagsK (W2 m h0 c (Proc.devRef .tc main_arg1)) := by
  dsimp only [W3]
  generalize W2 m h0 c = Wv
  after_results_simp
  rfl

attribute [local irreducible] Host.reduceAdd in
set_option maxRecDepth 8192 in
/-- the column numbers as a one-row matrix, -/
theorem W3_iota (c : Dev nD) :
    W3 m h0 c (Proc.devRef .tc main_v25)
      = broadcastInDim S1x2048 ![1] bcast_S2048_S1x2048_1 (iotaInDim S2048 32 0) := by
  dsimp only [W3]
  generalize W2 m h0 c = Wv
  after_results_simp

attribute [local irreducible] Host.reduceAdd in
set_option maxRecDepth 8192 in
/-- and the zero. -/
theorem W3_zero (c : Dev nD) : W3 m h0 c (Proc.devRef .tc main_c_7) = constantI S_ 32 0#32 := by
  dsimp only [W3]
  generalize W2 m h0 c = Wv
  after_results_simp

attribute [local irreducible] Host.reduceWindow in
set_option maxRecDepth 8192 in
/-- The second region is entered with the running-maximum index, a trailing unit axis added. -/
theorem W6_idx (c : Dev nD) :
    W6 m h0 c (Proc.devRef .tc main_v28)
      = shapeCast S16x2048x1 (idxK (W2 m h0 c (Proc.devRef .tc main_arg1))) shapeCasts_S16x2048_S16x2048x1 := by
  have e1 := W3_flags m h0 c
  have e2 := W3_iota m h0 c
  have e3 := W3_zero m h0 c
  dsimp only [W6, W5, W4]
  rw [hostOps1_1_eq, hostOps1_2_eq]
  generalize W3 m h0 c = Wv at e1 e2 e3
  after_results_simp
  rw [e1, e2, e3]
  rfl

end Cert.KernelIdeal.Hand

end
-- ==== Proof.LibVariance.lean ====
/-
  Two forms of the variance of finitely many real numbers, and the coercion of a finite real sum into the
  extended reals.

  For reals `a i` over a finite index type with `n` elements (`n > 0`), mean `μ = (∑ a) / n`:
  the mean of the squares minus the square of the mean, `(∑ a²) / n - μ²`, equals the mean of the squared
  deviations `(∑ |a - μ|²) / n`; the latter is a sum of squares divided by a positive number, hence
  nonnegative, so clamping the former at zero from below changes nothing.
-/
import Mathlib.Data.EReal.Basic
import Mathlib.Algebra.BigOperators.Field
import Mathlib.Algebra.Order.BigOperators.Ring.Finset
import Mathlib.Tactic

namespace LibVariance

open Finset

/-- The coercion of the reals into the extended reals carries a finite sum to the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the squared deviations from the mean is the sum of the squares less `n` times the squared mean. -/
theorem sum_sq_dev {ι : Type*} [Fintype ι] (a : ι → ℝ) (n : ℝ) (hn : n = (Fintype.card ι : ℝ)) (hpos : 0 < n) :
    ∑ i, (a i - (∑ j, a j) / n) * (a i - (∑ j, a j) / n)
      = (∑ i, a i * a i) - n * ((∑ j, a j) / n * ((∑ j, a j) / n)) := by
  have hne : n ≠ 0 := ne_of_gt hpos
  set S := ∑ j, a j with hS
  have h1 : ∀ i, (a i - S / n) * (a i - S / n) = a i * a i - 2 * (S / n) * a i + (S / n) * (S / n) := fun i => by ring
  simp only [h1]
  rw [Finset.sum_add_distrib, Finset.sum_sub_distrib, ← Finset.mul_sum, Finset.sum_const, Finset.card_univ,
    nsmul_eq_mul, ← hn, ← hS]
  field_simp
  ring

/-- Mean of squares minus squared mean, clamped at zero, is the mean of the squared absolute deviations. -/
theorem variance_forms {ι : Type*} [Fintype ι] (a : ι → ℝ) (n : ℝ) (hn : n = (Fintype.card ι : ℝ)) (hpos : 0 < n) :
    max ((∑ i, a i * a i) / n - (∑ i, a i) / n * ((∑ i, a i) / n)) 0
      = (∑ i, |a i - (∑ j, a j) / n| * |a i - (∑ j, a j) / n|) / n := by
  have hne : n ≠ 0 := ne_of_gt hpos
  have habs : ∀ i, |a i - (∑ j, a j) / n| * |a i - (∑ j, a j) / n|
      = (a i - (∑ j, a j) / n) * (a i - (∑ j, a j) / n) := fun i => abs_mul_abs_self _
  simp only [habs]
  rw [sum_sq_dev a n hn hpos]
  have hnonneg : 0 ≤ ((∑ i, a i * a i) - n * ((∑ j, a j) / n * ((∑ j, a j) / n))) / n := by
    rw [← sum_sq_dev a n hn hpos]
    exact div_nonneg (Finset.sum_nonneg fun i _ => mul_self_nonneg _) hpos.le
  have heq : (∑ i, a i * a i) / n - (∑ i, a i) / n * ((∑ i, a i) / n)
      = ((∑ i, a i * a i) - n * ((∑ j, a j) / n * ((∑ j, a j) / n))) / n := by
    field_simp
  rw [heq]
  exact max_eq_left hnonneg

end LibVariance
-- ==== Proof.KI.GFinite.lean ====
/- The product plus bias of finite arrays is finite: a finite sum of products of reals plus a real. -/
import proofs.«144746_j73340861547085_2_alg».proof.Proof.KI.R0Value
import proofs.«144746_j73340861547085_2_alg».proof.Proof.LibVariance

noncomputable section

namespace Cert.KernelIdeal.Hand

open Cert.KernelIdeal Cert.KernelIdeal.Gen
open Idealize.ShloMosaic Idealize.ShloMosaic.ValueIdx
open scoped BigOperators

/-- When the three input arrays hold reals everywhere, so does the product plus bias: at every index it is the
    (real) sum over the contraction of the (real) products, plus the (real) bias entry. -/
theorem gK_finite (X : S16x2048x1024.Idx → EReal) (Wb : S512x1024.Idx → EReal) (B2 : S1x512.Idx → EReal)
    (hX : ∀ i, ∃ r : ℝ, X i = (r : EReal)) (hW : ∀ i, ∃ r : ℝ, Wb i = (r : EReal)) (hB : ∀ i, ∃ r : ℝ, B2 i = (r : EReal)) :
    ∀ i, ∃ r : ℝ, gK X Wb B2 i = (r : EReal) := by
  intro i
  choose x hx using hX
  choose w hw using hW
  choose b hb using hB
  refine ⟨(∑ k : Fin 1024, x (ix3 (i 0) (i 1) k) * w (ix2 (i 2) k)) + b (ix2 (0 : Fin 1) (i 2)), ?_⟩
  unfold gK
  rw [EReal.coe_add, LibVariance.coe_sum, hb]
  congr 1
  refine Finset.sum_congr rfl (fun k _ => ?_)
  rw [hx, hw, EReal.coe_mul]

end Cert.KernelIdeal.Hand

end
-- ==== Proof.KI.KFinal.lean ====
/-
  The idealized kernel's result, entry by entry, in terms of the launched arguments: at row position `t` of batch
  `p` and column `j`, the matrix product plus bias at the SOURCE position of `t` (the running maximum of the
  flagged positions up to `t`), plus the noise entry of column `j` — for finite inputs.
-/
import proofs.«144746_j73340861547085_2_alg».proof.Proof.KI.KValue
import proofs.«144746_j73340861547085_2_alg».proof.Proof.KI.HostIdx
import proofs.«144746_j73340861547085_2_alg».proof.Proof.KI.GFinite
import proofs.«144746_j73340861547085_2_alg».proof.Proof.LibCummax

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-- An `[a, b]` array cast to `[a, b, 1]` reads, at `(p, t, u)`, the operand at `(p, t)`. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (t : Fin b) (u : Fin 1) :
    shapeCast ⟨3, ![a, b, 1]⟩ x h (ix3 p t u) = x (ix2 p t) :=
  shapeCast_apply x h _ _ (by
    have hu : u.val = 0 := by omega
    rw [Shape.rowMajor_val_three, Shape.rowMajor_val_two]
    show p.val * b + t.val = (p.val * b + t.val) * 1 + u.val
    rw [hu, Nat.mul_one, Nat.add_zero])

/-- The mask reaches the index stretch as launched. -/
theorem W2_mask (c : Dev nD) : W2 m half0 c (Proc.devRef .tc main_arg1) = m ((c : Thread nD τ).loc main_arg1) :=
  (W2_of_ne m half0 c main_arg1 (by decide)).trans (W1_of m c main_arg1 (by decide))

/-- The source position of `t` in batch `p`: the running maximum of the flagged positions up to `t`. -/
abbrev srcK (c : Dev nD) (p : Fin 16) (t : ℕ) : ℕ := LibCummax.src (flagsK (aMask m c)) p t

/-- The second region's index window holds the source positions. -/
theorem V6_idx (c : Dev nD) (p : Fin 16) (t : Fin 2048) :
    V6 m c main_v28 (ix3 p t (0 : Fin 1)) = BitVec.ofNat 32 (srcK m c p t.val) := by
  have h := congrFun (W6_idx m half0 c) (ix3 p t (0 : Fin 1))
  refine h.trans ?_
  rw [shapeCast_ab_ab1_apply, W2_mask]
  exact LibCummax.cummax_eq (flagsK (aMask m c)) _ _ _ _ _ _ p t

/-- The noise row at column `j` is the noise vector's entry `j`. -/
theorem noiseK_apply (s1 s2 : FVec Ideal S16x1x1 .f32) (nb : FVec Ideal S512 .f32) (j : Fin 512) :
    noiseK (F := Ideal) s1 s2 nb (ix2 (0 : Fin 1) j) = noiseVec (F := Ideal) (meanK s1) (varK s1 s2) nb (ix1 j) :=
  shapeCast_a_1a_apply _ _ _ _

/-- The two per-batch sum arrays the noise is computed from. -/
abbrev sumK (c : Dev nD) : FVec Ideal S16x1x1 .f32 := W2 m half0 c (Proc.devRef .tc main_v2_1)
abbrev sumsqK (c : Dev nD) : FVec Ideal S16x1x1 .f32 := W2 m half0 c (Proc.devRef .tc main_v2_2)

/-- The first region's output array is finite when the inputs are. -/
theorem V6_g_finite (c : Dev nD) (hX : ∀ i, ∃ r : ℝ, aX m c i = (r : EReal)) (hW : ∀ i, ∃ r : ℝ, aW m c i = (r : EReal))
    (hB : ∀ i, ∃ r : ℝ, aB m c i = (r : EReal)) : ∀ i, ∃ r : ℝ, R1V.G1 (V6 m) c i = (r : EReal) := by
  have hg : R1V.G1 (V6 m) c = gK (V1 m c main_arg0) (V1 m c main_v0) (V1 m c main_v1) := V6_g m c
  rw [hg]
  refine gK_finite _ _ _ ?_ ?_ ?_
  · intro i; rw [V1_x m c]; exact hX i
  · intro i
    obtain ⟨j, k, rfl⟩ : ∃ (j : Fin 512) (k : Fin 1024), i = ix2 j k := ⟨i 0, i 1, eq_ix2 i⟩
    obtain ⟨r, hr⟩ := hW (ix2 j k)
    exact ⟨r, (V1_w m c j k).trans hr⟩
  · intro i
    obtain ⟨u, j, rfl⟩ : ∃ (u : Fin 1) (j : Fin 512), i = ix2 u j := ⟨i 0, i 1, eq_ix2 i⟩
    obtain rfl : u = 0 := Subsingleton.elim _ _
    obtain ⟨r, hr⟩ := hB (ix1 j)
    exact ⟨r, (V1_b m c j).trans hr⟩

/-- THE KERNEL'S RESULT at `(p, t, j)`. -/
theorem kernel_value (c : Dev nD) (hX : ∀ i, ∃ r : ℝ, aX m c i = (r : EReal)) (hW : ∀ i, ∃ r : ℝ, aW m c i = (r : EReal))
    (hB : ∀ i, ∃ r : ℝ, aB m c i = (r : EReal)) (p : Fin 16) (t : Fin 2048) (j : Fin 512) :
    W7 m half0 half1 c (Proc.devRef .tc main_v29) (ix3 p t j)
      = ((∑ k : Fin 1024, aX m c (ix3 p ⟨srcK m c p t.val, Nat.lt_of_le_of_lt (LibCummax.src_le _ p t.val) t.isLt⟩ k)
            * aW m c (ix2 j k)) + aB m c (ix1 j))
        + noiseVec (F := Ideal) (meanK (sumK m c)) (varK (sumK m c) (sumsqK m c)) (aNb m c) (ix1 j) := by
  have hv := R1V.value1 (V6 m) c (fun p t => srcK m c p t) (V6_idx m c)
    (fun p t => LibCummax.src_le _ p t) (fun p l i => LibCummax.src_block _ p l i) (V6_g_finite m c hX hW hB) p t j
  refine (congrFun (out_eq_arr m c) _).trans (hv.trans ?_)
  have hg : R1V.G1 (V6 m) c = gK (V1 m c main_arg0) (V1 m c main_v0) (V1 m c main_v1) := V6_g m c
  have hn : R1V.Nz1 (V6 m) c = noiseK (F := Ideal) (sumK m c) (sumsqK m c) (W2 m half0 c (Proc.devRef .tc main_arg4)) :=
    V6_noise m c
  rw [hg, hn, gK_V1, noiseK_apply, W2_nb]

end Cert.KernelIdeal.Hand

end
-- ==== Proof.NoiseLaw.lean ====
/-
  The noise vector is the same on both sides.

  The reference takes the mean of `g` as (the sum of the entries equal to themselves) / (their number); over the
  extended reals every entry equals itself, so this is `(∑ g) / 2^24`.  The kernel takes `(∑ of its sixteen
  per-batch sums) / 2^24`, the same number once the per-batch sums add up to `∑ g`.  For the spread the reference
  averages the squared absolute deviations from the mean, the kernel takes the mean of the squares minus the
  squared mean and clamps it at zero; for FINITE entries these agree (the identity of the two forms of the variance
  over the reals, and a mean of squares is nonnegative).  From mean and spread on, both sides apply one and the
  same function.
-/
import proofs.«144746_j73340861547085_2_alg».proof.Proof.Ref.Run
import proofs.«144746_j73340861547085_2_alg».proof.Proof.Ref.Read
import proofs.«144746_j73340861547085_2_alg».proof.Proof.KI.Host
import proofs.«144746_j73340861547085_2_alg».proof.Proof.LibVariance
import Idealize.ShloMosaic.PureOps.Ideal.Laws
import Idealize.ShloMosaic.Lib.ValueIdx

set_option maxHeartbeats 100000

noncomputable section

namespace Cert.NoiseLaw

open Idealize.ShloMosaic Idealize.ShloMosaic.ValueIdx
open scoped BigOperators
open Cert.ReferenceIdeal.Hand (nansumF countF nanmeanF devsqF scaleF shiftF noiseF)
open Cert.KernelIdeal.Hand (meanK varK noiseVec noiseK)

/-- The number of entries of `g`, `16·2048·512 = 2^24`, is what the kernel's divisor literal denotes. -/
theorem ofBits_count : Ideal.ofBits .f32 0x4B800000#32 = ((16777216 : ℝ) : EReal) := by
  simp [Ideal.ofBits, Ideal.ieee, -EReal.coe_mul]; norm_num

/-- Adding one to itself `n` times in the extended reals gives the real number `n`. -/
theorem nsmul_one (n : ℕ) : n • (1 : EReal) = ((n : ℝ) : EReal) := by
  induction n with
  | zero => simp
  | succ k ih => rw [succ_nsmul, ih, Nat.cast_succ, EReal.coe_add, EReal.coe_one]

/-- Over the extended reals no entry differs from itself: the guarded sum is the plain sum. -/
theorem nansumF_apply (v : FVec Ideal Cert.ReferenceIdeal.S16x2048x512 .f32) (j : Cert.ReferenceIdeal.S_.Idx) :
    nansumF (F := Ideal) v j = ∑ i, v i := by
  unfold nansumF Host.reduceAdd
  rw [Ideal.hostReduceAdd_def, Ideal.hostReduceAdd_total _ (fun b => b.elim0)]
  simp only [select, cmpf, broadcastInDim, constant, Ideal.cmpf_def, Ideal.cmp, ne_eq, not_true_eq_false, decide_false,
    BitVec.ofBool_false, Scalar.select, Ideal.ofBits_def, Ideal.ofBits_zero_f32, zero_add]
  rfl

/-- … and the count of such entries is the number of entries. -/
theorem countF_apply (v : FVec Ideal Cert.ReferenceIdeal.S16x2048x512 .f32) (j : Cert.ReferenceIdeal.S_.Idx) :
    countF (F := Ideal) v j = ((16777216 : ℝ) : EReal) := by
  unfold countF Host.reduceAdd
  rw [Ideal.hostReduceAdd_def, Ideal.hostReduceAdd_total _ (fun b => b.elim0)]
  simp only [sitofp, extui, noti, cmpf, constant, Ideal.cmpf_def, Ideal.cmp, ne_eq, not_true_eq_false, decide_false,
    BitVec.ofBool_false, Ideal.ofBits_def, Ideal.ofBits_zero_f32, zero_add]
  have h1 : FloatOps.sitofp (F := Ideal) .f32 (BitVec.setWidth 32 (~~~(0 : BitVec 1))) = (1 : EReal) := by
    show ((((BitVec.setWidth 32 (~~~(0 : BitVec 1))).toInt : ℝ)) : EReal) = 1
    have h : (BitVec.setWidth 32 (~~~(0 : BitVec 1))).toInt = 1 := by decide
    rw [h]; simp
  have hcard : (Cert.ReferenceIdeal.S16x2048x512).numel = 16777216 := by decide
  rw [h1]
  simp only [Finset.sum_const, Finset.card_univ, Shape.card_idx, hcard]
  rw [nsmul_one]; norm_num

/-! ## Operations read at an index (each by unfolding, over variables) -/

theorem divf_apply {s : Shape} (x y : FVec Ideal s .f32) (j : s.Idx) : Host.divf x y j = Ideal.div (x j) (y j) := rfl
theorem hsqrt_apply {s : Shape} (x : FVec Ideal s .f32) (j : s.Idx) : Host.sqrt x j = Ideal.sqrt (x j) := rfl
theorem habsf_apply {s : Shape} (x : FVec Ideal s .f32) (j : s.Idx) : Host.absf x j = max (x j) (-(x j)) := rfl
/-- A scalar broadcast reads the scalar everywhere. -/
theorem bcast_scalar_apply {t : Shape} (h : (⟨0, ![]⟩ : Shape).BroadcastsInDim t ![]) (x : (⟨0, ![]⟩ : Shape).Idx → EReal) (j : t.Idx) :
    broadcastInDim t ![] h x j = x ix0 := congrArg x (eq_ix0 _)
/-- The host's sum into the scalar shape is the initial value plus the sum of all entries. -/
theorem reduceAdd_scalar_apply {s : Shape} {axes : List (Fin s.rank)} (x : FVec Ideal s .f32) (init : (⟨0, ![]⟩ : Shape).Idx → EReal)
    (h : s.ReducesTo axes ⟨0, ![]⟩) (hu : 0 < (⟨0, ![]⟩ : Shape).numel) (j : (⟨0, ![]⟩ : Shape).Idx) :
    Host.reduceAdd x init h hu j = init (Shape.Idx.first hu) + ∑ i, x i :=
  Ideal.hostReduceAdd_total h (fun b => b.elim0) x _ j

/-- The reference's mean is the sum over `2^24`. -/
theorem nanmeanF_apply (v : FVec Ideal Cert.ReferenceIdeal.S16x2048x512 .f32) (j : Cert.ReferenceIdeal.S_.Idx) :
    nanmeanF (F := Ideal) v j = Ideal.div (∑ i, v i) ((16777216 : ℝ) : EReal) := by
  rw [show nanmeanF (F := Ideal) v = Host.divf (nansumF (F := Ideal) v) (countF (F := Ideal) v) from rfl, divf_apply,
    nansumF_apply v j, countF_apply v j]

/-- The kernel's mean of the sixteen per-batch sums is their sum over `2^24`. -/
theorem meanK_apply (s : FVec Ideal Cert.KernelIdeal.S16x1x1 .f32) (j : Cert.KernelIdeal.S_.Idx) :
    meanK (F := Ideal) s j = Ideal.div (∑ q, s q) ((16777216 : ℝ) : EReal) := by
  rw [show meanK (F := Ideal) s = Host.divf (Host.reduceAdd s (constant Cert.KernelIdeal.S_ .f32 0x00000000#32)
        _ _) (constant Cert.KernelIdeal.S_ .f32 0x4B800000#32) from rfl,
    divf_apply, reduceAdd_scalar_apply, constant_apply, constant_apply, Ideal.ofBits_zero_f32, ofBits_count, zero_add]

/-! ## Sums over a rank-3 index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sixteen per-batch sums add up to the sum over all of `g`. -/
theorem sum_batches (g : FVec Ideal Cert.ReferenceIdeal.S16x2048x512 .f32) (s : FVec Ideal Cert.KernelIdeal.S16x1x1 .f32)
    (f : Cert.ReferenceIdeal.S16x2048x512.Idx → EReal)
    (h : ∀ p : Fin 16, s (ix3 p (0 : Fin 1) (0 : Fin 1)) = ∑ l : Fin 2048, ∑ j : Fin 512, f (ix3 p l j)) :
    ∑ q, s q = ∑ i, f i := by
  rw [sum_idx3 s, sum_idx3 f]
  refine Finset.sum_congr rfl fun p _ => ?_
  rw [Fin.sum_univ_one, Fin.sum_univ_one]
  exact h p

/-! ## The two means and the two spreads, for finite entries -/

/-- The coercion of the reals into the extended reals carries a maximum to the maximum. -/
theorem coe_max (x y : ℝ) : ((max x y : ℝ) : EReal) = max (x : EReal) (y : EReal) :=
  EReal.coe_strictMono.monotone.map_max

/-- A real over the entry count `2^24`, in the extended reals. -/
theorem div_count (x : ℝ) : Ideal.div (x : EReal) ((16777216 : ℝ) : EReal) = ((x / 16777216 : ℝ) : EReal) := by
  rw [Ideal.div_coe (by norm_num), ← EReal.coe_mul, mul_one_div]

/-- The number of entries of `g` is `2^24`. -/
theorem card_g : (16777216 : ℝ) = (Fintype.card Cert.ReferenceIdeal.S16x2048x512.Idx : ℝ) := by
  have hcard : (Cert.ReferenceIdeal.S16x2048x512).numel = 16777216 := by decide
  rw [Shape.card_idx, hcard]; norm_num

section Finite

variable (g : FVec Ideal Cert.ReferenceIdeal.S16x2048x512 .f32) (a : Cert.ReferenceIdeal.S16x2048x512.Idx → ℝ)
  (ha : ∀ i, g i = (a i : EReal))
include ha

/-- The sum of finite entries is the real sum. -/
theorem sum_coe : ∑ i, g i = ((∑ i, a i : ℝ) : EReal) := by
  rw [LibVariance.coe_sum]; exact Finset.sum_congr rfl fun i _ => ha i
theorem sum_sq_coe : ∑ i, g i * g i = ((∑ i, a i * a i : ℝ) : EReal) := by
  rw [LibVariance.coe_sum]; exact Finset.sum_congr rfl fun i _ => by rw [ha i, EReal.coe_mul]

/-- The reference's mean is the real mean. -/
theorem nanmean_real (j : Cert.ReferenceIdeal.S_.Idx) :
    nanmeanF (F := Ideal) g j = (((∑ i, a i) / 16777216 : ℝ) : EReal) := by
  rw [nanmeanF_apply, sum_coe g a ha, div_count]

/-- The kernel's mean, from per-batch sums that add up to the whole, is the real mean; -/
theorem meanK_real (s1 : FVec Ideal Cert.KernelIdeal.S16x1x1 .f32)
    (h1 : ∀ p : Fin 16, s1 (ix3 p (0 : Fin 1) (0 : Fin 1)) = ∑ l : Fin 2048, ∑ j : Fin 512, g (ix3 p l j))
    (j : Cert.KernelIdeal.S_.Idx) :
    meanK (F := Ideal) s1 j = (((∑ i, a i) / 16777216 : ℝ) : EReal) := by
  rw [meanK_apply, sum_batches g s1 (fun i => g i) h1, sum_coe g a ha, div_count]
/-- and its mean of squares the real mean of squares. -/
theorem meanK_sq_real (s2 : FVec Ideal Cert.KernelIdeal.S16x1x1 .f32)
    (h2 : ∀ p : Fin 16, s2 (ix3 p (0 : Fin 1) (0 : Fin 1)) = ∑ l : Fin 2048, ∑ j : Fin 512, g (ix3 p l j) * g (ix3 p l j))
    (j : Cert.KernelIdeal.S_.Idx) :
    meanK (F := Ideal) s2 j = (((∑ i, a i * a i) / 16777216 : ℝ) : EReal) := by
  rw [meanK_apply, sum_batches g s2 (fun i => g i * g i) h2, sum_sq_coe g a ha, div_count]

/-- The kernel's spread: the mean of squares less the squared mean, clamped at zero, over the reals. -/
theorem varK_real (s1 s2 : FVec Ideal Cert.KernelIdeal.S16x1x1 .f32)
    (h1 : ∀ p : Fin 16, s1 (ix3 p (0 : Fin 1) (0 : Fin 1)) = ∑ l : Fin 2048, ∑ j : Fin 512, g (ix3 p l j))
    (h2 : ∀ p : Fin 16, s2 (ix3 p (0 : Fin 1) (0 : Fin 1)) = ∑ l : Fin 2048, ∑ j : Fin 512, g (ix3 p l j) * g (ix3 p l j))
    (j : Cert.KernelIdeal.S_.Idx) :
    varK (F := Ideal) s1 s2 j
      = ((max ((∑ i, a i * a i) / 16777216 - (∑ i, a i) / 16777216 * ((∑ i, a i) / 16777216)) 0 : ℝ) : EReal) := by
  rw [show varK (F := Ideal) s1 s2 = maximumf (subf (meanK s2) (mulf (meanK s1) (meanK s1)))
        (constant Cert.KernelIdeal.S_ .f32 0x00000000#32) from rfl,
    maximumf_apply, subf_apply, mulf_apply, constant_apply, Ideal.ofBits_zero_f32,
    meanK_sq_real g a ha s2 h2 j, meanK_real g a ha s1 h1 j, ← EReal.coe_mul, ← EReal.coe_sub, ← EReal.coe_zero, ← coe_max]

/-- The squared absolute deviation of a finite entry from the mean is the real one. -/
theorem devsq_real (i : Cert.ReferenceIdeal.S16x2048x512.Idx) :
    devsqF (F := Ideal) g i
      = ((|a i - (∑ k, a k) / 16777216| * |a i - (∑ k, a k) / 16777216| : ℝ) : EReal) := by
  rw [show devsqF (F := Ideal) g
        = mulf (Host.absf (subf g (broadcastInDim Cert.ReferenceIdeal.S16x2048x512 ![] _ (nanmeanF g))))
            (Host.absf (subf g (broadcastInDim Cert.ReferenceIdeal.S16x2048x512 ![] _ (nanmeanF g)))) from rfl,
    mulf_apply, habsf_apply, subf_apply, bcast_scalar_apply, nanmean_real g a ha, ha i, ← EReal.coe_sub, ← EReal.coe_neg,
    ← coe_max, ← abs_eq_max_neg, ← EReal.coe_mul]

/-- The reference's spread: the mean of the squared absolute deviations, over the reals. -/
theorem refvar_real (j : Cert.ReferenceIdeal.S_.Idx) :
    nanmeanF (F := Ideal) (devsqF g) j
      = (((∑ i, |a i - (∑ k, a k) / 16777216| * |a i - (∑ k, a k) / 16777216|) / 16777216 : ℝ) : EReal) := by
  rw [nanmeanF_apply,
    show ∑ i, devsqF (F := Ideal) g i = ((∑ i, |a i - (∑ k, a k) / 16777216| * |a i - (∑ k, a k) / 16777216| : ℝ) : EReal) from by
      rw [LibVariance.coe_sum]; exact Finset.sum_congr rfl fun i _ => devsq_real g a ha i,
    div_count]

end Finite

/-! ## The noise vector -/

/-- From mean and spread on, both sides apply one and the same function. -/
theorem noiseF_eq_noiseVec (g : FVec Ideal Cert.ReferenceIdeal.S16x2048x512 .f32) (nb : FVec Ideal Cert.ReferenceIdeal.S512 .f32) :
    noiseF (F := Ideal) g nb = noiseVec (F := Ideal) (nanmeanF g) (nanmeanF (devsqF g)) nb := by
  unfold noiseF shiftF scaleF noiseVec
  rfl

/-- THE NOISE LAW. For finite `g`, from per-batch sums of `g` and of its squares the kernel's host stages compute the
    reference's noise vector: the two means are the same real number, and the two spreads — the clamped mean of
    squares less squared mean, and the mean squared absolute deviation — are the two forms of the variance. -/
theorem noise_eq (g : FVec Ideal Cert.ReferenceIdeal.S16x2048x512 .f32) (hfin : ∀ i, ∃ r : ℝ, g i = (r : EReal))
    (s1 s2 : FVec Ideal Cert.KernelIdeal.S16x1x1 .f32)
    (h1 : ∀ p : Fin 16, s1 (ix3 p (0 : Fin 1) (0 : Fin 1)) = ∑ l : Fin 2048, ∑ j : Fin 512, g (ix3 p l j))
    (h2 : ∀ p : Fin 16, s2 (ix3 p (0 : Fin 1) (0 : Fin 1)) = ∑ l : Fin 2048, ∑ j : Fin 512, g (ix3 p l j) * g (ix3 p l j))
    (nb : FVec Ideal Cert.ReferenceIdeal.S512 .f32) :
    noiseVec (F := Ideal) (meanK s1) (varK s1 s2) nb = noiseF (F := Ideal) g nb := by
  choose a ha using hfin
  have hmean : meanK (F := Ideal) s1 = nanmeanF (F := Ideal) g := funext fun j => by
    rw [meanK_real g a ha s1 h1 j, nanmean_real g a ha j]
  have hvar : varK (F := Ideal) s1 s2 = nanmeanF (F := Ideal) (devsqF g) := funext fun j => by
    rw [varK_real g a ha s1 s2 h1 h2 j, refvar_real g a ha j, LibVariance.variance_forms a 16777216 card_g (by norm_num)]
  rw [noiseF_eq_noiseVec, hmean, hvar]

/-! ## The product stage of finite inputs is finite -/

/-- If every entry of `x`, `W` and `b` is a real number, so is every entry of the product plus bias: a finite sum of
    products of reals, plus a real. -/
theorem stage_g_finite (x : FVec Ideal Cert.ReferenceIdeal.S16x2048x1024 .f32) (W : FVec Ideal Cert.ReferenceIdeal.S512x1024 .f32)
    (b : FVec Ideal Cert.ReferenceIdeal.S512 .f32)
    (hx : ∀ i, ∃ r : ℝ, x i = (r : EReal)) (hW : ∀ i, ∃ r : ℝ, W i = (r : EReal)) (hb : ∀ i, ∃ r : ℝ, b i = (r : EReal)) :
    ∀ i, ∃ r : ℝ, Cert.ReferenceIdeal.Hand.stage_g x W b i = (r : EReal) := by
  choose xr hxr using hx
  choose wr hwr using hW
  choose br hbr using hb
  intro i
  obtain ⟨p, l, j, rfl⟩ : ∃ (p : Fin 16) (l : Fin 2048) (j : Fin 512), i = ix3 p l j := ⟨i 0, i 1, i 2, eq_ix3 i⟩
  refine ⟨(∑ k : Fin 1024, xr (ix3 p l k) * wr (ix2 j k)) + br (ix1 j), ?_⟩
  rw [Cert.ReferenceIdeal.Hand.stage_g_apply, EReal.coe_add, LibVariance.coe_sum, hbr]
  congr 1
  exact Finset.sum_congr rfl fun k _ => by rw [hxr, hwr, EReal.coe_mul]

end Cert.NoiseLaw

end
-- ==== Proof.Bridge.lean ====
/-
  The idealized kernel's result is the reference's, for finite inputs.

  Entry by entry: the kernel's result at row position `t` of batch `p` and column `j` is the matrix product plus bias
  at the source position of `t` (the last flagged position at or before `t`) plus the noise entry of column `j`, and so
  is the reference's.  The source positions agree because both programs flag the positions by the same construction;
  the product terms are the same sum; and the noise entries agree by the noise law — the kernel's per-batch sums of the
  product stage and of its squares add up to the whole sums, and for finite entries the two forms of the spread
  coincide.
-/
import proofs.«144746_j73340861547085_2_alg».proof.Proof.KI.KFinal
import proofs.«144746_j73340861547085_2_alg».proof.Proof.Ref.Value
import proofs.«144746_j73340861547085_2_alg».proof.Proof.NoiseLaw

set_option maxHeartbeats 200000

noncomputable section

namespace Cert.Bridge

open Idealize.ShloMosaic Idealize.ShloMosaic.TcCoe Idealize.ShloMosaic.ValueIdx
open Cert.KernelIdeal.Hand (aX aMask aW aB aNb W7 half0 half1 kernel_value sumK sumsqK srcK meanK varK noiseVec W2_sum W2_sumsq gK_V1 flagsK)
open Cert.ReferenceIdeal.Hand (refOut refOut_apply stage_g stage_g_apply noiseF flagsF)
open scoped BigOperators

variable (m : (ℓ : Loc Cert.KernelIdeal.nD Cert.KernelIdeal.τ Cert.KernelIdeal.sig) → Buf (Elt Ideal) ℓ)

/-- The first region's per-batch sums are those of the reference's product stage of the launched arguments, -/
theorem sumK_eq (c : Dev Cert.KernelIdeal.nD) (p : Fin 16) :
    (sumK m c (ix3 p (0 : Fin 1) (0 : Fin 1)) : EReal)
      = ∑ l : Fin 2048, ∑ j : Fin 512, stage_g (F := Ideal) (aX m c) (aW m c) (aB m c) (ix3 p l j) :=
  Eq.trans (α := EReal) (W2_sum m c p) (Finset.sum_congr rfl fun l _ => Finset.sum_congr rfl fun j _ =>
    (gK_V1 m c p l j).trans (stage_g_apply (aX m c) (aW m c) (aB m c) p l j).symm)

/-- and so are the per-batch sums of squares. -/
theorem sumsqK_eq (c : Dev Cert.KernelIdeal.nD) (p : Fin 16) :
    (sumsqK m c (ix3 p (0 : Fin 1) (0 : Fin 1)) : EReal)
      = ∑ l : Fin 2048, ∑ j : Fin 512, stage_g (F := Ideal) (aX m c) (aW m c) (aB m c) (ix3 p l j)
          * stage_g (F := Ideal) (aX m c) (aW m c) (aB m c) (ix3 p l j) :=
  Eq.trans (α := EReal) (W2_sumsq m c p) (Finset.sum_congr rfl fun l _ => Finset.sum_congr rfl fun j _ => by
    rw [gK_V1 m c p l j, stage_g_apply (aX m c) (aW m c) (aB m c) p l j])

/-- The two programs flag the same positions: the source position of `t` is the same number. -/
theorem src_eq (c : Dev Cert.KernelIdeal.nD) (p : Fin 16) (t : ℕ) :
    srcK m c p t = LibCummax.src (flagsF (aMask m c)) p t := rfl

/-- THE BRIDGE. For finite inputs the idealized kernel's result buffer holds the reference's composed term of the
    launched arguments, entry by entry. -/
theorem result_eq (c : Dev Cert.KernelIdeal.nD)
    (hX : ∀ i, ∃ r : ℝ, aX m c i = (r : EReal)) (hW : ∀ i, ∃ r : ℝ, aW m c i = (r : EReal))
    (hB : ∀ i, ∃ r : ℝ, aB m c i = (r : EReal)) :
    ∀ i : Cert.KernelIdeal.S16x2048x512.Idx, W7 m half0 half1 c (Proc.devRef .tc Cert.KernelIdeal.main_v29) i
      = refOut (F := Ideal) (aX m c) (aMask m c) (aW m c) (aB m c) (aNb m c) i := by
  intro i
  obtain ⟨p, t, j, rfl⟩ : ∃ (p : Fin 16) (t : Fin 2048) (j : Fin 512), i = ix3 p t j := ⟨i 0, i 1, i 2, eq_ix3 i⟩
  have hn := Cert.NoiseLaw.noise_eq (stage_g (F := Ideal) (aX m c) (aW m c) (aB m c))
    (Cert.NoiseLaw.stage_g_finite (aX m c) (aW m c) (aB m c) hX hW hB) (sumK m c) (sumsqK m c)
    (sumK_eq m c) (sumsqK_eq m c) (aNb m c)
  rw [kernel_value m c hX hW hB p t j, refOut_apply, stage_g_apply, hn]
  rfl

end Cert.Bridge

end
-- ==== Proof.lean ====
/-
  The certificate's claim, assembled.

  Both kernel programs (the word-level one and its idealization) run as a sequence of segments: host operations, the
  first kernel region (a matrix product with bias, and running sums of its entries and of their squares kept in two
  accumulators across the two row blocks of a batch), host operations (mean, clamped variance and the noise row from
  those sums; the fill index as a running maximum of flagged positions), and the second kernel region (a forward
  fill by one-hot selection inside each block of 512 rows, with the last filled row carried to the next block,
  plus the noise).  Their frames follow from that run.  The reference is one line of host operations, run as such.

  Over the extended reals, for finite inputs, both compute at batch p, row t, column j the product-plus-bias at the
  source row of t (the last flagged row at or before t) plus the noise entry j.  The one algebraic law between
  them is the identity of the two forms of the variance over finite reals; the forward fill by blocks agrees
  with the gather because a source lying before a block is the source of the last row before the block.
-/
import proofs.«144746_j73340861547085_2_alg».proof.Defs
import proofs.«144746_j73340861547085_2_alg».proof.Proof.Gen.Kernel
import proofs.«144746_j73340861547085_2_alg».proof.Proof.Gen.KernelIdeal
import proofs.«144746_j73340861547085_2_alg».proof.Proof.Gen.ReferenceIdeal
import proofs.«144746_j73340861547085_2_alg».proof.Proof.Gen.Pre_finite_inputs
import proofs.«144746_j73340861547085_2_alg».proof.Proof.K.Frame
import proofs.«144746_j73340861547085_2_alg».proof.Proof.KI.Frame
import proofs.«144746_j73340861547085_2_alg».proof.Proof.KI.RunValue
import proofs.«144746_j73340861547085_2_alg».proof.Proof.Ref.Value
import proofs.«144746_j73340861547085_2_alg».proof.Proof.Finite
import proofs.«144746_j73340861547085_2_alg».proof.Proof.Bridge

noncomputable section

namespace Cert.Proof

open Idealize.ShloMosaic Idealize.ShloMosaic.TcCoe Idealize.SL.Sem

/-- The word-level kernel runs to the end and leaves its arguments as launched. -/
theorem frame_p : @Cert.frame_Kernel Cert.Kernel.Gen.facts Cert.Pre_finite_inputs.Gen.facts :=
  fun m ρ _ => Cert.Kernel.Hand.frame m ρ

/-- So does its idealization. -/
theorem frame_pi : @Cert.frame_KernelIdeal Cert.KernelIdeal.Gen.facts Cert.Pre_finite_inputs.Gen.facts :=
  fun m ρ _ => Cert.KernelIdeal.Hand.frame m ρ

/-- The reference's run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run_value m ρ)

/-- The one rewrite of the idealization: a round trip through the narrower float format is the identity. -/
theorem preserves : Cert.preserves_Kernel_KernelIdeal :=
  IdealRules.truncf_extf.statement _ .f32 .bf16

/-- For finite inputs the idealized kernel and the idealized reference end with the same result. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Hand.W7 m Cert.KernelIdeal.Hand.half0 Cert.KernelIdeal.Hand.half1 c
      (Proc.devRef .tc Cert.KernelIdeal.main_v29), Cert.KernelIdeal.Hand.run_result m ρ, ?_⟩
  refine (θ_run Cert.ReferenceIdeal.defs _ _).mono (fun r h c => ⟨(h c).1.trans ?_, (h c).2⟩)
    (Cert.ReferenceIdeal.Hand.run_value m' ρ')
  obtain ⟨hX, hW, hB, hNb⟩ := Cert.Pre_finite_inputs.Hand.finite_of_pre _ _ _ _ _ (hpre c)
  rw [(hagree c).1, (hagree c).2.1, (hagree c).2.2.1, (hagree c).2.2.2.1, (hagree c).2.2.2.2]
  exact (funext (Cert.Bridge.result_eq m c hX hW hB)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
